-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x28x28x768 : Shape := ⟨4, ![64, 28, 28, 768]⟩
abbrev S8x1568x768 : Shape := ⟨3, ![8, 1568, 768]⟩
abbrev S8x768 : Shape := ⟨2, ![8, 768]⟩
abbrev S768x768 : Shape := ⟨2, ![768, 768]⟩
abbrev S768 : Shape := ⟨1, ![768]⟩
abbrev S1536x768 : Shape := ⟨2, ![1536, 768]⟩
abbrev S1536 : Shape := ⟨1, ![1536]⟩
abbrev S_ : Shape := ⟨0, ![]⟩

class Facts : Prop where
  bcast_S_S64x28x28x768 : S_.BroadcastsInDim S64x28x28x768 (![] : Fin 0 → Fin S64x28x28x768.rank)
  reducesTo_S64x28x28x768_S_d0_1_2_3 : S64x28x28x768.ReducesTo [0, 1, 2, 3] S_
  h_S_ : 0 < S_.numel
  bcast_S_S8x1568x768 : S_.BroadcastsInDim S8x1568x768 (![] : Fin 0 → Fin S8x1568x768.rank)
  reducesTo_S8x1568x768_S_d0_1_2 : S8x1568x768.ReducesTo [0, 1, 2] S_
  bcast_S_S8x768 : S_.BroadcastsInDim S8x768 (![] : Fin 0 → Fin S8x768.rank)
  reducesTo_S8x768_S_d0_1 : S8x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1536x768 : S_.BroadcastsInDim S1536x768 (![] : Fin 0 → Fin S1536x768.rank)
  reducesTo_S1536x768_S_d0_1 : S1536x768.ReducesTo [0, 1] S_
  bcast_S_S1536 : S_.BroadcastsInDim S1536 (![] : Fin 0 → Fin S1536.rank)
  reducesTo_S1536_S_d0 : S1536.ReducesTo [0] S_

variable [Facts]

def fn_part2 {F : FTy → Type} [FloatOps F] (main_arg7 : FVec F S1536 .f32) (main_arg8 : FVec F S768x768 .f32) (main_arg9 : FVec F S768 .f32) (main_v33 : IVec S_ 1) : IVec S_ 1 :=
  let main_v34 : FVec F S1536 .f32 := Host.absf main_arg7
  let main_cst_12 : FVec F S_ .f32 := constant S_ .f32 0x7F800000#32
  let main_v35 : FVec F S1536 .f32 := broadcastInDim S1536 ![] bcast_S_S1536 main_cst_12
  let main_v36 : IVec S1536 1 := cmpf .olt main_v34 main_v35
  let main_c_13 : IVec S_ 1 := constantI S_ 1 1#1
  let main_v37 : IVec S_ 1 := (fun x v => Host.reduce IntOp.andi x v reducesTo_S1536_S_d0 h_S_) main_v36 main_c_13
  let main_v38 : IVec S_ 1 := andi main_v33 main_v37
  let main_v39 : FVec F S768x768 .f32 := Host.absf main_arg8
  let main_cst_14 : FVec F S_ .f32 := constant S_ .f32 0x7F800000#32
  let main_v40 : FVec F S768x768 .f32 := broadcastInDim S768x768 ![] bcast_S_S768x768 main_cst_14
  let main_v41 : IVec S768x768 1 := cmpf .olt main_v39 main_v40
  let main_c_15 : IVec S_ 1 := constantI S_ 1 1#1
  let main_v42 : IVec S_ 1 := (fun x v => Host.reduce IntOp.andi x v reducesTo_S768x768_S_d0_1 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  main_v48

def fn_part1 {F : FTy → Type} [FloatOps F] (main_arg4 : FVec F S768x768 .f32) (main_arg5 : FVec F S768 .f32) (main_arg6 : FVec F S1536x768 .f32) (main_arg7 : FVec F S1536 .f32) (main_arg8 : FVec F S768x768 .f32) (main_arg9 : FVec F S768 .f32) (main_v13 : IVec S_ 1) (main_v16 : IVec S8x768 1) : IVec S_ 1 :=
  let main_c_5 : IVec S_ 1 := constantI S_ 1 1#1
  let main_v17 : IVec S_ 1 := (fun x v => Host.reduce IntOp.andi x v reducesTo_S8x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S1536x768 .f32 := Host.absf main_arg6
  let main_cst_10 : FVec F S_ .f32 := constant S_ .f32 0x7F800000#32
  let main_v30 : FVec F S1536x768 .f32 := broadcastInDim S1536x768 ![] bcast_S_S1536x768 main_cst_10
  let main_v31 : IVec S1536x768 1 := cmpf .olt main_v29 main_v30
  let main_c_11 : IVec S_ 1 := constantI S_ 1 1#1
  let main_v32 : IVec S_ 1 := (fun x v => Host.reduce IntOp.andi x v reducesTo_S1536x768_S_d0_1 h_S_) main_v31 main_c_11
  let main_v33 : IVec S_ 1 := andi main_v28 main_v32
  fn_part2 (F := F) main_arg7 main_arg8 main_arg9 main_v33

def fn {F : FTy → Type} [FloatOps F] (main_arg0 : FVec F S64x28x28x768 .f32) (main_arg1 : FVec F S8x1568x768 .f32) (main_arg2 : FVec F S8x768 .f32) (main_arg3 : FVec F S8x768 .f32) (main_arg4 : FVec F S768x768 .f32) (main_arg5 : FVec F S768 .f32) (main_arg6 : FVec F S1536x768 .f32) (main_arg7 : FVec F S1536 .f32) (main_arg8 : FVec F S768x768 .f32) (main_arg9 : FVec F S768 .f32) : IVec S_ 1 :=
  let main_v0 : FVec F S64x28x28x768 .f32 := Host.absf main_arg0
  let main_cst : FVec F S_ .f32 := constant S_ .f32 0x7F800000#32
  let main_v1 : FVec F S64x28x28x768 .f32 := broadcastInDim S64x28x28x768 ![] bcast_S_S64x28x28x768 main_cst
  let main_v2 : IVec S64x28x28x768 1 := cmpf .olt main_v0 main_v1
  let main_c : IVec S_ 1 := constantI S_ 1 1#1
  let main_v3 : IVec S_ 1 := (fun x v => Host.reduce IntOp.andi x v reducesTo_S64x28x28x768_S_d0_1_2_3 h_S_) main_v2 main_c
  let main_v4 : FVec F S8x1568x768 .f32 := Host.absf main_arg1
  let main_cst_0 : FVec F S_ .f32 := constant S_ .f32 0x7F800000#32
  let main_v5 : FVec F S8x1568x768 .f32 := broadcastInDim S8x1568x768 ![] bcast_S_S8x1568x768 main_cst_0
  let main_v6 : IVec S8x1568x768 1 := cmpf .olt main_v4 main_v5
  let main_c_1 : IVec S_ 1 := constantI S_ 1 1#1
  let main_v7 : IVec S_ 1 := (fun x v => Host.reduce IntOp.andi x v reducesTo_S8x1568x768_S_d0_1_2 h_S_) main_v6 main_c_1
  let main_v8 : IVec S_ 1 := andi main_v3 main_v7
  let main_v9 : FVec F S8x768 .f32 := Host.absf main_arg2
  let main_cst_2 : FVec F S_ .f32 := constant S_ .f32 0x7F800000#32
  let main_v10 : FVec F S8x768 .f32 := broadcastInDim S8x768 ![] bcast_S_S8x768 main_cst_2
  let main_v11 : IVec S8x768 1 := cmpf .olt main_v9 main_v10
  let main_c_3 : IVec S_ 1 := constantI S_ 1 1#1
  let main_v12 : IVec S_ 1 := (fun x v => Host.reduce IntOp.andi x v reducesTo_S8x768_S_d0_1 h_S_) main_v11 main_c_3
  let main_v13 : IVec S_ 1 := andi main_v8 main_v12
  let main_v14 : FVec F S8x768 .f32 := Host.absf main_arg3
  let main_cst_4 : FVec F S_ .f32 := constant S_ .f32 0x7F800000#32
  let main_v15 : FVec F S8x768 .f32 := broadcastInDim S8x768 ![] bcast_S_S8x768 main_cst_4
  let main_v16 : IVec S8x768 1 := cmpf .olt main_v14 main_v15
  fn_part1 (F := F) main_arg4 main_arg5 main_arg6 main_arg7 main_arg8 main_arg9 main_v13 main_v16
-- ==== Kernel.lean ====
abbrev S64x28x28x768 : Shape := ⟨4, ![64, 28, 28, 768]⟩
abbrev S8x1568x768 : Shape := ⟨3, ![8, 1568, 768]⟩
abbrev S8x768 : Shape := ⟨2, ![8, 768]⟩
abbrev S768x768 : Shape := ⟨2, ![768, 768]⟩
abbrev S768 : Shape := ⟨1, ![768]⟩
abbrev S1536x768 : Shape := ⟨2, ![1536, 768]⟩
abbrev S1536 : Shape := ⟨1, ![1536]⟩
abbrev S8x8x784x768 : Shape := ⟨4, ![8, 8, 784, 768]⟩
abbrev S8x8x196x768 : Shape := ⟨4, ![8, 8, 196, 768]⟩
abbrev S8x196x8x768 : Shape := ⟨4, ![8, 196, 8, 768]⟩
abbrev S1x1x8x768 : Shape := ⟨4, ![1, 1, 8, 768]⟩
abbrev S1x768 : Shape := ⟨2, ![1, 768]⟩
abbrev S1x1536 : Shape := ⟨2, ![1, 1536]⟩
abbrev S768x1536 : Shape := ⟨2, ![768, 1536]⟩
abbrev S1x8x112x768 : Shape := ⟨4, ![1, 8, 112, 768]⟩
abbrev S1x28x8x768 : Shape := ⟨4, ![1, 28, 8, 768]⟩
abbrev S8x112x768 : Shape := ⟨3, ![8, 112, 768]⟩
abbrev S112x8x768 : Shape := ⟨3, ![112, 8, 768]⟩
abbrev S1x8x768 : Shape := ⟨3, ![1, 8, 768]⟩
abbrev S28x8x768 : Shape := ⟨3, ![28, 8, 768]⟩
abbrev S2x14x8x768 : Shape := ⟨4, ![2, 14, 8, 768]⟩
abbrev S2x1x14x8x768 : Shape := ⟨5, ![2, 1, 14, 8, 768]⟩
abbrev S2x2x14x8x768 : Shape := ⟨5, ![2, 2, 14, 8, 768]⟩
abbrev S4x14x8x768 : Shape := ⟨4, ![4, 14, 8, 768]⟩
abbrev S4x14x1x8x768 : Shape := ⟨5, ![4, 14, 1, 8, 768]⟩
abbrev S4x14x2x8x768 : Shape := ⟨5, ![4, 14, 2, 8, 768]⟩
abbrev S4x28x8x768 : Shape := ⟨4, ![4, 28, 8, 768]⟩
abbrev S896x768 : Shape := ⟨2, ![896, 768]⟩
abbrev S896x1536 : Shape := ⟨2, ![896, 1536]⟩
abbrev S112x8x12x64 : Shape := ⟨4, ![112, 8, 12, 64]⟩
abbrev S112x8x1x64 : Shape := ⟨4, ![112, 8, 1, 64]⟩
abbrev S112x8x64 : Shape := ⟨3, ![112, 8, 64]⟩
abbrev S112x8x8 : Shape := ⟨3, ![112, 8, 8]⟩
abbrev S112x8 : Shape := ⟨2, ![112, 8]⟩
abbrev S112x8x1 : Shape := ⟨3, ![112, 8, 1]⟩

abbrev nBuf : Space → Nat
  | .hbm => 27
  | .vmem => 13
  | .smem => 0
  | _ => 0

abbrev bufTy : (tb : Table) → Fin (tcTables nBuf tb) → BufTy
  | .hbm, ⟨0, _⟩ => ⟨S64x28x28x768, .f32⟩
  | .hbm, ⟨1, _⟩ => ⟨S8x1568x768, .f32⟩
  | .hbm, ⟨2, _⟩ => ⟨S8x768, .f32⟩
  | .hbm, ⟨3, _⟩ => ⟨S8x768, .f32⟩
  | .hbm, ⟨4, _⟩ => ⟨S768x768, .f32⟩
  | .hbm, ⟨5, _⟩ => ⟨S768, .f32⟩
  | .hbm, ⟨6, _⟩ => ⟨S1536x768, .f32⟩
  | .hbm, ⟨7, _⟩ => ⟨S1536, .f32⟩
  | .hbm, ⟨8, _⟩ => ⟨S768x768, .f32⟩
  | .hbm, ⟨9, _⟩ => ⟨S768, .f32⟩
  | .hbm, ⟨10, _⟩ => ⟨S8x8x784x768, .f32⟩
  | .hbm, ⟨11, _⟩ => ⟨S8x8x196x768, .f32⟩
  | .hbm, ⟨12, _⟩ => ⟨S8x196x8x768, .f32⟩
  | .hbm, ⟨13, _⟩ => ⟨S1x1x8x768, .f32⟩
  | .hbm, ⟨14, _⟩ => ⟨S8x196x8x768, .f32⟩
  | .hbm, ⟨15, _⟩ => ⟨S8x196x8x768, .f32⟩
  | .hbm, ⟨16, _⟩ => ⟨S1x768, .f32⟩
  | .hbm, ⟨17, _⟩ => ⟨S1x1536, .f32⟩
  | .hbm, ⟨18, _⟩ => ⟨S1x768, .f32⟩
  | .hbm, ⟨19, _⟩ => ⟨S768x768, .f32⟩
  | .hbm, ⟨20, _⟩ => ⟨S768x768, .bf16⟩
  | .hbm, ⟨21, _⟩ => ⟨S768x1536, .f32⟩
  | .hbm, ⟨22, _⟩ => ⟨S768x1536, .bf16⟩
  | .hbm, ⟨23, _⟩ => ⟨S768x768, .f32⟩
  | .hbm, ⟨24, _⟩ => ⟨S768x768, .bf16⟩
  | .hbm, ⟨25, _⟩ => ⟨S8x8x784x768, .f32⟩
  | .hbm, ⟨26, _⟩ => ⟨S64x28x28x768, .f32⟩
  | .local _ .vmem, ⟨0, _⟩ => ⟨S1x8x112x768, .f32⟩
  | .local _ .vmem, ⟨1, _⟩ => ⟨S1x8x112x768, .f32⟩
  | .local _ .vmem, ⟨2, _⟩ => ⟨S1x28x8x768, .f32⟩
  | .local _ .vmem, ⟨3, _⟩ => ⟨S1x28x8x768, .f32⟩
  | .local _ .vmem, ⟨4, _⟩ => ⟨S8x768, .f32⟩
  | .local _ .vmem, ⟨5, _⟩ => ⟨S768x768, .bf16⟩
  | .local _ .vmem, ⟨6, _⟩ => ⟨S1x768, .f32⟩
  | .local _ .vmem, ⟨7, _⟩ => ⟨S768x1536, .bf16⟩
  | .local _ .vmem, ⟨8, _⟩ => ⟨S1x1536, .f32⟩
  | .local _ .vmem, ⟨9, _⟩ => ⟨S768x768, .bf16⟩
  | .local _ .vmem, ⟨10, _⟩ => ⟨S1x768, .f32⟩
  | .local _ .vmem, ⟨11, _⟩ => ⟨S1x8x112x768, .f32⟩
  | .local _ .vmem, ⟨12, _⟩ => ⟨S1x8x112x768, .f32⟩
  | _, _ => ⟨S64x28x28x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x112x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x28x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x112x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S64x28x28x768_S8x8x784x768 : S64x28x28x768.ShapeCasts S8x8x784x768
  shapeCasts_S8x1568x768_S8x8x196x768 : S8x1568x768.ShapeCasts S8x8x196x768
  transposes_S8x8x196x768_S8x196x8x768_0_2_1_3 : S8x8x196x768.Transposes [0, 2, 1, 3] S8x196x8x768
  bcast_S8x768_S1x1x8x768_2_3 : S8x768.BroadcastsInDim S1x1x8x768 (![2, 3] : Fin 2 → Fin S1x1x8x768.rank)
  bcast_S1x1x8x768_S8x196x8x768_0_1_2_3 : S1x1x8x768.BroadcastsInDim S8x196x8x768 (![0, 1, 2, 3] : Fin 4 → Fin S8x196x8x768.rank)
  shapeCasts_S768_S1x768 : S768.ShapeCasts S1x768
  shapeCasts_S1536_S1x1536 : S1536.ShapeCasts S1x1536
  transposes_S768x768_S768x768_1_0 : S768x768.Transposes [1, 0] S768x768
  bitsLt_bf16_f32 : FTy.bits .bf16 < FTy.bits .f32
  transposes_S1536x768_S768x1536_1_0 : S1536x768.Transposes [1, 0] S768x1536
  inb_S1x8x112x768_S1x8x112x768_0_0_0_0 : ∀ a, (![0, 0, 0, 0] : Fin 4 → Nat) a + S1x8x112x768.size a ≤ S1x8x112x768.size a
  h_S1x8x112x768 : 0 < S1x8x112x768.numel
  shapeCasts_S1x8x112x768_S8x112x768 : S1x8x112x768.ShapeCasts S8x112x768
  transposes_S8x112x768_p1_0_2_S112x8x768 : S8x112x768.Transposes [1, 0, 2] S112x8x768
  inb_S8x768_S8x768_0_0 : ∀ a, (![0, 0] : Fin 2 → Nat) a + S8x768.size a ≤ S8x768.size a
  h_S8x768 : 0 < S8x768.numel
  shapeCasts_S8x768_S1x8x768 : S8x768.ShapeCasts S1x8x768
  broadcasts_S1x8x768_S112x8x768 : S1x8x768.Broadcasts S112x8x768
  inb_S1x28x8x768_S1x28x8x768_0_0_0_0 : ∀ a, (![0, 0, 0, 0] : Fin 4 → Nat) a + S1x28x8x768.size a ≤ S1x28x8x768.size a
  h_S1x28x8x768 : 0 < S1x28x8x768.numel
  shapeCasts_S1x28x8x768_S28x8x768 : S1x28x8x768.ShapeCasts S28x8x768
  shapeCasts_S28x8x768_S2x14x8x768 : S28x8x768.ShapeCasts S2x14x8x768
  shapeCasts_S2x14x8x768_S2x1x14x8x768 : S2x14x8x768.ShapeCasts S2x1x14x8x768
  shapeCasts_S2x1x14x8x768_S2x1x14x8x768 : S2x1x14x8x768.ShapeCasts S2x1x14x8x768
  broadcasts_S2x1x14x8x768_S2x2x14x8x768 : S2x1x14x8x768.Broadcasts S2x2x14x8x768
  shapeCasts_S2x2x14x8x768_S4x14x8x768 : S2x2x14x8x768.ShapeCasts S4x14x8x768
  shapeCasts_S4x14x8x768_S4x14x1x8x768 : S4x14x8x768.ShapeCasts S4x14x1x8x768
  shapeCasts_S4x14x1x8x768_S4x14x1x8x768 : S4x14x1x8x768.ShapeCasts S4x14x1x8x768
  broadcasts_S4x14x1x8x768_S4x14x2x8x768 : S4x14x1x8x768.Broadcasts S4x14x2x8x768
  shapeCasts_S4x14x2x8x768_S4x28x8x768 : S4x14x2x8x768.ShapeCasts S4x28x8x768
  shapeCasts_S4x28x8x768_S112x8x768 : S4x28x8x768.ShapeCasts S112x8x768
  shapeCasts_S112x8x768_S896x768 : S112x8x768.ShapeCasts S896x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768x1536_S768x1536_0_0 : ∀ a, (![0, 0] : Fin 2 → Nat) a + S768x1536.size a ≤ S768x1536.size a
  h_S768x1536 : 0 < S768x1536.numel
  shapeCasts_S768x1536_S768x1536 : S768x1536.ShapeCasts S768x1536
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S896x768 : S1x768.Broadcasts S896x768
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S896x1536 : S1x1536.Broadcasts S896x1536
  shapeCasts_S896x768_S112x8x12x64 : S896x768.ShapeCasts S112x8x12x64
  slices_S896x1536_o0_0_S896x768 : S896x1536.Slices ![0, 0] S896x768
  slices_S896x1536_o0_768_S896x768 : S896x1536.Slices ![0, 768] S896x768
  slices_S112x8x12x64_o0_0_0_0_S112x8x1x64 : S112x8x12x64.Slices ![0, 0, 0, 0] S112x8x1x64
  shapeCasts_S112x8x1x64_S112x8x64 : S112x8x1x64.ShapeCasts S112x8x64
  reduces_S112x8x8_S112x8 : S112x8x8.Reduces [2] S112x8
  shapeCasts_S112x8_S112x8x1 : S112x8.ShapeCasts S112x8x1
  broadcasts_S112x8x1_S112x8x8 : S112x8x1.Broadcasts S112x8x8
  slices_S112x8x12x64_o0_0_1_0_S112x8x1x64 : S112x8x12x64.Slices ![0, 0, 1, 0] S112x8x1x64
  slices_S112x8x12x64_o0_0_2_0_S112x8x1x64 : S112x8x12x64.Slices ![0, 0, 2, 0] S112x8x1x64
  slices_S112x8x12x64_o0_0_3_0_S112x8x1x64 : S112x8x12x64.Slices ![0, 0, 3, 0] S112x8x1x64
  slices_S112x8x12x64_o0_0_4_0_S112x8x1x64 : S112x8x12x64.Slices ![0, 0, 4, 0] S112x8x1x64
  slices_S112x8x12x64_o0_0_5_0_S112x8x1x64 : S112x8x12x64.Slices ![0, 0, 5, 0] S112x8x1x64
  slices_S112x8x12x64_o0_0_6_0_S112x8x1x64 : S112x8x12x64.Slices ![0, 0, 6, 0] S112x8x1x64
  slices_S112x8x12x64_o0_0_7_0_S112x8x1x64 : S112x8x12x64.Slices ![0, 0, 7, 0] S112x8x1x64
  slices_S112x8x12x64_o0_0_8_0_S112x8x1x64 : S112x8x12x64.Slices ![0, 0, 8, 0] S112x8x1x64
  slices_S112x8x12x64_o0_0_9_0_S112x8x1x64 : S112x8x12x64.Slices ![0, 0, 9, 0] S112x8x1x64
  slices_S112x8x12x64_o0_0_10_0_S112x8x1x64 : S112x8x12x64.Slices ![0, 0, 10, 0] S112x8x1x64
  slices_S112x8x12x64_o0_0_11_0_S112x8x1x64 : S112x8x12x64.Slices ![0, 0, 11, 0] S112x8x1x64
  shapeCasts_S112x8x64_S112x8x1x64 : S112x8x64.ShapeCasts S112x8x1x64
  concatenates_S112x8x1x64_S112x8x1x64_S112x8x1x64_S112x8x1x64_S112x8x1x64_S112x8x1x64_S112x8x1x64_S112x8x1x64_S112x8x1x64_S112x8x1x64_S112x8x1x64_S112x8x1x64_S112x8x12x64_d2 : Shape.Concatenates [S112x8x1x64, S112x8x1x64, S112x8x1x64, S112x8x1x64, S112x8x1x64, S112x8x1x64, S112x8x1x64, S112x8x1x64, S112x8x1x64, S112x8x1x64, S112x8x1x64, S112x8x1x64] S112x8x12x64 2
  shapeCasts_S112x8x12x64_S896x768 : S112x8x12x64.ShapeCasts S896x768
  shapeCasts_S896x768_S112x8x768 : S896x768.ShapeCasts S112x8x768
  transposes_S112x8x768_p1_0_2_S8x112x768 : S112x8x768.Transposes [1, 0, 2] S8x112x768
  shapeCasts_S8x112x768_S1x8x112x768 : S8x112x768.ShapeCasts S1x8x112x768
  shapeCasts_S8x8x784x768_S64x28x28x768 : S8x8x784x768.ShapeCasts S64x28x28x768
  dot_S896x768_S768x768_S896x768_1_0_0_1_n_n_wf : DotDims.WF S896x768 S768x768 S896x768 [1] [0] [0] [1] [] []
  dot_S896x768_S768x1536_S896x1536_1_0_0_1_n_n_wf : DotDims.WF S896x768 S768x1536 S896x1536 [1] [0] [0] [1] [] []
  dot_S112x8x64_S112x8x64_S112x8x8_2_2_1_1_0_0_wf : DotDims.WF S112x8x64 S112x8x64 S112x8x8 [2] [2] [1] [1] [0] [0]
  dot_S112x8x8_S112x8x64_S112x8x64_2_1_1_2_0_0_wf : DotDims.WF S112x8x8 S112x8x64 S112x8x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x112x768.size a ≤ S8x8x784x768.size a
  hwx0_0 : ∀ i : grid0.Coords, EltTy.bits .f32 = 32 ∨ (Rect.block (s := S8x8x784x768) S1x8x112x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x28x8x768.size a ≤ S8x196x8x768.size a
  hwx0_1 : ∀ i : grid0.Coords, EltTy.bits .f32 = 32 ∨ (Rect.block (s := S8x196x8x768) S1x28x8x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x768.size a ≤ S8x768.size a
  hwx0_2 : ∀ i : grid0.Coords, EltTy.bits .f32 = 32 ∨ (Rect.block (s := S8x768) S8x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x1536.size a ≤ S768x1536.size a
  hwx0_5 : ∀ i : grid0.Coords, EltTy.bits .bf16 = 32 ∨ (Rect.block (s := S768x1536) S768x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1536.size a ≤ S1x1536.size a
  hwx0_6 : ∀ i : grid0.Coords, EltTy.bits .f32 = 32 ∨ (Rect.block (s := S1x1536) S1x1536.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x768.size a ≤ S768x768.size a
  hwx0_7 : ∀ i : grid0.Coords, EltTy.bits .bf16 = 32 ∨ (Rect.block (s := S768x768) S768x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x112x768.size a ≤ S8x8x784x768.size a
  hwx0_9 : ∀ i : grid0.Coords, EltTy.bits .f32 = 32 ∨ (Rect.block (s := S8x8x784x768) S1x8x112x768.size (cc0_transform_9 i) (hinb0_9 i)).WholeWords (EltTy.packing .f32)

variable [Facts₀]

def dot_S896x768_S768x768_S896x768_1_0_0_1_n_n : DotDims S896x768 S768x768 S896x768 where
  lhsContracting := [1]
  rhsContracting := [0]
  lhsNonContracting := [0]
  rhsNonContracting := [1]
  lhsBatch := []
  rhsBatch := []
  wf := dot_S896x768_S768x768_S896x768_1_0_0_1_n_n_wf
def dot_S896x768_S768x1536_S896x1536_1_0_0_1_n_n : DotDims S896x768 S768x1536 S896x1536 where
  lhsContracting := [1]
  rhsContracting := [0]
  lhsNonContracting := [0]
  rhsNonContracting := [1]
  lhsBatch := []
  rhsBatch := []
  wf := dot_S896x768_S768x1536_S896x1536_1_0_0_1_n_n_wf
def dot_S112x8x64_S112x8x64_S112x8x8_2_2_1_1_0_0 : DotDims S112x8x64 S112x8x64 S112x8x8 where
  lhsContracting := [2]
  rhsContracting := [2]
  lhsNonContracting := [1]
  rhsNonContracting := [1]
  lhsBatch := [0]
  rhsBatch := [0]
  wf := dot_S112x8x64_S112x8x64_S112x8x8_2_2_1_1_0_0_wf
def dot_S112x8x8_S112x8x64_S112x8x64_2_1_1_2_0_0 : DotDims S112x8x8 S112x8x64 S112x8x64 where
  lhsContracting := [2]
  rhsContracting := [1]
  lhsNonContracting := [1]
  rhsNonContracting := [2]
  lhsBatch := [0]
  rhsBatch := [0]
  wf := dot_S112x8x8_S112x8x64_S112x8x64_2_1_1_2_0_0_wf

abbrev win0_0 : Pipeline.Window sig grid0 :=
  Pipeline.Window.ofSpec (Memref.whole main_v0) S1x8x112x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x28x8x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S768x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S768x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x8x112x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x28x28x768 : Shape := ⟨4, ![64, 28, 28, 768]⟩
abbrev S8x1568x768 : Shape := ⟨3, ![8, 1568, 768]⟩
abbrev S8x768 : Shape := ⟨2, ![8, 768]⟩
abbrev S768x768 : Shape := ⟨2, ![768, 768]⟩
abbrev S768 : Shape := ⟨1, ![768]⟩
abbrev S1536x768 : Shape := ⟨2, ![1536, 768]⟩
abbrev S1536 : Shape := ⟨1, ![1536]⟩
abbrev S8x8x28x28x768 : Shape := ⟨5, ![8, 8, 28, 28, 768]⟩
abbrev S8x28x28x8x768 : Shape := ⟨5, ![8, 28, 28, 8, 768]⟩
abbrev S8x784x8x768 : Shape := ⟨4, ![8, 784, 8, 768]⟩
abbrev S1x1x8x768 : Shape := ⟨4, ![1, 1, 8, 768]⟩
abbrev S8x8x196x768 : Shape := ⟨4, ![8, 8, 196, 768]⟩
abbrev S8x196x8x768 : Shape := ⟨4, ![8, 196, 8, 768]⟩
abbrev S8x14x14x8x768 : Shape := ⟨5, ![8, 14, 14, 8, 768]⟩
abbrev S8x14x2x14x8x768 : Shape := ⟨6, ![8, 14, 2, 14, 8, 768]⟩
abbrev S8x28x14x8x768 : Shape := ⟨5, ![8, 28, 14, 8, 768]⟩
abbrev S8x28x14x2x8x768 : Shape := ⟨6, ![8, 28, 14, 2, 8, 768]⟩
abbrev S6272x8x768 : Shape := ⟨3, ![6272, 8, 768]⟩
abbrev S1x1x768 : Shape := ⟨3, ![1, 1, 768]⟩
abbrev S6272x8x12x64 : Shape := ⟨4, ![6272, 8, 12, 64]⟩
abbrev S6272x12x8x64 : Shape := ⟨4, ![6272, 12, 8, 64]⟩
abbrev S_ : Shape := ⟨0, ![]⟩
abbrev S6272x8x1536 : Shape := ⟨3, ![6272, 8, 1536]⟩
abbrev S1x1x1536 : Shape := ⟨3, ![1, 1, 1536]⟩
abbrev S6272x8x2x12x64 : Shape := ⟨5, ![6272, 8, 2, 12, 64]⟩
abbrev S6272x8x1x12x64 : Shape := ⟨5, ![6272, 8, 1, 12, 64]⟩
abbrev S6272x12x8x8 : Shape := ⟨4, ![6272, 12, 8, 8]⟩
abbrev S6272x12x8 : Shape := ⟨3, ![6272, 12, 8]⟩
abbrev S6272x12x8x1 : Shape := ⟨4, ![6272, 12, 8, 1]⟩

abbrev nBuf : Space → Nat
  | .hbm => 74
  | .vmem => 0
  | .smem => 0
  | _ => 0

abbrev bufTy : (tb : Table) → Fin (tcTables nBuf tb) → BufTy
  | .hbm, ⟨0, _⟩ => ⟨S64x28x28x768, .f32⟩
  | .hbm, ⟨1, _⟩ => ⟨S8x1568x768, .f32⟩
  | .hbm, ⟨2, _⟩ => ⟨S8x768, .f32⟩
  | .hbm, ⟨3, _⟩ => ⟨S8x768, .f32⟩
  | .hbm, ⟨4, _⟩ => ⟨S768x768, .f32⟩
  | .hbm, ⟨5, _⟩ => ⟨S768, .f32⟩
  | .hbm, ⟨6, _⟩ => ⟨S1536x768, .f32⟩
  | .hbm, ⟨7, _⟩ => ⟨S1536, .f32⟩
  | .hbm, ⟨8, _⟩ => ⟨S768x768, .f32⟩
  | .hbm, ⟨9, _⟩ => ⟨S768, .f32⟩
  | .hbm, ⟨10, _⟩ => ⟨S8x8x28x28x768, .f32⟩
  | .hbm, ⟨11, _⟩ => ⟨S8x28x28x8x768, .f32⟩
  | .hbm, ⟨12, _⟩ => ⟨S8x784x8x768, .f32⟩
  | .hbm, ⟨13, _⟩ => ⟨S1x1x8x768, .f32⟩
  | .hbm, ⟨14, _⟩ => ⟨S8x784x8x768, .f32⟩
  | .hbm, ⟨15, _⟩ => ⟨S8x784x8x768, .f32⟩
  | .hbm, ⟨16, _⟩ => ⟨S8x8x196x768, .f32⟩
  | .hbm, ⟨17, _⟩ => ⟨S8x196x8x768, .f32⟩
  | .hbm, ⟨18, _⟩ => ⟨S1x1x8x768, .f32⟩
  | .hbm, ⟨19, _⟩ => ⟨S8x196x8x768, .f32⟩
  | .hbm, ⟨20, _⟩ => ⟨S8x196x8x768, .f32⟩
  | .hbm, ⟨21, _⟩ => ⟨S8x14x14x8x768, .f32⟩
  | .hbm, ⟨22, _⟩ => ⟨S8x14x2x14x8x768, .f32⟩
  | .hbm, ⟨23, _⟩ => ⟨S8x28x14x8x768, .f32⟩
  | .hbm, ⟨24, _⟩ => ⟨S8x28x14x2x8x768, .f32⟩
  | .hbm, ⟨25, _⟩ => ⟨S8x28x28x8x768, .f32⟩
  | .hbm, ⟨26, _⟩ => ⟨S8x784x8x768, .f32⟩
  | .hbm, ⟨27, _⟩ => ⟨S6272x8x768, .f32⟩
  | .hbm, ⟨28, _⟩ => ⟨S6272x8x768, .f32⟩
  | .hbm, ⟨29, _⟩ => ⟨S6272x8x768, .f32⟩
  | .hbm, ⟨30, _⟩ => ⟨S1x1x768, .f32⟩
  | .hbm, ⟨31, _⟩ => ⟨S6272x8x768, .f32⟩
  | .hbm, ⟨32, _⟩ => ⟨S6272x8x768, .f32⟩
  | .hbm, ⟨33, _⟩ => ⟨S6272x8x12x64, .f32⟩
  | .hbm, ⟨34, _⟩ => ⟨S6272x12x8x64, .f32⟩
  | .hbm, ⟨35, _⟩ => ⟨S_, .f32⟩
  | .hbm, ⟨36, _⟩ => ⟨S6272x12x8x64, .f32⟩
  | .hbm, ⟨37, _⟩ => ⟨S6272x12x8x64, .f32⟩
  | .hbm, ⟨38, _⟩ => ⟨S6272x8x1536, .f32⟩
  | .hbm, ⟨39, _⟩ => ⟨S1x1x1536, .f32⟩
  | .hbm, ⟨40, _⟩ => ⟨S6272x8x1536, .f32⟩
  | .hbm, ⟨41, _⟩ => ⟨S6272x8x1536, .f32⟩
  | .hbm, ⟨42, _⟩ => ⟨S6272x8x2x12x64, .f32⟩
  | .hbm, ⟨43, _⟩ => ⟨S6272x8x1x12x64, .f32⟩
  | .hbm, ⟨44, _⟩ => ⟨S6272x8x12x64, .f32⟩
  | .hbm, ⟨45, _⟩ => ⟨S6272x12x8x64, .f32⟩
  | .hbm, ⟨46, _⟩ => ⟨S6272x8x1x12x64, .f32⟩
  | .hbm, ⟨47, _⟩ => ⟨S6272x8x12x64, .f32⟩
  | .hbm, ⟨48, _⟩ => ⟨S6272x12x8x64, .f32⟩
  | .hbm, ⟨49, _⟩ => ⟨S6272x12x8x8, .f32⟩
  | .hbm, ⟨50, _⟩ => ⟨S_, .f32⟩
  | .hbm, ⟨51, _⟩ => ⟨S6272x12x8, .f32⟩
  | .hbm, ⟨52, _⟩ => ⟨S_, .f32⟩
  | .hbm, ⟨53, _⟩ => ⟨S6272x12x8, .f32⟩
  | .hbm, ⟨54, _⟩ => ⟨S6272x12x8, .f32⟩
  | .hbm, ⟨55, _⟩ => ⟨S6272x12x8x1, .f32⟩
  | .hbm, ⟨56, _⟩ => ⟨S6272x12x8x8, .f32⟩
  | .hbm, ⟨57, _⟩ => ⟨S6272x12x8x8, .f32⟩
  | .hbm, ⟨58, _⟩ => ⟨S6272x12x8x8, .f32⟩
  | .hbm, ⟨59, _⟩ => ⟨S_, .f32⟩
  | .hbm, ⟨60, _⟩ => ⟨S6272x12x8, .f32⟩
  | .hbm, ⟨61, _⟩ => ⟨S6272x12x8x1, .f32⟩
  | .hbm, ⟨62, _⟩ => ⟨S6272x12x8x8, .f32⟩
  | .hbm, ⟨63, _⟩ => ⟨S6272x12x8x8, .f32⟩
  | .hbm, ⟨64, _⟩ => ⟨S6272x12x8x64, .f32⟩
  | .hbm, ⟨65, _⟩ => ⟨S6272x8x12x64, .f32⟩
  | .hbm, ⟨66, _⟩ => ⟨S6272x8x768, .f32⟩
  | .hbm, ⟨67, _⟩ => ⟨S6272x8x768, .f32⟩
  | .hbm, ⟨68, _⟩ => ⟨S1x1x768, .f32⟩
  | .hbm, ⟨69, _⟩ => ⟨S6272x8x768, .f32⟩
  | .hbm, ⟨70, _⟩ => ⟨S6272x8x768, .f32⟩
  | .hbm, ⟨71, _⟩ => ⟨S8x28x28x8x768, .f32⟩
  | .hbm, ⟨72, _⟩ => ⟨S8x8x28x28x768, .f32⟩
  | .hbm, ⟨73, _⟩ => ⟨S64x28x28x768, .f32⟩
  | _, _ => ⟨S64x28x28x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_0 : Ref sig .tc := ⟨.hbm, 50, rfl⟩
abbrev main_v39 : Ref sig .tc := ⟨.hbm, 51, rfl⟩
abbrev main_cst_1 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_2 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]

class Facts₀ : Prop where
  shapeCasts_S64x28x28x768_S8x8x28x28x768 : S64x28x28x768.ShapeCasts S8x8x28x28x768
  transposes_S8x8x28x28x768_S8x28x28x8x768_0_2_3_1_4 : S8x8x28x28x768.Transposes [0, 2, 3, 1, 4] S8x28x28x8x768
  shapeCasts_S8x28x28x8x768_S8x784x8x768 : S8x28x28x8x768.ShapeCasts S8x784x8x768
  bcast_S8x768_S1x1x8x768_2_3 : S8x768.BroadcastsInDim S1x1x8x768 (![2, 3] : Fin 2 → Fin S1x1x8x768.rank)
  bcast_S1x1x8x768_S8x784x8x768_0_1_2_3 : S1x1x8x768.BroadcastsInDim S8x784x8x768 (![0, 1, 2, 3] : Fin 4 → Fin S8x784x8x768.rank)
  shapeCasts_S8x1568x768_S8x8x196x768 : S8x1568x768.ShapeCasts S8x8x196x768
  transposes_S8x8x196x768_S8x196x8x768_0_2_1_3 : S8x8x196x768.Transposes [0, 2, 1, 3] S8x196x8x768
  bcast_S1x1x8x768_S8x196x8x768_0_1_2_3 : S1x1x8x768.BroadcastsInDim S8x196x8x768 (![0, 1, 2, 3] : Fin 4 → Fin S8x196x8x768.rank)
  shapeCasts_S8x196x8x768_S8x14x14x8x768 : S8x196x8x768.ShapeCasts S8x14x14x8x768
  bcast_S8x14x14x8x768_S8x14x2x14x8x768_0_1_3_4_5 : S8x14x14x8x768.BroadcastsInDim S8x14x2x14x8x768 (![0, 1, 3, 4, 5] : Fin 5 → Fin S8x14x2x14x8x768.rank)
  shapeCasts_S8x14x2x14x8x768_S8x28x14x8x768 : S8x14x2x14x8x768.ShapeCasts S8x28x14x8x768
  bcast_S8x28x14x8x768_S8x28x14x2x8x768_0_1_2_4_5 : S8x28x14x8x768.BroadcastsInDim S8x28x14x2x8x768 (![0, 1, 2, 4, 5] : Fin 5 → Fin S8x28x14x2x8x768.rank)
  shapeCasts_S8x28x14x2x8x768_S8x28x28x8x768 : S8x28x14x2x8x768.ShapeCasts S8x28x28x8x768
  shapeCasts_S8x784x8x768_S6272x8x768 : S8x784x8x768.ShapeCasts S6272x8x768
  bcast_S768_S1x1x768_2 : S768.BroadcastsInDim S1x1x768 (![2] : Fin 1 → Fin S1x1x768.rank)
  bcast_S1x1x768_S6272x8x768_0_1_2 : S1x1x768.BroadcastsInDim S6272x8x768 (![0, 1, 2] : Fin 3 → Fin S6272x8x768.rank)
  shapeCasts_S6272x8x768_S6272x8x12x64 : S6272x8x768.ShapeCasts S6272x8x12x64
  transposes_S6272x8x12x64_S6272x12x8x64_0_2_1_3 : S6272x8x12x64.Transposes [0, 2, 1, 3] S6272x12x8x64
  bcast_S_S6272x12x8x64 : S_.BroadcastsInDim S6272x12x8x64 (![] : Fin 0 → Fin S6272x12x8x64.rank)
  bcast_S1536_S1x1x1536_2 : S1536.BroadcastsInDim S1x1x1536 (![2] : Fin 1 → Fin S1x1x1536.rank)
  bcast_S1x1x1536_S6272x8x1536_0_1_2 : S1x1x1536.BroadcastsInDim S6272x8x1536 (![0, 1, 2] : Fin 3 → Fin S6272x8x1536.rank)
  shapeCasts_S6272x8x1536_S6272x8x2x12x64 : S6272x8x1536.ShapeCasts S6272x8x2x12x64
  slices_S6272x8x2x12x64_S6272x8x1x12x64_0_0_0_0_0 : S6272x8x2x12x64.Slices ![0, 0, 0, 0, 0] S6272x8x1x12x64
  shapeCasts_S6272x8x1x12x64_S6272x8x12x64 : S6272x8x1x12x64.ShapeCasts S6272x8x12x64
  slices_S6272x8x2x12x64_S6272x8x1x12x64_0_0_1_0_0 : S6272x8x2x12x64.Slices ![0, 0, 1, 0, 0] S6272x8x1x12x64
  reducesTo_S6272x12x8x8_S6272x12x8_d3 : S6272x12x8x8.ReducesTo [3] S6272x12x8
  h_S_ : 0 < S_.numel
  bcast_S_S6272x12x8 : S_.BroadcastsInDim S6272x12x8 (![] : Fin 0 → Fin S6272x12x8.rank)
  bcast_S6272x12x8_S6272x12x8x1_0_1_2 : S6272x12x8.BroadcastsInDim S6272x12x8x1 (![0, 1, 2] : Fin 3 → Fin S6272x12x8x1.rank)
  bcast_S6272x12x8x1_S6272x12x8x8_0_1_2_3 : S6272x12x8x1.BroadcastsInDim S6272x12x8x8 (![0, 1, 2, 3] : Fin 4 → Fin S6272x12x8x8.rank)
  transposes_S6272x12x8x64_S6272x8x12x64_0_2_1_3 : S6272x12x8x64.Transposes [0, 2, 1, 3] S6272x8x12x64
  shapeCasts_S6272x8x12x64_S6272x8x768 : S6272x8x12x64.ShapeCasts S6272x8x768
  shapeCasts_S6272x8x768_S8x28x28x8x768 : S6272x8x768.ShapeCasts S8x28x28x8x768
  transposes_S8x28x28x8x768_S8x8x28x28x768_0_3_1_2_4 : S8x28x28x8x768.Transposes [0, 3, 1, 2, 4] S8x8x28x28x768
  shapeCasts_S8x8x28x28x768_S64x28x28x768 : S8x8x28x28x768.ShapeCasts S64x28x28x768
  dot_S6272x8x768_S768x768_S6272x8x768_2_1_01_0_n_n_wf : DotDims.WF S6272x8x768 S768x768 S6272x8x768 [2] [1] [0, 1] [0] [] []
  dot_S6272x8x768_S1536x768_S6272x8x1536_2_1_01_0_n_n_wf : DotDims.WF S6272x8x768 S1536x768 S6272x8x1536 [2] [1] [0, 1] [0] [] []
  dot_S6272x12x8x64_S6272x12x8x64_S6272x12x8x8_3_3_2_2_01_01_wf : DotDims.WF S6272x12x8x64 S6272x12x8x64 S6272x12x8x8 [3] [3] [2] [2] [0, 1] [0, 1]
  dot_S6272x12x8x8_S6272x12x8x64_S6272x12x8x64_3_2_2_3_01_01_wf : DotDims.WF S6272x12x8x8 S6272x12x8x64 S6272x12x8x64 [3] [2] [2] [3] [0, 1] [0, 1]

variable [Facts₀]

def dot_S6272x8x768_S768x768_S6272x8x768_2_1_01_0_n_n : DotDims S6272x8x768 S768x768 S6272x8x768 where
  lhsContracting := [2]
  rhsContracting := [1]
  lhsNonContracting := [0, 1]
  rhsNonContracting := [0]
  lhsBatch := []
  rhsBatch := []
  wf := dot_S6272x8x768_S768x768_S6272x8x768_2_1_01_0_n_n_wf
def dot_S6272x8x768_S1536x768_S6272x8x1536_2_1_01_0_n_n : DotDims S6272x8x768 S1536x768 S6272x8x1536 where
  lhsContracting := [2]
  rhsContracting := [1]
  lhsNonContracting := [0, 1]
  rhsNonContracting := [0]
  lhsBatch := []
  rhsBatch := []
  wf := dot_S6272x8x768_S1536x768_S6272x8x1536_2_1_01_0_n_n_wf
def dot_S6272x12x8x64_S6272x12x8x64_S6272x12x8x8_3_3_2_2_01_01 : DotDims S6272x12x8x64 S6272x12x8x64 S6272x12x8x8 where
  lhsContracting := [3]
  rhsContracting := [3]
  lhsNonContracting := [2]
  rhsNonContracting := [2]
  lhsBatch := [0, 1]
  rhsBatch := [0, 1]
  wf := dot_S6272x12x8x64_S6272x12x8x64_S6272x12x8x8_3_3_2_2_01_01_wf
def dot_S6272x12x8x8_S6272x12x8x64_S6272x12x8x64_3_2_2_3_01_01 : DotDims S6272x12x8x8 S6272x12x8x64 S6272x12x8x64 where
  lhsContracting := [3]
  rhsContracting := [2]
  lhsNonContracting := [2]
  rhsNonContracting := [3]
  lhsBatch := [0, 1]
  rhsBatch := [0, 1]
  wf := dot_S6272x12x8x8_S6272x12x8x64_S6272x12x8x64_3_2_2_3_01_01_wf

class Facts : Prop extends Facts₀ where

variable [Facts]
-- ==== Proof.Spec.lean ====
/-
  The mathematics both programs compute, stated once over plain finite index types.

  A "row" is one spatial position (a batch entry and a pixel of the 28 × 28 grid). Its data are eight
  time steps of 768 channels from the fine grid (`S`) and from the coarse grid, up-sampled (`T`). The row's result is
  multi-head cross attention over the eight time steps: queries from `S`, keys and values from `T`, twelve heads
  of width 64, a soft-max over the key time step, and an output projection. Nothing here mentions a tile, a
  block or a memory layout: the two programs differ only in how they lay rows out.
-/
import Idealize.ShloMosaic.PureOps.Ideal
import Idealize.ShloMosaic.Lib.ValueIdx

noncomputable section

namespace Cert.Attn

open Idealize.ShloMosaic Idealize.ShloMosaic.ValueIdx

/-- The query scale, 1/8 = 64^(-1/2), as both programs spell it (the same binary word on both sides). -/
def cScale : EReal := Ideal.ofBits .f32 0x3E000000#32
/-- The value a running maximum starts from (the word of −∞). -/
def negInf : EReal := Ideal.ofBits .f32 0xFF800000#32

/-- Channel `h·64 + d` of the 768 channels: head `h`, lane `d`. -/
def hd (h : Fin 12) (d : Fin 64) : Fin 768 := ⟨h.val * 64 + d.val, by have := h.isLt; have := d.isLt; omega⟩
/-- The key half of the 1536 key/value channels. -/
def hdK (h : Fin 12) (d : Fin 64) : Fin 1536 := ⟨h.val * 64 + d.val, by have := h.isLt; have := d.isLt; omega⟩
/-- The value half of the 1536 key/value channels. -/
def hdV (h : Fin 12) (d : Fin 64) : Fin 1536 := ⟨768 + (h.val * 64 + d.val), by have := h.isLt; have := d.isLt; omega⟩
/-- The head of a channel. -/
def hOf (c : Fin 768) : Fin 12 := ⟨c.val / 64, by have := c.isLt; omega⟩
/-- The lane of a channel inside its head. -/
def dOf (c : Fin 768) : Fin 64 := ⟨c.val % 64, Nat.mod_lt _ (by decide)⟩

theorem hd_hOf_dOf (c : Fin 768) : hd (hOf c) (dOf c) = c := Fin.ext (by
  show c.val / 64 * 64 + c.val % 64 = c.val
  omega)

/-- The maximum a soft-max subtracts: the running maximum from −∞ over the eight logits, then once more against −∞
    (both programs take that second, idle maximum). -/
def rowMax (L : Fin 8 → EReal) : EReal := max negInf ((Finset.univ : Finset (Fin 8)).fold max negInf L)

/-- Soft-max over eight logits: `exp (L j − max) / ∑ exp (L j' − max)`, with the extended reals' division. -/
def softmax (L : Fin 8 → EReal) (j : Fin 8) : EReal :=
  Ideal.div (Ideal.exp (L j - rowMax L)) (∑ j' : Fin 8, Ideal.exp (L j' - rowMax L))

/-- One head of one row: logits `q·k` over the 64 lanes, soft-max over the key time step, the weighted sum of values. -/
def head (q k v : Fin 8 → Fin 64 → EReal) (tq : Fin 8) (d : Fin 64) : EReal :=
  ∑ tk : Fin 8, softmax (fun tk' => ∑ d' : Fin 64, q tq d' * k tk' d') tk * v tk d

/-- A linear map with bias: `∑ k, x k · w o k + b o`. -/
def lin {n : Nat} (x : Fin 768 → EReal) (w : Fin n → Fin 768 → EReal) (b : Fin n → EReal) (o : Fin n) : EReal :=
  (∑ k : Fin 768, x k * w o k) + b o

/-- One row of the cross attention: `S`, `T` the row's fine and coarse tokens (time step, channel); `qw`, `kvw`, `pw` the
    three weight matrices indexed (output channel, input channel); the result at (time step, channel). -/
def attnRow (S T : Fin 8 → Fin 768 → EReal) (qw : Fin 768 → Fin 768 → EReal) (qb : Fin 768 → EReal)
    (kvw : Fin 1536 → Fin 768 → EReal) (kvb : Fin 1536 → EReal) (pw : Fin 768 → Fin 768 → EReal) (pb : Fin 768 → EReal)
    (t : Fin 8) (o : Fin 768) : EReal :=
  lin (fun c => head (fun t' d => lin (S t') qw qb (hd (hOf c) d) * cScale)
                     (fun t' d => lin (T t') kvw kvb (hdK (hOf c) d))
                     (fun t' d => lin (T t') kvw kvb (hdV (hOf c) d)) t (dOf c)) pw pb o

/-! ## The rows of the two argument arrays -/

abbrev A0 := (⟨4, ![64, 28, 28, 768]⟩ : Shape).Idx → EReal
abbrev A1 := (⟨3, ![8, 1568, 768]⟩ : Shape).Idx → EReal
abbrev A2 := (⟨2, ![8, 768]⟩ : Shape).Idx → EReal
abbrev AW := (⟨2, ![768, 768]⟩ : Shape).Idx → EReal
abbrev AB := (⟨1, ![768]⟩ : Shape).Idx → EReal
abbrev AKV := (⟨2, ![1536, 768]⟩ : Shape).Idx → EReal
abbrev AKB := (⟨1, ![1536]⟩ : Shape).Idx → EReal

/-- Frame `b·8 + t` of the 64 frames: batch entry `b`, time step `t`. -/
def frame (b t : Fin 8) : Fin 64 := ⟨b.val * 8 + t.val, by have := b.isLt; have := t.isLt; omega⟩
/-- The batch entry of a frame. -/
def batchOf (f : Fin 64) : Fin 8 := ⟨f.val / 8, by have := f.isLt; omega⟩
/-- The time step of a frame. -/
def stepOf (f : Fin 64) : Fin 8 := ⟨f.val % 8, Nat.mod_lt _ (by decide)⟩
/-- The coarse token under fine pixel (h, w) at time step `t`: token `t·196 + (h/2)·14 + w/2` of the 1568. -/
def tok (t : Fin 8) (h w : Fin 28) : Fin 1568 :=
  ⟨t.val * 196 + (h.val / 2 * 14 + w.val / 2), by have := t.isLt; have := h.isLt; have := w.isLt; omega⟩

/-- The fine tokens of row (b, h, w), with the time embedding added. -/
def rowS (a0 : A0) (a2 : A2) (b : Fin 8) (h w : Fin 28) (t : Fin 8) (k : Fin 768) : EReal :=
  a0 (ix4 (frame b t) h w k) + a2 (ix2 t k)
/-- The coarse tokens of row (b, h, w), up-sampled by repetition, with the time embedding added. -/
def rowT (a1 : A1) (a3 : A2) (b : Fin 8) (h w : Fin 28) (t : Fin 8) (k : Fin 768) : EReal :=
  a1 (ix3 b (tok t h w) k) + a3 (ix2 t k)

/-- The whole result: entry (b·8 + t, h, w, o) is row (b, h, w)'s attention at (t, o). -/
def G (a0 : A0) (a1 : A1) (a2 a3 : A2) (a4 : AW) (a5 : AB) (a6 : AKV) (a7 : AKB) (a8 : AW) (a9 : AB)
    (i : (⟨4, ![64, 28, 28, 768]⟩ : Shape).Idx) : EReal :=
  attnRow (rowS a0 a2 (batchOf (i 0)) (i 1) (i 2))
          (rowT a1 a3 (batchOf (i 0)) (i 1) (i 2))
          (fun o k => a4 (ix2 o k)) (fun o => a5 (ix1 o))
          (fun o k => a6 (ix2 o k)) (fun o => a7 (ix1 o))
          (fun o k => a8 (ix2 o k)) (fun o => a9 (ix1 o))
          (stepOf (i 0)) (i 3)

end Cert.Attn

end
-- ==== Proof.RefRowA.lean ====
import proofs.«178110_j38543036514771_2_alg».proof.Proof.Gen.ReferenceIdeal.Read
import proofs.«178110_j38543036514771_2_alg».proof.Proof.Spec

import Idealize.ShloMosaic.Lib.ValueIdx
import Idealize.ShloMosaic.Lib.ValueIdxRank6
import Idealize.ShloMosaic.Lib.Pipeline.Value
import Idealize.ShloMosaic.PureOps.Ideal.Laws

noncomputable section

namespace Cert.RefValue

open Cert.ReferenceIdeal Cert.ReferenceIdeal.Gen Cert.ReferenceIdeal.Read
open Idealize.ShloMosaic Idealize.ShloMosaic.TcCoe Idealize.ShloMosaic.ValueIdx Cert.Attn

/-! Two index functions of rank n agree when their n coordinates do; each coordinate is unfolded and left to linear
    arithmetic. -/

local syntax "idx_eq1" "[" Lean.Parser.Tactic.simpLemma,* "]" : tactic
local macro_rules
  | `(tactic| idx_eq1 [$ls,*]) => `(tactic| (
      funext a; refine Fin.ext ?_
      match a with
      | ⟨0, _⟩ => (dsimp only [$ls,*] <;> omega)))

local syntax "idx_eq2" "[" Lean.Parser.Tactic.simpLemma,* "]" : tactic
local macro_rules
  | `(tactic| idx_eq2 [$ls,*]) => `(tactic| (
      funext a; refine Fin.ext ?_
      match a with
      | ⟨0, _⟩ => (dsimp only [$ls,*] <;> omega)
      | ⟨1, _⟩ => (dsimp only [$ls,*] <;> omega)))

local syntax "idx_eq3" "[" Lean.Parser.Tactic.simpLemma,* "]" : tactic
local macro_rules
  | `(tactic| idx_eq3 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)))

local syntax "idx_eq4" "[" Lean.Parser.Tactic.simpLemma,* "]" : tactic
local macro_rules
  | `(tactic| idx_eq4 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)
      | ⟨3, _⟩ => (dsimp only [$ls,*] <;> omega)))

local syntax "idx_eq5" "[" Lean.Parser.Tactic.simpLemma,* "]" : tactic
local macro_rules
  | `(tactic| idx_eq5 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)
      | ⟨3, _⟩ => (dsimp only [$ls,*] <;> omega)
      | ⟨4, _⟩ => (dsimp only [$ls,*] <;> omega)))

local syntax "idx_eq6" "[" Lean.Parser.Tactic.simpLemma,* "]" : tactic
local macro_rules
  | `(tactic| idx_eq6 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)
      | ⟨3, _⟩ => (dsimp only [$ls,*] <;> omega)
      | ⟨4, _⟩ => (dsimp only [$ls,*] <;> omega)
      | ⟨5, _⟩ => (dsimp only [$ls,*] <;> omega)))

/-!
  The two token arrays of the reference, read at a row. The reference flattens (batch entry, pixel) into one row
  number `b·784 + h·28 + w`; its fine tokens at that row are `rowS`, its coarse tokens, repeated twice along each
  grid axis, are `rowT`.
-/

/-- Pixel (h, w) of the 28 × 28 grid, flattened. -/
def pix (h w : Fin 28) : Fin 784 := ⟨h.val * 28 + w.val, by have := h.isLt; have := w.isLt; omega⟩
/-- Row (b, h, w) of the 6272 rows. -/
def row (b : Fin 8) (h w : Fin 28) : Fin 6272 :=
  ⟨b.val * 784 + (h.val * 28 + w.val), by have := b.isLt; have := h.isLt; have := w.isLt; omega⟩
/-- Half of a fine grid coordinate: the coarse coordinate above it. -/
def half (h : Fin 28) : Fin 14 := ⟨h.val / 2, by have := h.isLt; omega⟩
/-- The parity of a fine grid coordinate: which of the two copies it is. -/
def par (h : Fin 28) : Fin 2 := ⟨h.val % 2, Nat.mod_lt _ (by decide)⟩
/-- Coarse pixel (h', w') of the 14 × 14 grid, flattened. -/
def cpix (h' w' : Fin 14) : Fin 196 := ⟨h'.val * 14 + w'.val, by have := h'.isLt; have := w'.isLt; omega⟩

section
variable (a0 : (⟨S64x28x28x768, .f32⟩ : BufTy).Contents (Elt Ideal)) (a1 : (⟨S8x1568x768, .f32⟩ : BufTy).Contents (Elt Ideal)) (a2 : (⟨S8x768, .f32⟩ : BufTy).Contents (Elt Ideal)) (a3 : (⟨S8x768, .f32⟩ : BufTy).Contents (Elt Ideal))
variable (b : Fin 8) (h w : Fin 28) (t : Fin 8) (k : Fin 768)

/-- The fine tokens: frames split into (batch entry, time step), the time step moved behind the pixel, pixels flattened,
    the time embedding added, rows flattened. -/
theorem v17_row : val_main_v17 (F := Ideal) a0 a2 (ix3 (row b h w) t k) = rowS a0 a2 b h w t k := by
  have hb := b.isLt; have hh := h.isLt; have hw := w.isLt; have ht := t.isLt; have hk := k.isLt
  rw [val_main_v17_apply,
    show idx_main_v17 (ix3 (row b h w) t k) = ix4 b (pix h w) t k from by idx_eq4 [idx_main_v17, ix3, ix4, row, pix],
    val_main_v5_apply, val_main_v2_apply,
    show idx_main_v2 (ix4 b (pix h w) t k) = ix5 b h w t k from by idx_eq5 [idx_main_v2, ix4, ix5, pix],
    val_main_v1_apply,
    show idx_main_v1 (ix5 b h w t k) = ix5 b t h w k from by idx_eq5 [idx_main_v1, ix5],
    val_main_v0_apply,
    show idx_main_v0 (ix5 b t h w k) = ix4 (Attn.frame b t) h w k from by idx_eq4 [idx_main_v0, ix4, ix5, Attn.frame],
    val_main_v4_apply, val_main_v3_apply,
    show idx_main_v3 (idx_main_v4 (ix4 b (pix h w) t k)) = ix2 t k from by idx_eq2 [idx_main_v3, idx_main_v4, ix4, ix2]]
  rfl

/-- The second up-sampling reshape: fine column `w` is copy `w mod 2` of coarse column `w / 2` (the two positions in
    row-major order agree). -/
theorem v15_at : val_main_v15 (F := Ideal) a1 a3 (ix5 b h w t k)
    = val_main_v14 (F := Ideal) a1 a3 (ix6 b h (half w) (par w) t k) := by
  have hb := b.isLt; have hh := h.isLt; have hw := w.isLt; have ht := t.isLt; have hk := k.isLt
  unfold val_main_v15
  exact shapeCast_apply _ shapeCasts_S8x28x14x2x8x768_S8x28x28x8x768 _ _ (by
    rw [Shape.rowMajor_val_six, Shape.rowMajor_val_five]
    show ((((b.val * 28 + h.val) * 14 + w.val / 2) * 2 + w.val % 2) * 8 + t.val) * 768 + k.val
      = (((b.val * 28 + h.val) * 28 + w.val) * 8 + t.val) * 768 + k.val
    omega)

/-- The first up-sampling reshape: fine row `h` is copy `h mod 2` of coarse row `h / 2`. -/
theorem v13_at (w' : Fin 14) : val_main_v13 (F := Ideal) a1 a3 (ix5 b h w' t k)
    = val_main_v12 (F := Ideal) a1 a3 (ix6 b (half h) (par h) w' t k) := by
  have hb := b.isLt; have hh := h.isLt; have hw := w'.isLt; have ht := t.isLt; have hk := k.isLt
  unfold val_main_v13
  exact shapeCast_apply _ shapeCasts_S8x14x2x14x8x768_S8x28x14x8x768 _ _ (by
    rw [Shape.rowMajor_val_six, Shape.rowMajor_val_five]
    show ((((b.val * 14 + h.val / 2) * 2 + h.val % 2) * 14 + w'.val) * 8 + t.val) * 768 + k.val
      = (((b.val * 28 + h.val) * 14 + w'.val) * 8 + t.val) * 768 + k.val
    omega)

/-- The coarse tokens: tokens split into (time step, coarse pixel), the time step moved behind the pixel, the time
    embedding added, each coarse pixel repeated 2 × 2, pixels and rows flattened. -/
theorem v18_row : val_main_v18 (F := Ideal) a1 a3 (ix3 (row b h w) t k) = rowT a1 a3 b h w t k := by
  have hb := b.isLt; have hh := h.isLt; have hw := w.isLt; have ht := t.isLt; have hk := k.isLt
  rw [val_main_v18_apply,
    show idx_main_v18 (ix3 (row b h w) t k) = ix4 b (pix h w) t k from by idx_eq4 [idx_main_v18, ix3, ix4, row, pix],
    val_main_v16_apply,
    show idx_main_v16 (ix4 b (pix h w) t k) = ix5 b h w t k from by idx_eq5 [idx_main_v16, ix4, ix5, pix],
    v15_at, val_main_v14_apply,
    show idx_main_v14 (ix6 b h (half w) (par w) t k) = ix5 b h (half w) t k from by idx_eq5 [idx_main_v14, ix5, ix6],
    v13_at, val_main_v12_apply,
    show idx_main_v12 (ix6 b (half h) (par h) (half w) t k) = ix5 b (half h) (half w) t k from by
      idx_eq5 [idx_main_v12, ix5, ix6],
    val_main_v11_apply,
    show idx_main_v11 (ix5 b (half h) (half w) t k) = ix4 b (cpix (half h) (half w)) t k from by
      idx_eq4 [idx_main_v11, ix4, ix5, cpix, half],
    val_main_v10_apply, val_main_v7_apply,
    show idx_main_v7 (ix4 b (cpix (half h) (half w)) t k) = ix4 b t (cpix (half h) (half w)) k from by
      idx_eq4 [idx_main_v7, ix4],
    val_main_v6_apply,
    show idx_main_v6 (ix4 b t (cpix (half h) (half w)) k) = ix3 b (tok t h w) k from by
      idx_eq3 [idx_main_v6, ix3, ix4, cpix, half, tok],
    val_main_v9_apply, val_main_v8_apply,
    show idx_main_v8 (idx_main_v9 (ix4 b (cpix (half h) (half w)) t k)) = ix2 t k from by
      idx_eq2 [idx_main_v8, idx_main_v9, ix4, ix2]]
  rfl
end

end Cert.RefValue

end
-- ==== Proof.RefRowB.lean ====
import proofs.«178110_j38543036514771_2_alg».proof.Proof.Gen.ReferenceIdeal.Read
import proofs.«178110_j38543036514771_2_alg».proof.Proof.Spec

import Idealize.ShloMosaic.Lib.ValueIdx
import Idealize.ShloMosaic.Lib.ValueIdxRank6
import Idealize.ShloMosaic.Lib.Pipeline.Value
import Idealize.ShloMosaic.PureOps.Ideal.Laws

noncomputable section

namespace Cert.RefValue

open Cert.ReferenceIdeal Cert.ReferenceIdeal.Gen Cert.ReferenceIdeal.Read
open Idealize.ShloMosaic Idealize.ShloMosaic.TcCoe Idealize.ShloMosaic.ValueIdx Cert.Attn

/-! Two index functions of rank n agree when their n coordinates do; each coordinate is unfolded and left to linear
    arithmetic. -/

local syntax "idx_eq1" "[" Lean.Parser.Tactic.simpLemma,* "]" : tactic
local macro_rules
  | `(tactic| idx_eq1 [$ls,*]) => `(tactic| (
      funext a; refine Fin.ext ?_
      match a with
      | ⟨0, _⟩ => (dsimp only [$ls,*] <;> omega)))

local syntax "idx_eq2" "[" Lean.Parser.Tactic.simpLemma,* "]" : tactic
local macro_rules
  | `(tactic| idx_eq2 [$ls,*]) => `(tactic| (
      funext a; refine Fin.ext ?_
      match a with
      | ⟨0, _⟩ => (dsimp only [$ls,*] <;> omega)
      | ⟨1, _⟩ => (dsimp only [$ls,*] <;> omega)))

local syntax "idx_eq3" "[" Lean.Parser.Tactic.simpLemma,* "]" : tactic
local macro_rules
  | `(tactic| idx_eq3 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)))

local syntax "idx_eq4" "[" Lean.Parser.Tactic.simpLemma,* "]" : tactic
local macro_rules
  | `(tactic| idx_eq4 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)
      | ⟨3, _⟩ => (dsimp only [$ls,*] <;> omega)))

local syntax "idx_eq5" "[" Lean.Parser.Tactic.simpLemma,* "]" : tactic
local macro_rules
  | `(tactic| idx_eq5 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)
      | ⟨3, _⟩ => (dsimp only [$ls,*] <;> omega)
      | ⟨4, _⟩ => (dsimp only [$ls,*] <;> omega)))

local syntax "idx_eq6" "[" Lean.Parser.Tactic.simpLemma,* "]" : tactic
local macro_rules
  | `(tactic| idx_eq6 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)
      | ⟨3, _⟩ => (dsimp only [$ls,*] <;> omega)
      | ⟨4, _⟩ => (dsimp only [$ls,*] <;> omega)
      | ⟨5, _⟩ => (dsimp only [$ls,*] <;> omega)))

/-!
  The three projections of the reference at a row `n` of the 6272, and their split into twelve heads of width 64:
  the query projection (scaled by 1/8) and the two halves of the key/value projection.
-/

section
variable (a0 : (⟨S64x28x28x768, .f32⟩ : BufTy).Contents (Elt Ideal)) (a1 : (⟨S8x1568x768, .f32⟩ : BufTy).Contents (Elt Ideal)) (a2 : (⟨S8x768, .f32⟩ : BufTy).Contents (Elt Ideal)) (a3 : (⟨S8x768, .f32⟩ : BufTy).Contents (Elt Ideal)) (a4 : (⟨S768x768, .f32⟩ : BufTy).Contents (Elt Ideal)) (a5 : (⟨S768, .f32⟩ : BufTy).Contents (Elt Ideal)) (a6 : (⟨S1536x768, .f32⟩ : BufTy).Contents (Elt Ideal)) (a7 : (⟨S1536, .f32⟩ : BufTy).Contents (Elt Ideal))
variable (n : Fin 6272) (t : Fin 8)

/-- The query projection of the fine tokens. -/
theorem v22_at (o : Fin 768) : val_main_v22 (F := Ideal) a0 a2 a4 a5 (ix3 n t o)
    = lin (fun k => val_main_v17 (F := Ideal) a0 a2 (ix3 n t k)) (fun o k => a4 (ix2 o k)) (fun o => a5 (ix1 o)) o := by
  rw [val_main_v22_apply, val_main_v19_apply, val_main_v21_apply, val_main_v20_apply,
    show idx_main_v20 (idx_main_v21 (ix3 n t o)) = ix1 o from by idx_eq1 [idx_main_v20, idx_main_v21, ix3, ix1]]
  simp only [show ∀ k : Fin 768, lidx_main_v19 (ix3 n t o) k = ix3 n t k from fun k => by idx_eq3 [lidx_main_v19, ix3],
    show ∀ k : Fin 768, ridx_main_v19 (ix3 n t o) k = ix2 o k from fun k => by idx_eq2 [ridx_main_v19, ix3, ix2]]
  rfl

/-- The key/value projection of the coarse tokens. -/
theorem v30_at (o : Fin 1536) : val_main_v30 (F := Ideal) a1 a3 a6 a7 (ix3 n t o)
    = lin (fun k => val_main_v18 (F := Ideal) a1 a3 (ix3 n t k)) (fun o k => a6 (ix2 o k)) (fun o => a7 (ix1 o)) o := by
  rw [val_main_v30_apply, val_main_v27_apply, val_main_v29_apply, val_main_v28_apply,
    show idx_main_v28 (idx_main_v29 (ix3 n t o)) = ix1 o from by idx_eq1 [idx_main_v28, idx_main_v29, ix3, ix1]]
  simp only [show ∀ k : Fin 768, lidx_main_v27 (ix3 n t o) k = ix3 n t k from fun k => by idx_eq3 [lidx_main_v27, ix3],
    show ∀ k : Fin 768, ridx_main_v27 (ix3 n t o) k = ix2 o k from fun k => by idx_eq2 [ridx_main_v27, ix3, ix2]]
  rfl

variable (h : Fin 12) (d : Fin 64)

/-- The scaled query of head `h`, lane `d`: channel `h·64 + d` of the query projection, times 1/8. -/
theorem v26_at : val_main_v26 (F := Ideal) a0 a2 a4 a5 (ix4 n h t d)
    = val_main_v22 (F := Ideal) a0 a2 a4 a5 (ix3 n t (hd h d)) * cScale := by
  have hn := n.isLt; have ht := t.isLt; have hh := h.isLt; have hd' := d.isLt
  rw [val_main_v26_apply, val_main_v24_apply,
    show idx_main_v24 (ix4 n h t d) = ix4 n t h d from by idx_eq4 [idx_main_v24, ix4],
    val_main_v23_apply,
    show idx_main_v23 (ix4 n t h d) = ix3 n t (hd h d) from by idx_eq3 [idx_main_v23, ix3, ix4, hd],
    val_main_v25_apply, val_main_cst_apply]
  rfl

/-- The key of head `h`, lane `d`: channel `h·64 + d` of the key/value projection. -/
theorem v34_at : val_main_v34 (F := Ideal) a1 a3 a6 a7 (ix4 n h t d)
    = val_main_v30 (F := Ideal) a1 a3 a6 a7 (ix3 n t (hdK h d)) := by
  have hn := n.isLt; have ht := t.isLt; have hh := h.isLt; have hd' := d.isLt
  rw [val_main_v34_apply,
    show idx_main_v34 (ix4 n h t d) = ix4 n t h d from by idx_eq4 [idx_main_v34, ix4],
    val_main_v33_apply,
    show idx_main_v33 (ix4 n t h d) = ix5 n t (⟨0, Nat.one_pos⟩ : Fin 1) h d from by idx_eq5 [idx_main_v33, ix4, ix5],
    val_main_v32_apply,
    show idx_main_v32 (ix5 n t (⟨0, Nat.one_pos⟩ : Fin 1) h d) = ix5 n t (⟨0, by decide⟩ : Fin 2) h d from by
      idx_eq5 [idx_main_v32, ix5],
    val_main_v31_apply,
    show idx_main_v31 (ix5 n t (⟨0, by decide⟩ : Fin 2) h d) = ix3 n t (hdK h d) from by
      idx_eq3 [idx_main_v31, ix3, ix5, hdK]]

/-- The value of head `h`, lane `d`: channel `768 + h·64 + d` of the key/value projection. -/
theorem v37_at : val_main_v37 (F := Ideal) a1 a3 a6 a7 (ix4 n h t d)
    = val_main_v30 (F := Ideal) a1 a3 a6 a7 (ix3 n t (hdV h d)) := by
  have hn := n.isLt; have ht := t.isLt; have hh := h.isLt; have hd' := d.isLt
  rw [val_main_v37_apply,
    show idx_main_v37 (ix4 n h t d) = ix4 n t h d from by idx_eq4 [idx_main_v37, ix4],
    val_main_v36_apply,
    show idx_main_v36 (ix4 n t h d) = ix5 n t (⟨0, Nat.one_pos⟩ : Fin 1) h d from by idx_eq5 [idx_main_v36, ix4, ix5],
    val_main_v35_apply,
    show idx_main_v35 (ix5 n t (⟨0, Nat.one_pos⟩ : Fin 1) h d) = ix5 n t (⟨1, by decide⟩ : Fin 2) h d from by
      idx_eq5 [idx_main_v35, ix5],
    val_main_v31_apply,
    show idx_main_v31 (ix5 n t (⟨1, by decide⟩ : Fin 2) h d) = ix3 n t (hdV h d) from by
      idx_eq3 [idx_main_v31, ix3, ix5, hdV]]
end

end Cert.RefValue

end
-- ==== Proof.RefRowC.lean ====
import proofs.«178110_j38543036514771_2_alg».proof.Proof.Gen.ReferenceIdeal.Read
import proofs.«178110_j38543036514771_2_alg».proof.Proof.Spec

import Idealize.ShloMosaic.Lib.ValueIdx
import Idealize.ShloMosaic.Lib.ValueIdxRank6
import Idealize.ShloMosaic.Lib.Pipeline.Value
import Idealize.ShloMosaic.PureOps.Ideal.Laws

noncomputable section

namespace Cert.RefValue

open Cert.ReferenceIdeal Cert.ReferenceIdeal.Gen Cert.ReferenceIdeal.Read
open Idealize.ShloMosaic Idealize.ShloMosaic.TcCoe Idealize.ShloMosaic.ValueIdx Cert.Attn

/-! Two index functions of rank n agree when their n coordinates do; each coordinate is unfolded and left to linear
    arithmetic. -/

local syntax "idx_eq1" "[" Lean.Parser.Tactic.simpLemma,* "]" : tactic
local macro_rules
  | `(tactic| idx_eq1 [$ls,*]) => `(tactic| (
      funext a; refine Fin.ext ?_
      match a with
      | ⟨0, _⟩ => (dsimp only [$ls,*] <;> omega)))

local syntax "idx_eq2" "[" Lean.Parser.Tactic.simpLemma,* "]" : tactic
local macro_rules
  | `(tactic| idx_eq2 [$ls,*]) => `(tactic| (
      funext a; refine Fin.ext ?_
      match a with
      | ⟨0, _⟩ => (dsimp only [$ls,*] <;> omega)
      | ⟨1, _⟩ => (dsimp only [$ls,*] <;> omega)))

local syntax "idx_eq3" "[" Lean.Parser.Tactic.simpLemma,* "]" : tactic
local macro_rules
  | `(tactic| idx_eq3 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)))

local syntax "idx_eq4" "[" Lean.Parser.Tactic.simpLemma,* "]" : tactic
local macro_rules
  | `(tactic| idx_eq4 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)
      | ⟨3, _⟩ => (dsimp only [$ls,*] <;> omega)))

local syntax "idx_eq5" "[" Lean.Parser.Tactic.simpLemma,* "]" : tactic
local macro_rules
  | `(tactic| idx_eq5 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)
      | ⟨3, _⟩ => (dsimp only [$ls,*] <;> omega)
      | ⟨4, _⟩ => (dsimp only [$ls,*] <;> omega)))

local syntax "idx_eq6" "[" Lean.Parser.Tactic.simpLemma,* "]" : tactic
local macro_rules
  | `(tactic| idx_eq6 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)
      | ⟨3, _⟩ => (dsimp only [$ls,*] <;> omega)
      | ⟨4, _⟩ => (dsimp only [$ls,*] <;> omega)
      | ⟨5, _⟩ => (dsimp only [$ls,*] <;> omega)))

/-!
  One head of one row of the reference: the logits (query time step against key time step, summed over the 64
  lanes), the soft-max over the key time step — the maximum is a fold from −∞ over the eight logits, taken once more
  against −∞; the normaliser is a sum started from 0 — and the weighted sum of the values.
-/

section
variable (a0 : (⟨S64x28x28x768, .f32⟩ : BufTy).Contents (Elt Ideal)) (a1 : (⟨S8x1568x768, .f32⟩ : BufTy).Contents (Elt Ideal)) (a2 : (⟨S8x768, .f32⟩ : BufTy).Contents (Elt Ideal)) (a3 : (⟨S8x768, .f32⟩ : BufTy).Contents (Elt Ideal)) (a4 : (⟨S768x768, .f32⟩ : BufTy).Contents (Elt Ideal)) (a5 : (⟨S768, .f32⟩ : BufTy).Contents (Elt Ideal)) (a6 : (⟨S1536x768, .f32⟩ : BufTy).Contents (Elt Ideal)) (a7 : (⟨S1536, .f32⟩ : BufTy).Contents (Elt Ideal))
variable (n : Fin 6272) (h : Fin 12) (tq : Fin 8)

/-- The logit of query time step `tq` against key time step `tk`. -/
theorem v38_at (tk : Fin 8) : val_main_v38 (F := Ideal) a0 a1 a2 a3 a4 a5 a6 a7 (ix4 n h tq tk)
    = ∑ d : Fin 64, val_main_v26 (F := Ideal) a0 a2 a4 a5 (ix4 n h tq d) * val_main_v34 (F := Ideal) a1 a3 a6 a7 (ix4 n h tk d) := by
  rw [val_main_v38_apply]
  simp only [show ∀ d : Fin 64, lidx_main_v38 (ix4 n h tq tk) d = ix4 n h tq d from fun d => by idx_eq4 [lidx_main_v38, ix4],
    show ∀ d : Fin 64, ridx_main_v38 (ix4 n h tq tk) d = ix4 n h tk d from fun d => by idx_eq4 [ridx_main_v38, ix4]]

/-- Index (n, h, tq) of the reduced array with key time step `k` put back on the reduced axis. -/
theorem lift_at (hr : S6272x12x8x8.Reduces [3] S6272x12x8) (k : Fin (S6272x12x8x8.size 3)) :
    hr.lift (ix3 n h tq) k = ix4 n h tq (⟨k.val, k.isLt⟩ : Fin 8) := by
  funext c; apply Fin.ext
  match c with
  | ⟨0, _⟩ => rfl
  | ⟨1, _⟩ => rfl
  | ⟨2, _⟩ => rfl
  | ⟨3, _⟩ => rfl

/-- The reduce with a maximum body is a fold of `max` (commutative and associative) from −∞ over the key time steps. -/
theorem v39_at : val_main_v39 (F := Ideal) a0 a1 a2 a3 a4 a5 a6 a7 (ix3 n h tq)
    = (Finset.univ : Finset (Fin 8)).fold max negInf (fun tk => val_main_v38 (F := Ideal) a0 a1 a2 a3 a4 a5 a6 a7 (ix4 n h tq tk)) := by
  have hr : S6272x12x8x8.Reduces [3] S6272x12x8 :=
    ⟨reducesTo_S6272x12x8x8_S6272x12x8_d3.1, by decide, reducesTo_S6272x12x8x8_S6272x12x8_d3.2⟩
  unfold val_main_v39
  rw [Host.reduce_eq_fold_single FloatOps.maximumf _ _ reducesTo_S6272x12x8x8_S6272x12x8_d3 hr h_S_]
  have hf : (val_main_v38 (F := Ideal) a0 a1 a2 a3 a4 a5 a6 a7 ∘ hr.lift (ix3 n h tq))
      = fun k : Fin (S6272x12x8x8.size 3) => val_main_v38 (F := Ideal) a0 a1 a2 a3 a4 a5 a6 a7 (ix4 n h tq (⟨k.val, k.isLt⟩ : Fin 8)) :=
    funext fun k => congrArg (val_main_v38 (F := Ideal) a0 a1 a2 a3 a4 a5 a6 a7) (lift_at n h tq hr k)
  rw [hf]
  rfl

/-- The maximum the soft-max subtracts: that fold, taken once more against −∞ as the program does. -/
theorem v41_at : val_main_v41 (F := Ideal) a0 a1 a2 a3 a4 a5 a6 a7 (ix3 n h tq) = rowMax (fun tk => val_main_v38 (F := Ideal) a0 a1 a2 a3 a4 a5 a6 a7 (ix4 n h tq tk)) := by
  rw [val_main_v41_apply, val_main_v40_apply, val_main_cst_1_apply, v39_at]
  rfl

/-- The exponential of a logit less the row's maximum. -/
theorem v45_at (tk : Fin 8) : val_main_v45 (F := Ideal) a0 a1 a2 a3 a4 a5 a6 a7 (ix4 n h tq tk)
    = Ideal.exp (val_main_v38 (F := Ideal) a0 a1 a2 a3 a4 a5 a6 a7 (ix4 n h tq tk) - rowMax (fun tk' => val_main_v38 (F := Ideal) a0 a1 a2 a3 a4 a5 a6 a7 (ix4 n h tq tk'))) := by
  rw [val_main_v45_apply, val_main_v44_apply, val_main_v43_apply, val_main_v42_apply,
    show idx_main_v42 (idx_main_v43 (ix4 n h tq tk)) = ix3 n h tq from by idx_eq3 [idx_main_v42, idx_main_v43, ix3, ix4],
    v41_at]
  rfl

/-- The soft-max's normaliser: the sum, started from 0, of the eight exponentials. -/
theorem v46_at : val_main_v46 (F := Ideal) a0 a1 a2 a3 a4 a5 a6 a7 (ix3 n h tq)
    = ∑ tk : Fin 8, Ideal.exp (val_main_v38 (F := Ideal) a0 a1 a2 a3 a4 a5 a6 a7 (ix4 n h tq tk) - rowMax (fun tk' => val_main_v38 (F := Ideal) a0 a1 a2 a3 a4 a5 a6 a7 (ix4 n h tq tk'))) := by
  rw [val_main_v46_apply, val_main_cst_2_apply]
  simp only [show ∀ k : Fin 8, idx_main_v46 (ix3 n h tq) k = ix4 n h tq k from fun k => by idx_eq4 [idx_main_v46, ix3, ix4],
    v45_at]
  show Ideal.ofBits .f32 0x00000000#32 + _ = _
  rw [Ideal.ofBits_zero_f32, zero_add]

/-- The attention weight of key time step `tk`: the soft-max of the row's eight logits. -/
theorem v49_at (tk : Fin 8) : val_main_v49 (F := Ideal) a0 a1 a2 a3 a4 a5 a6 a7 (ix4 n h tq tk)
    = softmax (fun tk' => val_main_v38 (F := Ideal) a0 a1 a2 a3 a4 a5 a6 a7 (ix4 n h tq tk')) tk := by
  rw [val_main_v49_apply, val_main_v48_apply, val_main_v47_apply,
    show idx_main_v47 (idx_main_v48 (ix4 n h tq tk)) = ix3 n h tq from by idx_eq3 [idx_main_v47, idx_main_v48, ix3, ix4],
    v46_at, v45_at]
  rfl

/-- The head's result: the values weighted by the soft-max, summed over the key time step. -/
theorem v50_at (d : Fin 64) : val_main_v50 (F := Ideal) a0 a1 a2 a3 a4 a5 a6 a7 (ix4 n h tq d)
    = head (fun t d => val_main_v26 (F := Ideal) a0 a2 a4 a5 (ix4 n h t d))
        (fun t d => val_main_v34 (F := Ideal) a1 a3 a6 a7 (ix4 n h t d))
        (fun t d => val_main_v37 (F := Ideal) a1 a3 a6 a7 (ix4 n h t d)) tq d := by
  rw [val_main_v50_apply]
  simp only [show ∀ k : Fin 8, lidx_main_v50 (ix4 n h tq d) k = ix4 n h tq k from fun k => by idx_eq4 [lidx_main_v50, ix4],
    show ∀ k : Fin 8, ridx_main_v50 (ix4 n h tq d) k = ix4 n h k d from fun k => by idx_eq4 [ridx_main_v50, ix4],
    v49_at, v38_at]
  rfl
end

end Cert.RefValue

end
-- ==== Proof.RefRowD.lean ====
import proofs.«178110_j38543036514771_2_alg».proof.Proof.Gen.ReferenceIdeal.Read
import proofs.«178110_j38543036514771_2_alg».proof.Proof.Spec

import Idealize.ShloMosaic.Lib.ValueIdx
import Idealize.ShloMosaic.Lib.ValueIdxRank6
import Idealize.ShloMosaic.Lib.Pipeline.Value
import Idealize.ShloMosaic.PureOps.Ideal.Laws

noncomputable section

namespace Cert.RefValue

open Cert.ReferenceIdeal Cert.ReferenceIdeal.Gen Cert.ReferenceIdeal.Read
open Idealize.ShloMosaic Idealize.ShloMosaic.TcCoe Idealize.ShloMosaic.ValueIdx Cert.Attn

/-! Two index functions of rank n agree when their n coordinates do; each coordinate is unfolded and left to linear
    arithmetic. -/

local syntax "idx_eq1" "[" Lean.Parser.Tactic.simpLemma,* "]" : tactic
local macro_rules
  | `(tactic| idx_eq1 [$ls,*]) => `(tactic| (
      funext a; refine Fin.ext ?_
      match a with
      | ⟨0, _⟩ => (dsimp only [$ls,*] <;> omega)))

local syntax "idx_eq2" "[" Lean.Parser.Tactic.simpLemma,* "]" : tactic
local macro_rules
  | `(tactic| idx_eq2 [$ls,*]) => `(tactic| (
      funext a; refine Fin.ext ?_
      match a with
      | ⟨0, _⟩ => (dsimp only [$ls,*] <;> omega)
      | ⟨1, _⟩ => (dsimp only [$ls,*] <;> omega)))

local syntax "idx_eq3" "[" Lean.Parser.Tactic.simpLemma,* "]" : tactic
local macro_rules
  | `(tactic| idx_eq3 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)))

local syntax "idx_eq4" "[" Lean.Parser.Tactic.simpLemma,* "]" : tactic
local macro_rules
  | `(tactic| idx_eq4 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)
      | ⟨3, _⟩ => (dsimp only [$ls,*] <;> omega)))

local syntax "idx_eq5" "[" Lean.Parser.Tactic.simpLemma,* "]" : tactic
local macro_rules
  | `(tactic| idx_eq5 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)
      | ⟨3, _⟩ => (dsimp only [$ls,*] <;> omega)
      | ⟨4, _⟩ => (dsimp only [$ls,*] <;> omega)))

local syntax "idx_eq6" "[" Lean.Parser.Tactic.simpLemma,* "]" : tactic
local macro_rules
  | `(tactic| idx_eq6 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)
      | ⟨3, _⟩ => (dsimp only [$ls,*] <;> omega)
      | ⟨4, _⟩ => (dsimp only [$ls,*] <;> omega)
      | ⟨5, _⟩ => (dsimp only [$ls,*] <;> omega)))

/-!
  The output projection of the reference at a row `n` of the 6272: the twelve heads' results laid side by side as
  768 channels (channel `c` is lane `c mod 64` of head `c / 64`), then a linear map with bias.
-/

section
variable (a0 : (⟨S64x28x28x768, .f32⟩ : BufTy).Contents (Elt Ideal)) (a1 : (⟨S8x1568x768, .f32⟩ : BufTy).Contents (Elt Ideal)) (a2 : (⟨S8x768, .f32⟩ : BufTy).Contents (Elt Ideal)) (a3 : (⟨S8x768, .f32⟩ : BufTy).Contents (Elt Ideal)) (a4 : (⟨S768x768, .f32⟩ : BufTy).Contents (Elt Ideal)) (a5 : (⟨S768, .f32⟩ : BufTy).Contents (Elt Ideal)) (a6 : (⟨S1536x768, .f32⟩ : BufTy).Contents (Elt Ideal)) (a7 : (⟨S1536, .f32⟩ : BufTy).Contents (Elt Ideal)) (a8 : (⟨S768x768, .f32⟩ : BufTy).Contents (Elt Ideal)) (a9 : (⟨S768, .f32⟩ : BufTy).Contents (Elt Ideal))
variable (n : Fin 6272) (t : Fin 8)

/-- Channel `c` of the concatenated heads is lane `c mod 64` of head `c / 64`. -/
theorem v52_at (c : Fin 768) : val_main_v52 (F := Ideal) a0 a1 a2 a3 a4 a5 a6 a7 (ix3 n t c)
    = val_main_v50 (F := Ideal) a0 a1 a2 a3 a4 a5 a6 a7 (ix4 n (hOf c) t (dOf c)) := by
  have hn := n.isLt; have ht := t.isLt; have hc := c.isLt
  rw [val_main_v52_apply,
    show idx_main_v52 (ix3 n t c) = ix4 n t (hOf c) (dOf c) from by idx_eq4 [idx_main_v52, ix3, ix4, hOf, dOf],
    val_main_v51_apply,
    show idx_main_v51 (ix4 n t (hOf c) (dOf c)) = ix4 n (hOf c) t (dOf c) from by idx_eq4 [idx_main_v51, ix4]]

/-- The output projection. -/
theorem v56_at (o : Fin 768) : val_main_v56 (F := Ideal) a0 a1 a2 a3 a4 a5 a6 a7 a8 a9 (ix3 n t o)
    = lin (fun c => val_main_v52 (F := Ideal) a0 a1 a2 a3 a4 a5 a6 a7 (ix3 n t c)) (fun o k => a8 (ix2 o k)) (fun o => a9 (ix1 o)) o := by
  rw [val_main_v56_apply, val_main_v53_apply, val_main_v55_apply, val_main_v54_apply,
    show idx_main_v54 (idx_main_v55 (ix3 n t o)) = ix1 o from by idx_eq1 [idx_main_v54, idx_main_v55, ix3, ix1]]
  simp only [show ∀ k : Fin 768, lidx_main_v53 (ix3 n t o) k = ix3 n t k from fun k => by idx_eq3 [lidx_main_v53, ix3],
    show ∀ k : Fin 768, ridx_main_v53 (ix3 n t o) k = ix2 o k from fun k => by idx_eq2 [ridx_main_v53, ix3, ix2]]
  rfl
end

end Cert.RefValue

end
-- ==== Proof.RefRow.lean ====
/-
  The reference program computes the row attention `Cert.Attn.G`: read index by index, its result at
  (b·8 + t, h, w, o) is the attention of row (b, h, w) at (t, o).
-/
import proofs.«178110_j38543036514771_2_alg».proof.Proof.Gen.ReferenceIdeal.Read
import proofs.«178110_j38543036514771_2_alg».proof.Proof.Spec
import proofs.«178110_j38543036514771_2_alg».proof.Proof.RefRowA
import proofs.«178110_j38543036514771_2_alg».proof.Proof.RefRowB
import proofs.«178110_j38543036514771_2_alg».proof.Proof.RefRowC
import proofs.«178110_j38543036514771_2_alg».proof.Proof.RefRowD
import Idealize.ShloMosaic.Lib.ValueIdx
import Idealize.ShloMosaic.Lib.ValueIdxRank6
import Idealize.ShloMosaic.Lib.Pipeline.Value
import Idealize.ShloMosaic.PureOps.Ideal.Laws

noncomputable section

namespace Cert.RefValue

open Cert.ReferenceIdeal Cert.ReferenceIdeal.Gen Cert.ReferenceIdeal.Read
open Idealize.ShloMosaic Idealize.ShloMosaic.TcCoe Idealize.ShloMosaic.ValueIdx Cert.Attn

/-! Two index functions of rank n agree when their n coordinates do; each coordinate is unfolded and left to linear
    arithmetic. -/

local syntax "idx_eq1" "[" Lean.Parser.Tactic.simpLemma,* "]" : tactic
local macro_rules
  | `(tactic| idx_eq1 [$ls,*]) => `(tactic| (
      funext a; refine Fin.ext ?_
      match a with
      | ⟨0, _⟩ => (dsimp only [$ls,*] <;> omega)))

local syntax "idx_eq2" "[" Lean.Parser.Tactic.simpLemma,* "]" : tactic
local macro_rules
  | `(tactic| idx_eq2 [$ls,*]) => `(tactic| (
      funext a; refine Fin.ext ?_
      match a with
      | ⟨0, _⟩ => (dsimp only [$ls,*] <;> omega)
      | ⟨1, _⟩ => (dsimp only [$ls,*] <;> omega)))

local syntax "idx_eq3" "[" Lean.Parser.Tactic.simpLemma,* "]" : tactic
local macro_rules
  | `(tactic| idx_eq3 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)))

local syntax "idx_eq4" "[" Lean.Parser.Tactic.simpLemma,* "]" : tactic
local macro_rules
  | `(tactic| idx_eq4 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)
      | ⟨3, _⟩ => (dsimp only [$ls,*] <;> omega)))

local syntax "idx_eq5" "[" Lean.Parser.Tactic.simpLemma,* "]" : tactic
local macro_rules
  | `(tactic| idx_eq5 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)
      | ⟨3, _⟩ => (dsimp only [$ls,*] <;> omega)
      | ⟨4, _⟩ => (dsimp only [$ls,*] <;> omega)))

local syntax "idx_eq6" "[" Lean.Parser.Tactic.simpLemma,* "]" : tactic
local macro_rules
  | `(tactic| idx_eq6 [$ls,*]) => `(tactic| (
      funext a; refine Fin.ext ?_
      match a with
      | ⟨0, _⟩ => (dsimp only [$ls,*] <;> omega)
      | ⟨1, _⟩ => (dsimp only [$ls,*] <;> omega)
      | ⟨2, _⟩ => (dsimp only [$ls,*] <;> omega)
      | ⟨3, _⟩ => (dsimp only [$ls,*] <;> omega)
      | ⟨4, _⟩ => (dsimp only [$ls,*] <;> omega)
      | ⟨5, _⟩ => (dsimp only [$ls,*] <;> omega)))

section
variable (a0 : (⟨S64x28x28x768, .f32⟩ : BufTy).Contents (Elt Ideal)) (a1 : (⟨S8x1568x768, .f32⟩ : BufTy).Contents (Elt Ideal)) (a2 : (⟨S8x768, .f32⟩ : BufTy).Contents (Elt Ideal)) (a3 : (⟨S8x768, .f32⟩ : BufTy).Contents (Elt Ideal)) (a4 : (⟨S768x768, .f32⟩ : BufTy).Contents (Elt Ideal)) (a5 : (⟨S768, .f32⟩ : BufTy).Contents (Elt Ideal)) (a6 : (⟨S1536x768, .f32⟩ : BufTy).Contents (Elt Ideal)) (a7 : (⟨S1536, .f32⟩ : BufTy).Contents (Elt Ideal)) (a8 : (⟨S768x768, .f32⟩ : BufTy).Contents (Elt Ideal)) (a9 : (⟨S768, .f32⟩ : BufTy).Contents (Elt Ideal))

/-- Row `n` of the reference before its result is laid out: the row attention of the row's fine and coarse tokens
    (the projections, the head split, the soft-max per head, the concatenation and the output projection chained). -/
theorem v56_row (n : Fin 6272) (t : Fin 8) (o : Fin 768) : val_main_v56 (F := Ideal) a0 a1 a2 a3 a4 a5 a6 a7 a8 a9 (ix3 n t o)
    = attnRow (fun t k => val_main_v17 (F := Ideal) a0 a2 (ix3 n t k)) (fun t k => val_main_v18 (F := Ideal) a1 a3 (ix3 n t k))
        (fun o k => a4 (ix2 o k)) (fun o => a5 (ix1 o)) (fun o k => a6 (ix2 o k)) (fun o => a7 (ix1 o))
        (fun o k => a8 (ix2 o k)) (fun o => a9 (ix1 o)) t o := by
  rw [v56_at]
  simp only [v52_at, v50_at, v26_at, v34_at, v37_at, v22_at, v30_at]
  rfl

/-- The result's layout: rows split back into (batch entry, pixel row, pixel column), the time step moved in front of the
    pixel, (batch entry, time step) flattened into the frame. Entry (f, h, w, o) is row (f / 8, h, w) at (f mod 8, o). -/
theorem v59_at (f : Fin 64) (h w : Fin 28) (o : Fin 768) : val_main_v59 (F := Ideal) a0 a1 a2 a3 a4 a5 a6 a7 a8 a9 (ix4 f h w o)
    = val_main_v56 (F := Ideal) a0 a1 a2 a3 a4 a5 a6 a7 a8 a9 (ix3 (row (batchOf f) h w) (stepOf f) o) := by
  have hf := f.isLt; have hh := h.isLt; have hw := w.isLt; have ho := o.isLt
  rw [val_main_v59_apply,
    show idx_main_v59 (ix4 f h w o) = ix5 (batchOf f) (stepOf f) h w o from by
      idx_eq5 [idx_main_v59, ix4, ix5, batchOf, stepOf],
    val_main_v58_apply,
    show idx_main_v58 (ix5 (batchOf f) (stepOf f) h w o) = ix5 (batchOf f) h w (stepOf f) o from by
      idx_eq5 [idx_main_v58, ix5],
    val_main_v57_apply,
    show idx_main_v57 (ix5 (batchOf f) h w (stepOf f) o) = ix3 (row (batchOf f) h w) (stepOf f) o from by
      idx_eq3 [idx_main_v57, ix3, ix5, row, batchOf, stepOf]]

end

/-- The reference's result array is the row attention of its arguments, entry by entry. -/
theorem ref_eq (a0 : (⟨S64x28x28x768, .f32⟩ : BufTy).Contents (Elt Ideal)) (a1 : (⟨S8x1568x768, .f32⟩ : BufTy).Contents (Elt Ideal))
    (a2 a3 : (⟨S8x768, .f32⟩ : BufTy).Contents (Elt Ideal)) (a4 : (⟨S768x768, .f32⟩ : BufTy).Contents (Elt Ideal))
    (a5 : (⟨S768, .f32⟩ : BufTy).Contents (Elt Ideal)) (a6 : (⟨S1536x768, .f32⟩ : BufTy).Contents (Elt Ideal))
    (a7 : (⟨S1536, .f32⟩ : BufTy).Contents (Elt Ideal)) (a8 : (⟨S768x768, .f32⟩ : BufTy).Contents (Elt Ideal))
    (a9 : (⟨S768, .f32⟩ : BufTy).Contents (Elt Ideal)) :
    val_main_v59 (F := Ideal) a0 a1 a2 a3 a4 a5 a6 a7 a8 a9 = G a0 a1 a2 a3 a4 a5 a6 a7 a8 a9 := by
  funext i
  obtain ⟨f, h, w, o, rfl⟩ : ∃ (f : Fin 64) (h w : Fin 28) (o : Fin 768), i = ix4 f h w o :=
    ⟨i 0, i 1, i 2, i 3, eq_ix4 i⟩
  rw [v59_at, v56_row]
  simp only [v17_row, v18_row]
  rfl

end Cert.RefValue

end
-- ==== Proof.HeadsA.lean ====
/-
  One attention head of the kernel's body, stage by stage. A head takes its query, key and value slices in the layout
  (row, time step, lane) and computes: the logits (a batched product over the lanes), the row maximum, the
  exponentials of the shifted logits, their sum, the soft-max weights, and the weighted sum of the values (a second
  batched product, over the key time step). Each stage is a small definition read at an index; together they are
  `Cert.Attn.head` of the row's slices.
-/
import proofs.«178110_j38543036514771_2_alg».proof.Proof.Gen.KernelIdeal.Skeleton
import proofs.«178110_j38543036514771_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelValue

open Cert.KernelIdeal Cert.KernelIdeal.Gen
open Idealize.ShloMosaic Idealize.ShloMosaic.TcCoe Idealize.ShloMosaic.ValueIdx Cert.Attn

/-! ## The two batched products' operand indices -/

theorem qk_lhs0 (i : S112x8x8.Idx) (q : dot_S112x8x64_S112x8x64_S112x8x8_2_2_1_1_0_0.contr.Idx) : (dot_S112x8x64_S112x8x64_S112x8x8_2_2_1_1_0_0.lhsIdx i q 0).val = (i 0).val := by
  unfold DotDims.lhsIdx
  rw [dif_pos (show (0 : Fin S112x8x64.rank) ∈ dot_S112x8x64_S112x8x64_S112x8x8_2_2_1_1_0_0.lhsBatch by decide)]
  rfl
theorem qk_lhs1 (i : S112x8x8.Idx) (q : dot_S112x8x64_S112x8x64_S112x8x8_2_2_1_1_0_0.contr.Idx) : (dot_S112x8x64_S112x8x64_S112x8x8_2_2_1_1_0_0.lhsIdx i q 1).val = (i 1).val := by
  unfold DotDims.lhsIdx
  rw [dif_neg (show ¬(1 : Fin S112x8x64.rank) ∈ dot_S112x8x64_S112x8x64_S112x8x8_2_2_1_1_0_0.lhsBatch by decide), dif_pos (show (1 : Fin S112x8x64.rank) ∈ dot_S112x8x64_S112x8x64_S112x8x8_2_2_1_1_0_0.lhsNonContracting by decide)]
  rfl
theorem qk_lhs2 (i : S112x8x8.Idx) (q : dot_S112x8x64_S112x8x64_S112x8x8_2_2_1_1_0_0.contr.Idx) : (dot_S112x8x64_S112x8x64_S112x8x8_2_2_1_1_0_0.lhsIdx i q 2).val = (q ⟨0, by decide⟩).val :=
  dot_S112x8x64_S112x8x64_S112x8x8_2_2_1_1_0_0.lhsIdx_val_of_single rfl i q
theorem qk_rhs0 (i : S112x8x8.Idx) (q : dot_S112x8x64_S112x8x64_S112x8x8_2_2_1_1_0_0.contr.Idx) : (dot_S112x8x64_S112x8x64_S112x8x8_2_2_1_1_0_0.rhsIdx i q 0).val = (i 0).val := by
  unfold DotDims.rhsIdx
  rw [dif_pos (show (0 : Fin S112x8x64.rank) ∈ dot_S112x8x64_S112x8x64_S112x8x8_2_2_1_1_0_0.rhsBatch by decide)]
  rfl
theorem qk_rhs1 (i : S112x8x8.Idx) (q : dot_S112x8x64_S112x8x64_S112x8x8_2_2_1_1_0_0.contr.Idx) : (dot_S112x8x64_S112x8x64_S112x8x8_2_2_1_1_0_0.rhsIdx i q 1).val = (i 2).val := by
  unfold DotDims.rhsIdx
  rw [dif_neg (show ¬(1 : Fin S112x8x64.rank) ∈ dot_S112x8x64_S112x8x64_S112x8x8_2_2_1_1_0_0.rhsBatch by decide), dif_pos (show (1 : Fin S112x8x64.rank) ∈ dot_S112x8x64_S112x8x64_S112x8x8_2_2_1_1_0_0.rhsNonContracting by decide)]
  rfl
theorem qk_rhs2 (i : S112x8x8.Idx) (q : dot_S112x8x64_S112x8x64_S112x8x8_2_2_1_1_0_0.contr.Idx) : (dot_S112x8x64_S112x8x64_S112x8x8_2_2_1_1_0_0.rhsIdx i q 2).val = (q ⟨0, by decide⟩).val :=
  dot_S112x8x64_S112x8x64_S112x8x8_2_2_1_1_0_0.rhsIdx_val_of_single rfl i q

theorem pv_lhs0 (i : S112x8x64.Idx) (q : dot_S112x8x8_S112x8x64_S112x8x64_2_1_1_2_0_0.contr.Idx) : (dot_S112x8x8_S112x8x64_S112x8x64_2_1_1_2_0_0.lhsIdx i q 0).val = (i 0).val := by
  unfold DotDims.lhsIdx
  rw [dif_pos (show (0 : Fin S112x8x8.rank) ∈ dot_S112x8x8_S112x8x64_S112x8x64_2_1_1_2_0_0.lhsBatch by decide)]
  rfl
theorem pv_lhs1 (i : S112x8x64.Idx) (q : dot_S112x8x8_S112x8x64_S112x8x64_2_1_1_2_0_0.contr.Idx) : (dot_S112x8x8_S112x8x64_S112x8x64_2_1_1_2_0_0.lhsIdx i q 1).val = (i 1).val := by
  unfold DotDims.lhsIdx
  rw [dif_neg (show ¬(1 : Fin S112x8x8.rank) ∈ dot_S112x8x8_S112x8x64_S112x8x64_2_1_1_2_0_0.lhsBatch by decide), dif_pos (show (1 : Fin S112x8x8.rank) ∈ dot_S112x8x8_S112x8x64_S112x8x64_2_1_1_2_0_0.lhsNonContracting by decide)]
  rfl
theorem pv_lhs2 (i : S112x8x64.Idx) (q : dot_S112x8x8_S112x8x64_S112x8x64_2_1_1_2_0_0.contr.Idx) : (dot_S112x8x8_S112x8x64_S112x8x64_2_1_1_2_0_0.lhsIdx i q 2).val = (q ⟨0, by decide⟩).val :=
  dot_S112x8x8_S112x8x64_S112x8x64_2_1_1_2_0_0.lhsIdx_val_of_single rfl i q
theorem pv_rhs0 (i : S112x8x64.Idx) (q : dot_S112x8x8_S112x8x64_S112x8x64_2_1_1_2_0_0.contr.Idx) : (dot_S112x8x8_S112x8x64_S112x8x64_2_1_1_2_0_0.rhsIdx i q 0).val = (i 0).val := by
  unfold DotDims.rhsIdx
  rw [dif_pos (show (0 : Fin S112x8x64.rank) ∈ dot_S112x8x8_S112x8x64_S112x8x64_2_1_1_2_0_0.rhsBatch by decide)]
  rfl
theorem pv_rhs1 (i : S112x8x64.Idx) (q : dot_S112x8x8_S112x8x64_S112x8x64_2_1_1_2_0_0.contr.Idx) : (dot_S112x8x8_S112x8x64_S112x8x64_2_1_1_2_0_0.rhsIdx i q 1).val = (q ⟨0, by decide⟩).val :=
  dot_S112x8x8_S112x8x64_S112x8x64_2_1_1_2_0_0.rhsIdx_val_of_single rfl i q
theorem pv_rhs2 (i : S112x8x64.Idx) (q : dot_S112x8x8_S112x8x64_S112x8x64_2_1_1_2_0_0.contr.Idx) : (dot_S112x8x8_S112x8x64_S112x8x64_2_1_1_2_0_0.rhsIdx i q 2).val = (i 2).val := by
  unfold DotDims.rhsIdx
  rw [dif_neg (show ¬(2 : Fin S112x8x64.rank) ∈ dot_S112x8x8_S112x8x64_S112x8x64_2_1_1_2_0_0.rhsBatch by decide), dif_pos (show (2 : Fin S112x8x64.rank) ∈ dot_S112x8x8_S112x8x64_S112x8x64_2_1_1_2_0_0.rhsNonContracting by decide)]
  rfl

/-! ## The stages -/

/-- The logits: for each row, the product of the query slice with the transposed key slice, over the 64 lanes. -/
def logitsK (qh kh : FVec Ideal S112x8x64 .f32) : FVec Ideal S112x8x8 .f32 :=
  matmul dot_S112x8x64_S112x8x64_S112x8x8_2_2_1_1_0_0 (some .fp32) qh kh (constant S112x8x8 .f32 0x00000000#32)

/-- The logits at (row, query step, key step): the sum over the lanes. -/
theorem logitsK_apply (qh kh : FVec Ideal S112x8x64 .f32) (r : Fin 112) (tq tk : Fin 8) :
    logitsK qh kh (ix3 r tq tk) = ∑ d : Fin 64, qh (ix3 r tq d) * kh (ix3 r tk d) := by
  unfold logitsK
  simp only [matmul]
  rw [Ideal.matmul_constant_zero_apply, ← Equiv.sum_comp (ValueIdx.contrEquiv1 dot_S112x8x64_S112x8x64_S112x8x8_2_2_1_1_0_0 64 rfl rfl).symm]
  refine Finset.sum_congr rfl fun d _ => ?_
  have hk := ValueIdx.contrEquiv1_symm_val dot_S112x8x64_S112x8x64_S112x8x8_2_2_1_1_0_0 64 rfl rfl d
  have el : dot_S112x8x64_S112x8x64_S112x8x8_2_2_1_1_0_0.lhsIdx (ix3 r tq tk) ((ValueIdx.contrEquiv1 dot_S112x8x64_S112x8x64_S112x8x8_2_2_1_1_0_0 64 rfl rfl).symm d) = ix3 r tq d := funext fun a => Fin.ext (by
    match a with
    | ⟨0, _⟩ => exact qk_lhs0 _ _
    | ⟨1, _⟩ => exact qk_lhs1 _ _
    | ⟨2, _⟩ => exact (qk_lhs2 _ _).trans hk)
  have er : dot_S112x8x64_S112x8x64_S112x8x8_2_2_1_1_0_0.rhsIdx (ix3 r tq tk) ((ValueIdx.contrEquiv1 dot_S112x8x64_S112x8x64_S112x8x8_2_2_1_1_0_0 64 rfl rfl).symm d) = ix3 r tk d := funext fun a => Fin.ext (by
    match a with
    | ⟨0, _⟩ => exact qk_rhs0 _ _
    | ⟨1, _⟩ => exact qk_rhs1 _ _
    | ⟨2, _⟩ => exact (qk_rhs2 _ _).trans hk)
  rw [el, er]

/-- The index a reduction over the key step reads: the reduced index with the key step put back. -/
theorem lift_keyStep (r : Fin 112) (tq tk : Fin 8) : reduces_S112x8x8_S112x8.lift (ix2 r tq) tk = ix3 r tq tk :=
  funext fun a => Fin.ext (by
    match a with
    | ⟨0, _⟩ => rfl
    | ⟨1, _⟩ => rfl
    | ⟨2, _⟩ => rfl)

/-- The maximum the soft-max subtracts: the running maximum of the logits over the key step, from −∞, then once more
    against −∞. -/
def maxK (L : FVec Ideal S112x8x8 .f32) : FVec Ideal S112x8 .f32 :=
  maximumf (broadcast S112x8 (Scalar.ofBits .f32 0xFF800000#32))
    (multiReduction .maximumf [2] S112x8 L 0xFF800000#32 reduces_S112x8x8_S112x8 (.inl rfl) rfl)

theorem maxK_apply (L : FVec Ideal S112x8x8 .f32) (r : Fin 112) (tq : Fin 8) :
    maxK L (ix2 r tq) = rowMax (fun tk => L (ix3 r tq tk)) := by
  unfold maxK rowMax negInf
  show max (Ideal.ofBits .f32 0xFF800000#32) (multiReduction (F := Ideal) .maximumf [2] S112x8 L 0xFF800000#32 reduces_S112x8x8_S112x8 (.inl rfl) rfl (ix2 r tq)) = _
  refine congrArg (max _) ((Ideal.multiReduction_maximumf_single L 0xFF800000#32 reduces_S112x8x8_S112x8 (.inl rfl) rfl (ix2 r tq)).trans ?_)
  exact congrArg (fun f : Fin 8 → EReal => (Finset.univ : Finset (Fin 8)).fold max (Ideal.ofBits .f32 0xFF800000#32) f)
    (funext fun tk => congrArg L (lift_keyStep r tq tk))

/-- A per-(row, query step) value spread back over the key step. -/
def col (m : FVec Ideal S112x8 .f32) : FVec Ideal S112x8x8 .f32 :=
  broadcastTo S112x8x8 (shapeCast S112x8x1 m shapeCasts_S112x8_S112x8x1) broadcasts_S112x8x1_S112x8x8

theorem col_apply (m : FVec Ideal S112x8 .f32) (r : Fin 112) (tq tk : Fin 8) : col m (ix3 r tq tk) = m (ix2 r tq) := by
  unfold col
  refine (broadcastTo_apply _ broadcasts_S112x8x1_S112x8x8 (ix3 r tq tk) (ix3 r tq (0 : Fin 1)) ?_).trans ?_
  · intro a
    match a with
    | ⟨0, _⟩ => rfl
    | ⟨1, _⟩ => rfl
    | ⟨2, _⟩ => rfl
  · refine shapeCast_apply m shapeCasts_S112x8_S112x8x1 (ix3 r tq (0 : Fin 1)) (ix2 r tq) ?_
    rw [Shape.rowMajor_val_two, Shape.rowMajor_val_three]
    show r.val * 8 + tq.val = (r.val * 8 + tq.val) * 1 + 0
    omega

/-- The exponentials of the logits less their maximum. -/
def expK (L : FVec Ideal S112x8x8 .f32) (m : FVec Ideal S112x8 .f32) : FVec Ideal S112x8x8 .f32 :=
  exp (subf L (col m))

theorem expK_apply (L : FVec Ideal S112x8x8 .f32) (m : FVec Ideal S112x8 .f32) (r : Fin 112) (tq tk : Fin 8) :
    expK L m (ix3 r tq tk) = Ideal.exp (L (ix3 r tq tk) - m (ix2 r tq)) := by
  unfold expK
  show Ideal.exp (L (ix3 r tq tk) - col m (ix3 r tq tk)) = _
  rw [col_apply]

/-- The sum over the key step. -/
def sumK (P : FVec Ideal S112x8x8 .f32) : FVec Ideal S112x8 .f32 :=
  multiReduction .add [2] S112x8 P 0x00000000#32 reduces_S112x8x8_S112x8 (.inl rfl) rfl

theorem sumK_apply (P : FVec Ideal S112x8x8 .f32) (r : Fin 112) (tq : Fin 8) :
    sumK P (ix2 r tq) = ∑ tk : Fin 8, P (ix3 r tq tk) := by
  unfold sumK
  refine (Ideal.multiReduction_add_single P 0x00000000#32 reduces_S112x8x8_S112x8 (.inl rfl) rfl (ix2 r tq)).trans ?_
  show ∑ tk : Fin 8, P (reduces_S112x8x8_S112x8.lift (ix2 r tq) tk) = _
  simp only [lift_keyStep]

/-- The soft-max weights: each exponential over the sum of its row's. -/
def weightsK (P : FVec Ideal S112x8x8 .f32) : FVec Ideal S112x8x8 .f32 :=
  divf P (col (sumK P))

theorem weightsK_apply (P : FVec Ideal S112x8x8 .f32) (r : Fin 112) (tq tk : Fin 8) :
    weightsK P (ix3 r tq tk) = Ideal.div (P (ix3 r tq tk)) (∑ tk' : Fin 8, P (ix3 r tq tk')) := by
  unfold weightsK
  show Ideal.div (P (ix3 r tq tk)) (col (sumK P) (ix3 r tq tk)) = _
  rw [col_apply, sumK_apply]

/-- The weighted sum of the values: for each row, the product of the weights with the value slice, over the key step. -/
def mixK (W : FVec Ideal S112x8x8 .f32) (vh : FVec Ideal S112x8x64 .f32) : FVec Ideal S112x8x64 .f32 :=
  matmul dot_S112x8x8_S112x8x64_S112x8x64_2_1_1_2_0_0 (some .fp32) W vh (constant S112x8x64 .f32 0x00000000#32)

theorem mixK_apply (W : FVec Ideal S112x8x8 .f32) (vh : FVec Ideal S112x8x64 .f32) (r : Fin 112) (tq : Fin 8) (d : Fin 64) :
    mixK W vh (ix3 r tq d) = ∑ tk : Fin 8, W (ix3 r tq tk) * vh (ix3 r tk d) := by
  unfold mixK
  simp only [matmul]
  rw [Ideal.matmul_constant_zero_apply, ← Equiv.sum_comp (ValueIdx.contrEquiv1 dot_S112x8x8_S112x8x64_S112x8x64_2_1_1_2_0_0 8 rfl rfl).symm]
  refine Finset.sum_congr rfl fun tk _ => ?_
  have hk := ValueIdx.contrEquiv1_symm_val dot_S112x8x8_S112x8x64_S112x8x64_2_1_1_2_0_0 8 rfl rfl tk
  have el : dot_S112x8x8_S112x8x64_S112x8x64_2_1_1_2_0_0.lhsIdx (ix3 r tq d) ((ValueIdx.contrEquiv1 dot_S112x8x8_S112x8x64_S112x8x64_2_1_1_2_0_0 8 rfl rfl).symm tk) = ix3 r tq tk := funext fun a => Fin.ext (by
    match a with
    | ⟨0, _⟩ => exact pv_lhs0 _ _
    | ⟨1, _⟩ => exact pv_lhs1 _ _
    | ⟨2, _⟩ => exact (pv_lhs2 _ _).trans hk)
  have er : dot_S112x8x8_S112x8x64_S112x8x64_2_1_1_2_0_0.rhsIdx (ix3 r tq d) ((ValueIdx.contrEquiv1 dot_S112x8x8_S112x8x64_S112x8x64_2_1_1_2_0_0 8 rfl rfl).symm tk) = ix3 r tk d := funext fun a => Fin.ext (by
    match a with
    | ⟨0, _⟩ => exact pv_rhs0 _ _
    | ⟨1, _⟩ => exact (pv_rhs1 _ _).trans hk
    | ⟨2, _⟩ => exact pv_rhs2 _ _)
  rw [el, er]

/-! ## One head -/

/-- One head from its three slices in the layout (row, time step, lane). -/
def headCore (qh kh vh : FVec Ideal S112x8x64 .f32) : FVec Ideal S112x8x64 .f32 :=
  mixK (weightsK (expK (logitsK qh kh) (maxK (logitsK qh kh)))) vh

/-- One head at (row, query step, lane) is the row attention of the row's slices. -/
theorem headCore_apply (qh kh vh : FVec Ideal S112x8x64 .f32) (r : Fin 112) (tq : Fin 8) (d : Fin 64) :
    headCore qh kh vh (ix3 r tq d)
      = head (fun t d' => qh (ix3 r t d')) (fun t d' => kh (ix3 r t d')) (fun t d' => vh (ix3 r t d')) tq d := by
  unfold headCore head softmax
  rw [mixK_apply]
  refine Finset.sum_congr rfl fun tk _ => ?_
  rw [weightsK_apply]
  simp only [expK_apply, maxK_apply, logitsK_apply]

end Cert.KernelValue

end
-- ==== Proof.HeadsB.lean ====
/-
  The twelve heads of the body are one generic head at twelve offsets. The generic head cuts head `h`'s slice out of
  the queries, keys and values (laid out row, time step, head, lane), drops the unit head axis, and runs the head's
  stages; read at (row, query step, lane) it is the row attention of head `h`'s slices.
-/
import proofs.«178110_j38543036514771_2_alg».proof.Proof.Gen.KernelIdeal.Skeleton
import proofs.«178110_j38543036514771_2_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«178110_j38543036514771_2_alg».proof.Proof.HeadsA

noncomputable section

namespace Cert.KernelValue

open Cert.KernelIdeal Cert.KernelIdeal.Gen
open Idealize.ShloMosaic Idealize.ShloMosaic.TcCoe Idealize.ShloMosaic.ValueIdx Cert.Attn

/-- Head `off 2`'s slice of an array laid out (row, time step, head, lane), in the layout (row, time step, lane). -/
def sliceK (x : FVec Ideal S112x8x12x64 .f32) (off : Fin 4 → Nat) (hs : S112x8x12x64.Slices off S112x8x1x64) :
    FVec Ideal S112x8x64 .f32 :=
  shapeCast S112x8x64 (extractStridedSlice S112x8x1x64 off x hs) shapeCasts_S112x8x1x64_S112x8x64

/-- The slice at (row, time step, lane) is the array at (row, time step, head, lane). -/
theorem sliceK_apply (x : FVec Ideal S112x8x12x64 .f32) (h : Fin 12) (hs : S112x8x12x64.Slices ![0, 0, h.val, 0] S112x8x1x64)
    (r : Fin 112) (t : Fin 8) (d : Fin 64) : sliceK x ![0, 0, h.val, 0] hs (ix3 r t d) = x (ix4 r t h d) := by
  unfold sliceK
  refine (shapeCast_apply _ shapeCasts_S112x8x1x64_S112x8x64 (ix3 r t d) (ix4 r t (0 : Fin 1) d) ?_).trans ?_
  · rw [Shape.rowMajor_val_four, Shape.rowMajor_val_three]
    show ((r.val * 8 + t.val) * 1 + 0) * 64 + d.val = (r.val * 8 + t.val) * 64 + d.val
    omega
  · refine extractStridedSlice_apply _ x hs (ix4 r t (0 : Fin 1) d) (ix4 r t h d) ?_
    intro a
    match a with
    | ⟨0, _⟩ => exact (Nat.zero_add _).symm
    | ⟨1, _⟩ => exact (Nat.zero_add _).symm
    | ⟨2, _⟩ => rfl
    | ⟨3, _⟩ => exact (Nat.zero_add _).symm

/-- The generic head: head `off 2`'s slices of the queries, keys and values through the head's stages. -/
def headK (q k v : FVec Ideal S112x8x12x64 .f32) (off : Fin 4 → Nat) (hs : S112x8x12x64.Slices off S112x8x1x64) :
    FVec Ideal S112x8x64 .f32 :=
  headCore (sliceK q off hs) (sliceK k off hs) (sliceK v off hs)

/-- The generic head at offset (0, 0, h, 0), read at (row, query step, lane): the row attention of head `h`. -/
theorem headK_apply (q k v : FVec Ideal S112x8x12x64 .f32) (off : Fin 4 → Nat) (hs : S112x8x12x64.Slices off S112x8x1x64)
    (h : Fin 12) (hoff : off = ![0, 0, h.val, 0]) (r : Fin 112) (tq : Fin 8) (d : Fin 64) :
    headK q k v off hs (ix3 r tq d)
      = head (fun t d' => q (ix4 r t h d')) (fun t d' => k (ix4 r t h d')) (fun t d' => v (ix4 r t h d')) tq d := by
  subst hoff
  unfold headK
  rw [headCore_apply]
  simp only [sliceK_apply]

/-! ## The body's twelve head terms -/

theorem head0_eq (v33 : FVec Ideal S896x768 .f32) (v34 : FVec Ideal S896x1536 .f32) (v35 : Vec Ideal S1x1536 .f32) :
    k0_pay9 v33 v34 v35 = headK (k0_pay6 v33) (k0_pay7 v34 v35) (k0_pay8 v34 v35) ![0, 0, 0, 0] slices_S112x8x12x64_o0_0_0_0_S112x8x1x64 := rfl
theorem head1_eq (v33 : FVec Ideal S896x768 .f32) (v34 : FVec Ideal S896x1536 .f32) (v35 : Vec Ideal S1x1536 .f32) :
    k0_pay10 v33 v34 v35 = headK (k0_pay6 v33) (k0_pay7 v34 v35) (k0_pay8 v34 v35) ![0, 0, 1, 0] slices_S112x8x12x64_o0_0_1_0_S112x8x1x64 := rfl
theorem head2_eq (v33 : FVec Ideal S896x768 .f32) (k v : FVec Ideal S112x8x12x64 .f32) :
    k0_pay12 k v (k0_pay11 v33) = headK (k0_pay6 v33) k v ![0, 0, 2, 0] slices_S112x8x12x64_o0_0_2_0_S112x8x1x64 := rfl
theorem head3_eq (q k v : FVec Ideal S112x8x12x64 .f32) :
    k0_pay13 q k v = headK q k v ![0, 0, 3, 0] slices_S112x8x12x64_o0_0_3_0_S112x8x1x64 := rfl
theorem head4_eq (q k v : FVec Ideal S112x8x12x64 .f32) :
    k0_pay17 (k0_pay14 v) (k0_pay15 q k) (k0_pay16 q k) = headK q k v ![0, 0, 4, 0] slices_S112x8x12x64_o0_0_4_0_S112x8x1x64 := rfl
theorem head5_eq (q k v : FVec Ideal S112x8x12x64 .f32) :
    k0_pay18 q k v = headK q k v ![0, 0, 5, 0] slices_S112x8x12x64_o0_0_5_0_S112x8x1x64 := rfl
theorem head6_eq (q k v : FVec Ideal S112x8x12x64 .f32) :
    k0_pay19 q k v = headK q k v ![0, 0, 6, 0] slices_S112x8x12x64_o0_0_6_0_S112x8x1x64 := rfl
theorem head7_eq (q k v : FVec Ideal S112x8x12x64 .f32) :
    k0_pay21 k v (k0_pay20 q) = headK q k v ![0, 0, 7, 0] slices_S112x8x12x64_o0_0_7_0_S112x8x1x64 := rfl
theorem head8_eq (q k v : FVec Ideal S112x8x12x64 .f32) :
    k0_pay22 q k v = headK q k v ![0, 0, 8, 0] slices_S112x8x12x64_o0_0_8_0_S112x8x1x64 := rfl
theorem head9_eq (q k v : FVec Ideal S112x8x12x64 .f32) :
    k0_pay26 (k0_pay23 v) (k0_pay24 q k) (k0_pay25 q k) = headK q k v ![0, 0, 9, 0] slices_S112x8x12x64_o0_0_9_0_S112x8x1x64 := rfl
theorem head10_eq (q k v : FVec Ideal S112x8x12x64 .f32) :
    k0_pay27 q k v = headK q k v ![0, 0, 10, 0] slices_S112x8x12x64_o0_0_10_0_S112x8x1x64 := rfl
theorem head11_eq (q k v : FVec Ideal S112x8x12x64 .f32) :
    k0_pay28 q k v = headK q k v ![0, 0, 11, 0] slices_S112x8x12x64_o0_0_11_0_S112x8x1x64 := rfl

end Cert.KernelValue

end
-- ==== Proof.HeadsC.lean ====
/-
  After the heads: the twelve head results, each with a unit head axis, are stacked along the head axis; the stack
  (row, time step, head, lane) is re-laid as (row·8 + time step, channel), channel = head·64 + lane; the output projection
  is a product with the projection matrix plus the bias; and the result is re-laid as (0, time step, row, channel).
-/
import proofs.«178110_j38543036514771_2_alg».proof.Proof.Gen.KernelIdeal.Skeleton
import proofs.«178110_j38543036514771_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelValue

open Cert.KernelIdeal Cert.KernelIdeal.Gen
open Idealize.ShloMosaic Idealize.ShloMosaic.TcCoe Idealize.ShloMosaic.ValueIdx Cert.Attn

/-! ## The stack of twelve pieces -/

/-- The choice among twelve things by the head number. -/
def sel12 {α : Type} (a0 a1 a2 a3 a4 a5 a6 a7 a8 a9 a10 a11 : α) : Fin 12 → α
  | ⟨0, _⟩ => a0 | ⟨1, _⟩ => a1 | ⟨2, _⟩ => a2 | ⟨3, _⟩ => a3 | ⟨4, _⟩ => a4 | ⟨5, _⟩ => a5
  | ⟨6, _⟩ => a6 | ⟨7, _⟩ => a7 | ⟨8, _⟩ => a8 | ⟨9, _⟩ => a9 | ⟨10, _⟩ => a10 | ⟨11, _⟩ => a11

/-- The extents, along the head axis, of `k` unit-head pieces laid end to end add up to `k`. -/
theorem pre_sum (k : Nat) :
    ((List.replicate k S112x8x1x64).map fun s : Shape =>
      if h : s.rank = S112x8x12x64.rank then s.size ((2 : Fin S112x8x12x64.rank).cast h.symm) else 0).sum = k := by
  induction k with
  | zero => rfl
  | succ n ih =>
    rw [List.replicate_succ, List.map_cons, List.sum_cons, ih]
    show 1 + n = n + 1
    omega

/-- Piece 0 of the stack. -/
theorem stack12_at0 (p0 p1 p2 p3 p4 p5 p6 p7 p8 p9 p10 p11 : FVec Ideal S112x8x1x64 .f32)
    (hc : Shape.Concatenates (([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).map (·.1)) S112x8x12x64 2)
    (r : Fin 112) (t : Fin 8) (d : Fin 64) :
    concatenate S112x8x12x64 2 [⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] hc (ix4 r t (⟨0, by omega⟩ : Fin 12) d)
      = p0 (ix4 r t (0 : Fin 1) d) := by
  have hk : 0 < ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).length := by show (0 : Nat) < 12; decide
  have key := concatenate_apply_piece (t := S112x8x12x64) (2 : Fin 4) ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))) hc
      (ix4 r t (⟨0, by omega⟩ : Fin 12) d) 0 hk S112x8x1x64 p0 rfl rfl 0 (pre_sum 0)
      (ix4 r t (0 : Fin 1) d) (fun b hb => by
        match b with
        | ⟨0, _⟩ => rfl
        | ⟨1, _⟩ => rfl
        | ⟨2, _⟩ => exact absurd rfl hb
        | ⟨3, _⟩ => rfl) rfl
  exact key

/-- Piece 1 of the stack. -/
theorem stack12_at1 (p0 p1 p2 p3 p4 p5 p6 p7 p8 p9 p10 p11 : FVec Ideal S112x8x1x64 .f32)
    (hc : Shape.Concatenates (([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).map (·.1)) S112x8x12x64 2)
    (r : Fin 112) (t : Fin 8) (d : Fin 64) :
    concatenate S112x8x12x64 2 [⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] hc (ix4 r t (⟨1, by omega⟩ : Fin 12) d)
      = p1 (ix4 r t (0 : Fin 1) d) := by
  have hk : 1 < ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).length := by show (1 : Nat) < 12; decide
  have key := concatenate_apply_piece (t := S112x8x12x64) (2 : Fin 4) ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))) hc
      (ix4 r t (⟨1, by omega⟩ : Fin 12) d) 1 hk S112x8x1x64 p1 rfl rfl 1 (pre_sum 1)
      (ix4 r t (0 : Fin 1) d) (fun b hb => by
        match b with
        | ⟨0, _⟩ => rfl
        | ⟨1, _⟩ => rfl
        | ⟨2, _⟩ => exact absurd rfl hb
        | ⟨3, _⟩ => rfl) rfl
  exact key

/-- Piece 2 of the stack. -/
theorem stack12_at2 (p0 p1 p2 p3 p4 p5 p6 p7 p8 p9 p10 p11 : FVec Ideal S112x8x1x64 .f32)
    (hc : Shape.Concatenates (([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).map (·.1)) S112x8x12x64 2)
    (r : Fin 112) (t : Fin 8) (d : Fin 64) :
    concatenate S112x8x12x64 2 [⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] hc (ix4 r t (⟨2, by omega⟩ : Fin 12) d)
      = p2 (ix4 r t (0 : Fin 1) d) := by
  have hk : 2 < ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).length := by show (2 : Nat) < 12; decide
  have key := concatenate_apply_piece (t := S112x8x12x64) (2 : Fin 4) ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))) hc
      (ix4 r t (⟨2, by omega⟩ : Fin 12) d) 2 hk S112x8x1x64 p2 rfl rfl 2 (pre_sum 2)
      (ix4 r t (0 : Fin 1) d) (fun b hb => by
        match b with
        | ⟨0, _⟩ => rfl
        | ⟨1, _⟩ => rfl
        | ⟨2, _⟩ => exact absurd rfl hb
        | ⟨3, _⟩ => rfl) rfl
  exact key

/-- Piece 3 of the stack. -/
theorem stack12_at3 (p0 p1 p2 p3 p4 p5 p6 p7 p8 p9 p10 p11 : FVec Ideal S112x8x1x64 .f32)
    (hc : Shape.Concatenates (([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).map (·.1)) S112x8x12x64 2)
    (r : Fin 112) (t : Fin 8) (d : Fin 64) :
    concatenate S112x8x12x64 2 [⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] hc (ix4 r t (⟨3, by omega⟩ : Fin 12) d)
      = p3 (ix4 r t (0 : Fin 1) d) := by
  have hk : 3 < ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).length := by show (3 : Nat) < 12; decide
  have key := concatenate_apply_piece (t := S112x8x12x64) (2 : Fin 4) ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))) hc
      (ix4 r t (⟨3, by omega⟩ : Fin 12) d) 3 hk S112x8x1x64 p3 rfl rfl 3 (pre_sum 3)
      (ix4 r t (0 : Fin 1) d) (fun b hb => by
        match b with
        | ⟨0, _⟩ => rfl
        | ⟨1, _⟩ => rfl
        | ⟨2, _⟩ => exact absurd rfl hb
        | ⟨3, _⟩ => rfl) rfl
  exact key

/-- Piece 4 of the stack. -/
theorem stack12_at4 (p0 p1 p2 p3 p4 p5 p6 p7 p8 p9 p10 p11 : FVec Ideal S112x8x1x64 .f32)
    (hc : Shape.Concatenates (([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).map (·.1)) S112x8x12x64 2)
    (r : Fin 112) (t : Fin 8) (d : Fin 64) :
    concatenate S112x8x12x64 2 [⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] hc (ix4 r t (⟨4, by omega⟩ : Fin 12) d)
      = p4 (ix4 r t (0 : Fin 1) d) := by
  have hk : 4 < ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).length := by show (4 : Nat) < 12; decide
  have key := concatenate_apply_piece (t := S112x8x12x64) (2 : Fin 4) ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))) hc
      (ix4 r t (⟨4, by omega⟩ : Fin 12) d) 4 hk S112x8x1x64 p4 rfl rfl 4 (pre_sum 4)
      (ix4 r t (0 : Fin 1) d) (fun b hb => by
        match b with
        | ⟨0, _⟩ => rfl
        | ⟨1, _⟩ => rfl
        | ⟨2, _⟩ => exact absurd rfl hb
        | ⟨3, _⟩ => rfl) rfl
  exact key

/-- Piece 5 of the stack. -/
theorem stack12_at5 (p0 p1 p2 p3 p4 p5 p6 p7 p8 p9 p10 p11 : FVec Ideal S112x8x1x64 .f32)
    (hc : Shape.Concatenates (([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).map (·.1)) S112x8x12x64 2)
    (r : Fin 112) (t : Fin 8) (d : Fin 64) :
    concatenate S112x8x12x64 2 [⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] hc (ix4 r t (⟨5, by omega⟩ : Fin 12) d)
      = p5 (ix4 r t (0 : Fin 1) d) := by
  have hk : 5 < ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).length := by show (5 : Nat) < 12; decide
  have key := concatenate_apply_piece (t := S112x8x12x64) (2 : Fin 4) ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))) hc
      (ix4 r t (⟨5, by omega⟩ : Fin 12) d) 5 hk S112x8x1x64 p5 rfl rfl 5 (pre_sum 5)
      (ix4 r t (0 : Fin 1) d) (fun b hb => by
        match b with
        | ⟨0, _⟩ => rfl
        | ⟨1, _⟩ => rfl
        | ⟨2, _⟩ => exact absurd rfl hb
        | ⟨3, _⟩ => rfl) rfl
  exact key

/-- Piece 6 of the stack. -/
theorem stack12_at6 (p0 p1 p2 p3 p4 p5 p6 p7 p8 p9 p10 p11 : FVec Ideal S112x8x1x64 .f32)
    (hc : Shape.Concatenates (([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).map (·.1)) S112x8x12x64 2)
    (r : Fin 112) (t : Fin 8) (d : Fin 64) :
    concatenate S112x8x12x64 2 [⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] hc (ix4 r t (⟨6, by omega⟩ : Fin 12) d)
      = p6 (ix4 r t (0 : Fin 1) d) := by
  have hk : 6 < ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).length := by show (6 : Nat) < 12; decide
  have key := concatenate_apply_piece (t := S112x8x12x64) (2 : Fin 4) ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))) hc
      (ix4 r t (⟨6, by omega⟩ : Fin 12) d) 6 hk S112x8x1x64 p6 rfl rfl 6 (pre_sum 6)
      (ix4 r t (0 : Fin 1) d) (fun b hb => by
        match b with
        | ⟨0, _⟩ => rfl
        | ⟨1, _⟩ => rfl
        | ⟨2, _⟩ => exact absurd rfl hb
        | ⟨3, _⟩ => rfl) rfl
  exact key

/-- Piece 7 of the stack. -/
theorem stack12_at7 (p0 p1 p2 p3 p4 p5 p6 p7 p8 p9 p10 p11 : FVec Ideal S112x8x1x64 .f32)
    (hc : Shape.Concatenates (([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).map (·.1)) S112x8x12x64 2)
    (r : Fin 112) (t : Fin 8) (d : Fin 64) :
    concatenate S112x8x12x64 2 [⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] hc (ix4 r t (⟨7, by omega⟩ : Fin 12) d)
      = p7 (ix4 r t (0 : Fin 1) d) := by
  have hk : 7 < ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).length := by show (7 : Nat) < 12; decide
  have key := concatenate_apply_piece (t := S112x8x12x64) (2 : Fin 4) ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))) hc
      (ix4 r t (⟨7, by omega⟩ : Fin 12) d) 7 hk S112x8x1x64 p7 rfl rfl 7 (pre_sum 7)
      (ix4 r t (0 : Fin 1) d) (fun b hb => by
        match b with
        | ⟨0, _⟩ => rfl
        | ⟨1, _⟩ => rfl
        | ⟨2, _⟩ => exact absurd rfl hb
        | ⟨3, _⟩ => rfl) rfl
  exact key

/-- Piece 8 of the stack. -/
theorem stack12_at8 (p0 p1 p2 p3 p4 p5 p6 p7 p8 p9 p10 p11 : FVec Ideal S112x8x1x64 .f32)
    (hc : Shape.Concatenates (([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).map (·.1)) S112x8x12x64 2)
    (r : Fin 112) (t : Fin 8) (d : Fin 64) :
    concatenate S112x8x12x64 2 [⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] hc (ix4 r t (⟨8, by omega⟩ : Fin 12) d)
      = p8 (ix4 r t (0 : Fin 1) d) := by
  have hk : 8 < ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).length := by show (8 : Nat) < 12; decide
  have key := concatenate_apply_piece (t := S112x8x12x64) (2 : Fin 4) ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))) hc
      (ix4 r t (⟨8, by omega⟩ : Fin 12) d) 8 hk S112x8x1x64 p8 rfl rfl 8 (pre_sum 8)
      (ix4 r t (0 : Fin 1) d) (fun b hb => by
        match b with
        | ⟨0, _⟩ => rfl
        | ⟨1, _⟩ => rfl
        | ⟨2, _⟩ => exact absurd rfl hb
        | ⟨3, _⟩ => rfl) rfl
  exact key

/-- Piece 9 of the stack. -/
theorem stack12_at9 (p0 p1 p2 p3 p4 p5 p6 p7 p8 p9 p10 p11 : FVec Ideal S112x8x1x64 .f32)
    (hc : Shape.Concatenates (([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).map (·.1)) S112x8x12x64 2)
    (r : Fin 112) (t : Fin 8) (d : Fin 64) :
    concatenate S112x8x12x64 2 [⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] hc (ix4 r t (⟨9, by omega⟩ : Fin 12) d)
      = p9 (ix4 r t (0 : Fin 1) d) := by
  have hk : 9 < ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).length := by show (9 : Nat) < 12; decide
  have key := concatenate_apply_piece (t := S112x8x12x64) (2 : Fin 4) ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))) hc
      (ix4 r t (⟨9, by omega⟩ : Fin 12) d) 9 hk S112x8x1x64 p9 rfl rfl 9 (pre_sum 9)
      (ix4 r t (0 : Fin 1) d) (fun b hb => by
        match b with
        | ⟨0, _⟩ => rfl
        | ⟨1, _⟩ => rfl
        | ⟨2, _⟩ => exact absurd rfl hb
        | ⟨3, _⟩ => rfl) rfl
  exact key

/-- Piece 10 of the stack. -/
theorem stack12_at10 (p0 p1 p2 p3 p4 p5 p6 p7 p8 p9 p10 p11 : FVec Ideal S112x8x1x64 .f32)
    (hc : Shape.Concatenates (([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).map (·.1)) S112x8x12x64 2)
    (r : Fin 112) (t : Fin 8) (d : Fin 64) :
    concatenate S112x8x12x64 2 [⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] hc (ix4 r t (⟨10, by omega⟩ : Fin 12) d)
      = p10 (ix4 r t (0 : Fin 1) d) := by
  have hk : 10 < ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).length := by show (10 : Nat) < 12; decide
  have key := concatenate_apply_piece (t := S112x8x12x64) (2 : Fin 4) ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))) hc
      (ix4 r t (⟨10, by omega⟩ : Fin 12) d) 10 hk S112x8x1x64 p10 rfl rfl 10 (pre_sum 10)
      (ix4 r t (0 : Fin 1) d) (fun b hb => by
        match b with
        | ⟨0, _⟩ => rfl
        | ⟨1, _⟩ => rfl
        | ⟨2, _⟩ => exact absurd rfl hb
        | ⟨3, _⟩ => rfl) rfl
  exact key

/-- Piece 11 of the stack. -/
theorem stack12_at11 (p0 p1 p2 p3 p4 p5 p6 p7 p8 p9 p10 p11 : FVec Ideal S112x8x1x64 .f32)
    (hc : Shape.Concatenates (([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).map (·.1)) S112x8x12x64 2)
    (r : Fin 112) (t : Fin 8) (d : Fin 64) :
    concatenate S112x8x12x64 2 [⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] hc (ix4 r t (⟨11, by omega⟩ : Fin 12) d)
      = p11 (ix4 r t (0 : Fin 1) d) := by
  have hk : 11 < ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).length := by show (11 : Nat) < 12; decide
  have key := concatenate_apply_piece (t := S112x8x12x64) (2 : Fin 4) ([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))) hc
      (ix4 r t (⟨11, by omega⟩ : Fin 12) d) 11 hk S112x8x1x64 p11 rfl rfl 11 (pre_sum 11)
      (ix4 r t (0 : Fin 1) d) (fun b hb => by
        match b with
        | ⟨0, _⟩ => rfl
        | ⟨1, _⟩ => rfl
        | ⟨2, _⟩ => exact absurd rfl hb
        | ⟨3, _⟩ => rfl) rfl
  exact key

/-- Twelve pieces with a unit head axis, stacked along the head axis, read at head `h`: piece `h` at its one head. -/
theorem stack12_apply (p0 p1 p2 p3 p4 p5 p6 p7 p8 p9 p10 p11 : FVec Ideal S112x8x1x64 .f32)
    (hc : Shape.Concatenates (([⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] : List ((s : Shape) × (s.Idx → Ideal .f32))).map (·.1)) S112x8x12x64 2)
    (r : Fin 112) (t : Fin 8) (h : Fin 12) (d : Fin 64) :
    concatenate S112x8x12x64 2 [⟨S112x8x1x64, p0⟩, ⟨S112x8x1x64, p1⟩, ⟨S112x8x1x64, p2⟩, ⟨S112x8x1x64, p3⟩, ⟨S112x8x1x64, p4⟩, ⟨S112x8x1x64, p5⟩, ⟨S112x8x1x64, p6⟩, ⟨S112x8x1x64, p7⟩, ⟨S112x8x1x64, p8⟩, ⟨S112x8x1x64, p9⟩, ⟨S112x8x1x64, p10⟩, ⟨S112x8x1x64, p11⟩] hc (ix4 r t h d)
      = sel12 p0 p1 p2 p3 p4 p5 p6 p7 p8 p9 p10 p11 h (ix4 r t (0 : Fin 1) d) := by
  match h with
  | ⟨0, _⟩ => exact stack12_at0 p0 p1 p2 p3 p4 p5 p6 p7 p8 p9 p10 p11 hc r t d
  | ⟨1, _⟩ => exact stack12_at1 p0 p1 p2 p3 p4 p5 p6 p7 p8 p9 p10 p11 hc r t d
  | ⟨2, _⟩ => exact stack12_at2 p0 p1 p2 p3 p4 p5 p6 p7 p8 p9 p10 p11 hc r t d
  | ⟨3, _⟩ => exact stack12_at3 p0 p1 p2 p3 p4 p5 p6 p7 p8 p9 p10 p11 hc r t d
  | ⟨4, _⟩ => exact stack12_at4 p0 p1 p2 p3 p4 p5 p6 p7 p8 p9 p10 p11 hc r t d
  | ⟨5, _⟩ => exact stack12_at5 p0 p1 p2 p3 p4 p5 p6 p7 p8 p9 p10 p11 hc r t d
  | ⟨6, _⟩ => exact stack12_at6 p0 p1 p2 p3 p4 p5 p6 p7 p8 p9 p10 p11 hc r t d
  | ⟨7, _⟩ => exact stack12_at7 p0 p1 p2 p3 p4 p5 p6 p7 p8 p9 p10 p11 hc r t d
  | ⟨8, _⟩ => exact stack12_at8 p0 p1 p2 p3 p4 p5 p6 p7 p8 p9 p10 p11 hc r t d
  | ⟨9, _⟩ => exact stack12_at9 p0 p1 p2 p3 p4 p5 p6 p7 p8 p9 p10 p11 hc r t d
  | ⟨10, _⟩ => exact stack12_at10 p0 p1 p2 p3 p4 p5 p6 p7 p8 p9 p10 p11 hc r t d
  | ⟨11, _⟩ => exact stack12_at11 p0 p1 p2 p3 p4 p5 p6 p7 p8 p9 p10 p11 hc r t d

/-- A head result given its unit head axis. -/
def up (x : FVec Ideal S112x8x64 .f32) : FVec Ideal S112x8x1x64 .f32 :=
  shapeCast S112x8x1x64 x shapeCasts_S112x8x64_S112x8x1x64

theorem up_apply (x : FVec Ideal S112x8x64 .f32) (r : Fin 112) (t : Fin 8) (d : Fin 64) :
    up x (ix4 r t (0 : Fin 1) d) = x (ix3 r t d) := by
  unfold up
  refine shapeCast_apply x shapeCasts_S112x8x64_S112x8x1x64 (ix4 r t (0 : Fin 1) d) (ix3 r t d) ?_
  rw [Shape.rowMajor_val_four, Shape.rowMajor_val_three]
  show (r.val * 8 + t.val) * 64 + d.val = ((r.val * 8 + t.val) * 1 + 0) * 64 + d.val
  omega

/-! ## Rows and channels -/

/-- Row `r` at time step `t` of the 896 = 112 · 8 flattened rows. -/
def rowOf (r : Fin 112) (t : Fin 8) : Fin 896 := ⟨r.val * 8 + t.val, by have := r.isLt; have := t.isLt; omega⟩

/-- The stack re-laid as (flattened row, channel), narrowed to the product's operand format (no change of value). -/
def rowsK (cat : FVec Ideal S112x8x12x64 .f32) : FVec Ideal S896x768 .bf16 :=
  truncf .bf16 (shapeCast S896x768 cat shapeCasts_S112x8x12x64_S896x768) bitsLt_bf16_f32

theorem rowsK_apply (cat : FVec Ideal S112x8x12x64 .f32) (r : Fin 112) (t : Fin 8) (c : Fin 768) :
    rowsK cat (ix2 (rowOf r t) c) = cat (ix4 r t (hOf c) (dOf c)) := by
  unfold rowsK
  rw [truncf_apply]
  refine shapeCast_apply cat shapeCasts_S112x8x12x64_S896x768 (ix2 (rowOf r t) c) (ix4 r t (hOf c) (dOf c)) ?_
  rw [Shape.rowMajor_val_four, Shape.rowMajor_val_two]
  show ((r.val * 8 + t.val) * 12 + c.val / 64) * 64 + c.val % 64 = (r.val * 8 + t.val) * 768 + c.val
  have := c.isLt
  omega

/-! ## The projection -/

theorem proj_lhs0 (i : S896x768.Idx) (q : dot_S896x768_S768x768_S896x768_1_0_0_1_n_n.contr.Idx) : (dot_S896x768_S768x768_S896x768_1_0_0_1_n_n.lhsIdx i q 0).val = (i 0).val := by
  unfold DotDims.lhsIdx
  rw [dif_neg (show ¬(0 : Fin S896x768.rank) ∈ dot_S896x768_S768x768_S896x768_1_0_0_1_n_n.lhsBatch by decide), dif_pos (show (0 : Fin S896x768.rank) ∈ dot_S896x768_S768x768_S896x768_1_0_0_1_n_n.lhsNonContracting by decide)]
  rfl
theorem proj_lhs1 (i : S896x768.Idx) (q : dot_S896x768_S768x768_S896x768_1_0_0_1_n_n.contr.Idx) : (dot_S896x768_S768x768_S896x768_1_0_0_1_n_n.lhsIdx i q 1).val = (q ⟨0, by decide⟩).val :=
  dot_S896x768_S768x768_S896x768_1_0_0_1_n_n.lhsIdx_val_of_single rfl i q
theorem proj_rhs0 (i : S896x768.Idx) (q : dot_S896x768_S768x768_S896x768_1_0_0_1_n_n.contr.Idx) : (dot_S896x768_S768x768_S896x768_1_0_0_1_n_n.rhsIdx i q 0).val = (q ⟨0, by decide⟩).val :=
  dot_S896x768_S768x768_S896x768_1_0_0_1_n_n.rhsIdx_val_of_single rfl i q
theorem proj_rhs1 (i : S896x768.Idx) (q : dot_S896x768_S768x768_S896x768_1_0_0_1_n_n.contr.Idx) : (dot_S896x768_S768x768_S896x768_1_0_0_1_n_n.rhsIdx i q 1).val = (i 1).val := by
  unfold DotDims.rhsIdx
  rw [dif_neg (show ¬(1 : Fin S768x768.rank) ∈ dot_S896x768_S768x768_S896x768_1_0_0_1_n_n.rhsBatch by decide), dif_pos (show (1 : Fin S768x768.rank) ∈ dot_S896x768_S768x768_S896x768_1_0_0_1_n_n.rhsNonContracting by decide)]
  rfl

/-- The projection on flattened rows: the product with the matrix (input channel, output channel) plus the bias row. -/
def linK (v28 : FVec Ideal S768x768 .bf16) (x : FVec Ideal S896x768 .bf16) (v290 : Vec Ideal S1x768 .f32) : FVec Ideal S896x768 .f32 :=
  addf (matmul dot_S896x768_S768x768_S896x768_1_0_0_1_n_n none x v28 (constant S896x768 .f32 0x00000000#32))
    (broadcastTo S896x768 (shapeCast S1x768 v290 shapeCasts_S1x768_S1x768) broadcasts_S1x768_S896x768)

theorem linK_apply (v28 : FVec Ideal S768x768 .bf16) (x : FVec Ideal S896x768 .bf16) (v290 : Vec Ideal S1x768 .f32)
    (i : Fin 896) (o : Fin 768) :
    linK v28 x v290 (ix2 i o) = (∑ c : Fin 768, x (ix2 i c) * v28 (ix2 c o)) + v290 (ix2 (0 : Fin 1) o) := by
  unfold linK
  rw [addf_apply]
  congr 1
  · simp only [matmul]
    rw [Ideal.matmul_constant_zero_apply, ← Equiv.sum_comp (ValueIdx.contrEquiv1 dot_S896x768_S768x768_S896x768_1_0_0_1_n_n 768 rfl rfl).symm]
    refine Finset.sum_congr rfl fun c _ => ?_
    have hk := ValueIdx.contrEquiv1_symm_val dot_S896x768_S768x768_S896x768_1_0_0_1_n_n 768 rfl rfl c
    have el : dot_S896x768_S768x768_S896x768_1_0_0_1_n_n.lhsIdx (ix2 i o) ((ValueIdx.contrEquiv1 dot_S896x768_S768x768_S896x768_1_0_0_1_n_n 768 rfl rfl).symm c) = ix2 i c := funext fun a => Fin.ext (by
      match a with
      | ⟨0, _⟩ => exact proj_lhs0 _ _
      | ⟨1, _⟩ => exact (proj_lhs1 _ _).trans hk)
    have er : dot_S896x768_S768x768_S896x768_1_0_0_1_n_n.rhsIdx (ix2 i o) ((ValueIdx.contrEquiv1 dot_S896x768_S768x768_S896x768_1_0_0_1_n_n 768 rfl rfl).symm c) = ix2 c o := funext fun a => Fin.ext (by
      match a with
      | ⟨0, _⟩ => exact (proj_rhs0 _ _).trans hk
      | ⟨1, _⟩ => exact proj_rhs1 _ _)
    rw [el, er]
  · rw [shapeCast_self]
    refine broadcastTo_apply v290 broadcasts_S1x768_S896x768 (ix2 i o) (ix2 (0 : Fin 1) o) ?_
    intro a
    match a with
    | ⟨0, _⟩ => rfl
    | ⟨1, _⟩ => rfl

/-! ## The stored layout -/

/-- Flattened rows re-laid as the stored block (0, time step, row, channel). -/
def layoutK (y : FVec Ideal S896x768 .f32) : FVec Ideal S1x8x112x768 .f32 :=
  shapeCast S1x8x112x768
    (transpose S8x112x768 [1, 0, 2] (shapeCast S112x8x768 y shapeCasts_S896x768_S112x8x768) transposes_S112x8x768_p1_0_2_S8x112x768)
    shapeCasts_S8x112x768_S1x8x112x768

theorem layoutK_apply (y : FVec Ideal S896x768 .f32) (r : Fin 112) (t : Fin 8) (o : Fin 768) :
    layoutK y (ix4 (0 : Fin 1) t r o) = y (ix2 (rowOf r t) o) := by
  unfold layoutK
  refine (shapeCast_apply _ shapeCasts_S8x112x768_S1x8x112x768 (ix4 (0 : Fin 1) t r o) (ix3 t r o) ?_).trans ?_
  · rw [Shape.rowMajor_val_four, Shape.rowMajor_val_three]
    show (t.val * 112 + r.val) * 768 + o.val = ((0 * 8 + t.val) * 112 + r.val) * 768 + o.val
    omega
  refine (transpose_apply [1, 0, 2] _ transposes_S112x8x768_p1_0_2_S8x112x768 (ix3 t r o) (ix3 r t o) ?_).trans ?_
  · intro b
    match b with
    | ⟨0, _⟩ => rfl
    | ⟨1, _⟩ => rfl
    | ⟨2, _⟩ => rfl
  refine shapeCast_apply y shapeCasts_S896x768_S112x8x768 (ix3 r t o) (ix2 (rowOf r t) o) ?_
  rw [Shape.rowMajor_val_two, Shape.rowMajor_val_three]
  rfl

/-! ## The tail: stack, projection, stored layout -/

/-- Everything after the heads, from the stack. -/
def projK (v28 : FVec Ideal S768x768 .bf16) (cat : FVec Ideal S112x8x12x64 .f32) (v290 : Vec Ideal S1x768 .f32) :
    FVec Ideal S1x8x112x768 .f32 :=
  layoutK (linK v28 (rowsK cat) v290)

/-- The stored block at (0, t, r, o): the projection, over the channels, of the stack at (r, t, head of the channel,
    lane of the channel). -/
theorem projK_apply (v28 : FVec Ideal S768x768 .bf16) (cat : FVec Ideal S112x8x12x64 .f32) (v290 : Vec Ideal S1x768 .f32)
    (r : Fin 112) (t : Fin 8) (o : Fin 768) :
    projK v28 cat v290 (ix4 (0 : Fin 1) t r o)
      = lin (fun c => cat (ix4 r t (hOf c) (dOf c))) (fun o c => v28 (ix2 c o)) (fun o => v290 (ix2 (0 : Fin 1) o)) o := by
  unfold projK lin
  rw [layoutK_apply, linK_apply]
  simp only [rowsK_apply]

/-- The body's tail is the projection of the stack of the twelve pieces (the first already has its unit head axis). -/
theorem pay1_eq (v28 : FVec Ideal S768x768 .bf16) (h1 h2 h3 h4 h5 h6 h7 h8 h9 h10 h11 : FVec Ideal S112x8x64 .f32)
    (p0 : FVec Ideal S112x8x1x64 .f32) (v290 : Vec Ideal S1x768 .f32) :
    k0_pay1 v28 h1 h2 h3 h4 h5 h6 h7 h8 h9 h10 h11 p0 v290
      = projK v28 (concatenate S112x8x12x64 2 [⟨S112x8x1x64, p0⟩, ⟨S112x8x1x64, up h1⟩, ⟨S112x8x1x64, up h2⟩, ⟨S112x8x1x64, up h3⟩, ⟨S112x8x1x64, up h4⟩, ⟨S112x8x1x64, up h5⟩, ⟨S112x8x1x64, up h6⟩, ⟨S112x8x1x64, up h7⟩, ⟨S112x8x1x64, up h8⟩, ⟨S112x8x1x64, up h9⟩, ⟨S112x8x1x64, up h10⟩, ⟨S112x8x1x64, up h11⟩]
          concatenates_S112x8x1x64_S112x8x1x64_S112x8x1x64_S112x8x1x64_S112x8x1x64_S112x8x1x64_S112x8x1x64_S112x8x1x64_S112x8x1x64_S112x8x1x64_S112x8x1x64_S112x8x1x64_S112x8x12x64_d2) v290 := rfl

end Cert.KernelValue

end
-- ==== Proof.Heads.lean ====
/-
  The kernel's attention heads and output projection. The body slices the scaled queries `q`, the keys `k` and the
  values `v` (each laid out row, time step, head, lane) into twelve heads, runs each head — logits over the 64 lanes,
  soft-max over the key time step, weighted sum of values —, stacks the heads back along the head axis and applies the
  output projection. Read at (time step t, row r, channel o) this is `lin` over the channels `c` of head `c / 64`'s
  result at lane `c % 64`.
-/
import proofs.«178110_j38543036514771_2_alg».proof.Proof.Gen.KernelIdeal.Skeleton
import proofs.«178110_j38543036514771_2_alg».proof.Proof.Spec
import proofs.«178110_j38543036514771_2_alg».proof.Proof.HeadsB
import proofs.«178110_j38543036514771_2_alg».proof.Proof.HeadsC
import Idealize.ShloMosaic.Lib.ValueIdx
import Idealize.ShloMosaic.Lib.ValueLayout
import Idealize.ShloMosaic.Lib.Pipeline.Value
import Idealize.ShloMosaic.PureOps.Ideal.Laws

noncomputable section

namespace Cert.KernelValue

open Cert.KernelIdeal Cert.KernelIdeal.Gen
open Idealize.ShloMosaic Idealize.ShloMosaic.TcCoe Idealize.ShloMosaic.ValueIdx Cert.Attn

/-- Piece `h` of the stack, at its one head, is head `h`'s row attention: each of the body's twelve head terms is the
    generic head at its offset. -/
theorem piece_apply (v33 : FVec Ideal S896x768 .f32) (v34 : FVec Ideal S896x1536 .f32) (v35 : Vec Ideal S1x1536 .f32)
    (r : Fin 112) (t : Fin 8) (h : Fin 12) (d : Fin 64) :
    sel12 (k0_pay29 (k0_pay9 v33 v34 v35))
      (up (k0_pay10 v33 v34 v35))
      (up (k0_pay12 (k0_pay7 v34 v35) (k0_pay8 v34 v35) (k0_pay11 v33)))
      (up (k0_pay13 (k0_pay6 v33) (k0_pay7 v34 v35) (k0_pay8 v34 v35)))
      (up (k0_pay17 (k0_pay14 (k0_pay8 v34 v35)) (k0_pay15 (k0_pay6 v33) (k0_pay7 v34 v35)) (k0_pay16 (k0_pay6 v33) (k0_pay7 v34 v35))))
      (up (k0_pay18 (k0_pay6 v33) (k0_pay7 v34 v35) (k0_pay8 v34 v35)))
      (up (k0_pay19 (k0_pay6 v33) (k0_pay7 v34 v35) (k0_pay8 v34 v35)))
      (up (k0_pay21 (k0_pay7 v34 v35) (k0_pay8 v34 v35) (k0_pay20 (k0_pay6 v33))))
      (up (k0_pay22 (k0_pay6 v33) (k0_pay7 v34 v35) (k0_pay8 v34 v35)))
      (up (k0_pay26 (k0_pay23 (k0_pay8 v34 v35)) (k0_pay24 (k0_pay6 v33) (k0_pay7 v34 v35)) (k0_pay25 (k0_pay6 v33) (k0_pay7 v34 v35))))
      (up (k0_pay27 (k0_pay6 v33) (k0_pay7 v34 v35) (k0_pay8 v34 v35)))
      (up (k0_pay28 (k0_pay6 v33) (k0_pay7 v34 v35) (k0_pay8 v34 v35))) h (ix4 r t (0 : Fin 1) d)
      = head (fun t' d' => k0_pay6 v33 (ix4 r t' h d')) (fun t' d' => k0_pay7 v34 v35 (ix4 r t' h d'))
          (fun t' d' => k0_pay8 v34 v35 (ix4 r t' h d')) t d := by
  match h with
  | ⟨0, _⟩ =>
    exact (up_apply (k0_pay9 v33 v34 v35) r t d).trans ((congrFun (head0_eq v33 v34 v35) (ix3 r t d)).trans
      (headK_apply (k0_pay6 v33) (k0_pay7 v34 v35) (k0_pay8 v34 v35) _ _ (⟨0, by omega⟩ : Fin 12) rfl r t d))
  | ⟨1, _⟩ =>
    exact (up_apply (k0_pay10 v33 v34 v35) r t d).trans ((congrFun (head1_eq v33 v34 v35) (ix3 r t d)).trans
      (headK_apply (k0_pay6 v33) (k0_pay7 v34 v35) (k0_pay8 v34 v35) _ _ (⟨1, by omega⟩ : Fin 12) rfl r t d))
  | ⟨2, _⟩ =>
    exact (up_apply (k0_pay12 (k0_pay7 v34 v35) (k0_pay8 v34 v35) (k0_pay11 v33)) r t d).trans ((congrFun (head2_eq v33 (k0_pay7 v34 v35) (k0_pay8 v34 v35)) (ix3 r t d)).trans
      (headK_apply (k0_pay6 v33) (k0_pay7 v34 v35) (k0_pay8 v34 v35) _ _ (⟨2, by omega⟩ : Fin 12) rfl r t d))
  | ⟨3, _⟩ =>
    exact (up_apply (k0_pay13 (k0_pay6 v33) (k0_pay7 v34 v35) (k0_pay8 v34 v35)) r t d).trans ((congrFun (head3_eq (k0_pay6 v33) (k0_pay7 v34 v35) (k0_pay8 v34 v35)) (ix3 r t d)).trans
      (headK_apply (k0_pay6 v33) (k0_pay7 v34 v35) (k0_pay8 v34 v35) _ _ (⟨3, by omega⟩ : Fin 12) rfl r t d))
  | ⟨4, _⟩ =>
    exact (up_apply (k0_pay17 (k0_pay14 (k0_pay8 v34 v35)) (k0_pay15 (k0_pay6 v33) (k0_pay7 v34 v35)) (k0_pay16 (k0_pay6 v33) (k0_pay7 v34 v35))) r t d).trans ((congrFun (head4_eq (k0_pay6 v33) (k0_pay7 v34 v35) (k0_pay8 v34 v35)) (ix3 r t d)).trans
      (headK_apply (k0_pay6 v33) (k0_pay7 v34 v35) (k0_pay8 v34 v35) _ _ (⟨4, by omega⟩ : Fin 12) rfl r t d))
  | ⟨5, _⟩ =>
    exact (up_apply (k0_pay18 (k0_pay6 v33) (k0_pay7 v34 v35) (k0_pay8 v34 v35)) r t d).trans ((congrFun (head5_eq (k0_pay6 v33) (k0_pay7 v34 v35) (k0_pay8 v34 v35)) (ix3 r t d)).trans
      (headK_apply (k0_pay6 v33) (k0_pay7 v34 v35) (k0_pay8 v34 v35) _ _ (⟨5, by omega⟩ : Fin 12) rfl r t d))
  | ⟨6, _⟩ =>
    exact (up_apply (k0_pay19 (k0_pay6 v33) (k0_pay7 v34 v35) (k0_pay8 v34 v35)) r t d).trans ((congrFun (head6_eq (k0_pay6 v33) (k0_pay7 v34 v35) (k0_pay8 v34 v35)) (ix3 r t d)).trans
      (headK_apply (k0_pay6 v33) (k0_pay7 v34 v35) (k0_pay8 v34 v35) _ _ (⟨6, by omega⟩ : Fin 12) rfl r t d))
  | ⟨7, _⟩ =>
    exact (up_apply (k0_pay21 (k0_pay7 v34 v35) (k0_pay8 v34 v35) (k0_pay20 (k0_pay6 v33))) r t d).trans ((congrFun (head7_eq (k0_pay6 v33) (k0_pay7 v34 v35) (k0_pay8 v34 v35)) (ix3 r t d)).trans
      (headK_apply (k0_pay6 v33) (k0_pay7 v34 v35) (k0_pay8 v34 v35) _ _ (⟨7, by omega⟩ : Fin 12) rfl r t d))
  | ⟨8, _⟩ =>
    exact (up_apply (k0_pay22 (k0_pay6 v33) (k0_pay7 v34 v35) (k0_pay8 v34 v35)) r t d).trans ((congrFun (head8_eq (k0_pay6 v33) (k0_pay7 v34 v35) (k0_pay8 v34 v35)) (ix3 r t d)).trans
      (headK_apply (k0_pay6 v33) (k0_pay7 v34 v35) (k0_pay8 v34 v35) _ _ (⟨8, by omega⟩ : Fin 12) rfl r t d))
  | ⟨9, _⟩ =>
    exact (up_apply (k0_pay26 (k0_pay23 (k0_pay8 v34 v35)) (k0_pay24 (k0_pay6 v33) (k0_pay7 v34 v35)) (k0_pay25 (k0_pay6 v33) (k0_pay7 v34 v35))) r t d).trans ((congrFun (head9_eq (k0_pay6 v33) (k0_pay7 v34 v35) (k0_pay8 v34 v35)) (ix3 r t d)).trans
      (headK_apply (k0_pay6 v33) (k0_pay7 v34 v35) (k0_pay8 v34 v35) _ _ (⟨9, by omega⟩ : Fin 12) rfl r t d))
  | ⟨10, _⟩ =>
    exact (up_apply (k0_pay27 (k0_pay6 v33) (k0_pay7 v34 v35) (k0_pay8 v34 v35)) r t d).trans ((congrFun (head10_eq (k0_pay6 v33) (k0_pay7 v34 v35) (k0_pay8 v34 v35)) (ix3 r t d)).trans
      (headK_apply (k0_pay6 v33) (k0_pay7 v34 v35) (k0_pay8 v34 v35) _ _ (⟨10, by omega⟩ : Fin 12) rfl r t d))
  | ⟨11, _⟩ =>
    exact (up_apply (k0_pay28 (k0_pay6 v33) (k0_pay7 v34 v35) (k0_pay8 v34 v35)) r t d).trans ((congrFun (head11_eq (k0_pay6 v33) (k0_pay7 v34 v35) (k0_pay8 v34 v35)) (ix3 r t d)).trans
      (headK_apply (k0_pay6 v33) (k0_pay7 v34 v35) (k0_pay8 v34 v35) _ _ (⟨11, by omega⟩ : Fin 12) rfl r t d))

/-- The stored block at (0, t, r, o), from the query/key/value projections `v33` (queries before scaling and
    splitting into heads) and `v34`, `v35` (keys and values before the bias), the projection matrix `v28` and bias `v290`:
    the output projection of the twelve heads' results, each head the row attention `Cert.Attn.head` of its slices. -/
theorem pay1_apply (v28 : FVec Ideal S768x768 .bf16) (v33 : FVec Ideal S896x768 .f32) (v34 : FVec Ideal S896x1536 .f32)
    (v35 : Vec Ideal S1x1536 .f32) (v290 : Vec Ideal S1x768 .f32) (r : Fin 112) (t : Fin 8) (o : Fin 768) :
    k0_pay1 v28 (k0_pay10 v33 v34 v35)
      (k0_pay12 (k0_pay7 v34 v35) (k0_pay8 v34 v35) (k0_pay11 v33))
      (k0_pay13 (k0_pay6 v33) (k0_pay7 v34 v35) (k0_pay8 v34 v35))
      (k0_pay17 (k0_pay14 (k0_pay8 v34 v35)) (k0_pay15 (k0_pay6 v33) (k0_pay7 v34 v35)) (k0_pay16 (k0_pay6 v33) (k0_pay7 v34 v35)))
      (k0_pay18 (k0_pay6 v33) (k0_pay7 v34 v35) (k0_pay8 v34 v35))
      (k0_pay19 (k0_pay6 v33) (k0_pay7 v34 v35) (k0_pay8 v34 v35))
      (k0_pay21 (k0_pay7 v34 v35) (k0_pay8 v34 v35) (k0_pay20 (k0_pay6 v33)))
      (k0_pay22 (k0_pay6 v33) (k0_pay7 v34 v35) (k0_pay8 v34 v35))
      (k0_pay26 (k0_pay23 (k0_pay8 v34 v35)) (k0_pay24 (k0_pay6 v33) (k0_pay7 v34 v35)) (k0_pay25 (k0_pay6 v33) (k0_pay7 v34 v35)))
      (k0_pay27 (k0_pay6 v33) (k0_pay7 v34 v35) (k0_pay8 v34 v35))
      (k0_pay28 (k0_pay6 v33) (k0_pay7 v34 v35) (k0_pay8 v34 v35))
      (k0_pay29 (k0_pay9 v33 v34 v35)) v290 (ix4 0 t r o)
    = lin (fun c => head (fun t' d => k0_pay6 v33 (ix4 r t' (hOf c) d))
                         (fun t' d => k0_pay7 v34 v35 (ix4 r t' (hOf c) d))
                         (fun t' d => k0_pay8 v34 v35 (ix4 r t' (hOf c) d)) t (dOf c))
          (fun o c => v28 (ix2 c o)) (fun o => v290 (ix2 0 o)) o := by
  rw [pay1_eq, projK_apply]
  refine congrArg (fun x : Fin 768 → EReal => lin x (fun o c => v28 (ix2 c o)) (fun o => v290 (ix2 (0 : Fin 1) o)) o) (funext fun c => ?_)
  exact (stack12_apply _ _ _ _ _ _ _ _ _ _ _ _ _ r t (hOf c) (dOf c)).trans (piece_apply v33 v34 v35 r t (hOf c) (dOf c))

end Cert.KernelValue

end
-- ==== Proof.QKV.lean ====
/-
  The kernel's three projections read at an index. A tile holds 112 pixels × 8 time steps; the body flattens (pixel r,
  time step t) to row r·8 + t of an 896-row matrix and multiplies by a weight matrix already transposed to (input
  channel, output channel). The coarse tokens arrive 28 to a tile (two rows of fourteen) and are repeated 2 × 2, so
  pixel r of the tile (row r / 28, column r % 28 of four rows of 28) reads coarse token (r / 28 / 2)·14 + (r % 28) / 2.
-/
import proofs.«178110_j38543036514771_2_alg».proof.Proof.Gen.KernelIdeal.Skeleton
import proofs.«178110_j38543036514771_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelValue

open Cert.KernelIdeal Cert.KernelIdeal.Gen
open Idealize.ShloMosaic Idealize.ShloMosaic.TcCoe Idealize.ShloMosaic.ValueIdx Cert.Attn

/-- Pixel `r` of the tile at time step `t` is row `r·8 + t` of the flattened tile. -/
def row (r : Fin 112) (t : Fin 8) : Fin 896 := ⟨r.val * 8 + t.val, by have := r.isLt; have := t.isLt; omega⟩

/-- The coarse token of the tile's 28 that pixel `r` of the tile's 112 repeats. -/
def coarseOf (r : Fin 112) : Fin 28 := ⟨r.val / 28 / 2 * 14 + r.val % 28 / 2, by have := r.isLt; omega⟩

/-! ## The two plain matrix products, as sums over the 768 input channels -/

theorem mm768_apply (l : FVec Ideal S896x768 .bf16) (w : FVec Ideal S768x768 .bf16) (i : Fin 896) (o : Fin 768) :
    matmul dot_S896x768_S768x768_S896x768_1_0_0_1_n_n none l w (constant S896x768 .f32 0x00000000#32) (ix2 i o)
      = ∑ k : Fin 768, l (ix2 i k) * w (ix2 k o) := by
  simp only [matmul]
  rw [Ideal.matmul_constant_zero_apply, ← Equiv.sum_comp (contrEquiv1 dot_S896x768_S768x768_S896x768_1_0_0_1_n_n 768 rfl rfl).symm]
  refine Finset.sum_congr rfl fun k _ => ?_
  have hk := contrEquiv1_symm_val dot_S896x768_S768x768_S896x768_1_0_0_1_n_n 768 rfl rfl k
  have el : dot_S896x768_S768x768_S896x768_1_0_0_1_n_n.lhsIdx (ix2 i o) ((contrEquiv1 dot_S896x768_S768x768_S896x768_1_0_0_1_n_n 768 rfl rfl).symm k) = ix2 i k :=
    funext fun a => Fin.ext (by
      match a with
      | ⟨0, _⟩ =>
        show (dot_S896x768_S768x768_S896x768_1_0_0_1_n_n.lhsIdx (ix2 i o) _ 0).val = i.val
        unfold DotDims.lhsIdx
        rw [dif_neg (show ¬(0 : Fin S896x768.rank) ∈ dot_S896x768_S768x768_S896x768_1_0_0_1_n_n.lhsBatch by decide), dif_pos (show (0 : Fin S896x768.rank) ∈ dot_S896x768_S768x768_S896x768_1_0_0_1_n_n.lhsNonContracting by decide)]
        rfl
      | ⟨1, _⟩ => exact (dot_S896x768_S768x768_S896x768_1_0_0_1_n_n.lhsIdx_val_of_single rfl (ix2 i o) _).trans hk)
  have er : dot_S896x768_S768x768_S896x768_1_0_0_1_n_n.rhsIdx (ix2 i o) ((contrEquiv1 dot_S896x768_S768x768_S896x768_1_0_0_1_n_n 768 rfl rfl).symm k) = ix2 k o :=
    funext fun a => Fin.ext (by
      match a with
      | ⟨0, _⟩ => exact (dot_S896x768_S768x768_S896x768_1_0_0_1_n_n.rhsIdx_val_of_single rfl (ix2 i o) _).trans hk
      | ⟨1, _⟩ =>
        show (dot_S896x768_S768x768_S896x768_1_0_0_1_n_n.rhsIdx (ix2 i o) _ 1).val = o.val
        unfold DotDims.rhsIdx
        rw [dif_neg (show ¬(1 : Fin S768x768.rank) ∈ dot_S896x768_S768x768_S896x768_1_0_0_1_n_n.rhsBatch by decide), dif_pos (show (1 : Fin S768x768.rank) ∈ dot_S896x768_S768x768_S896x768_1_0_0_1_n_n.rhsNonContracting by decide)]
        rfl)
  rw [el, er]

theorem mm1536_apply (l : FVec Ideal S896x768 .bf16) (w : FVec Ideal S768x1536 .bf16) (i : Fin 896) (o : Fin 1536) :
    matmul dot_S896x768_S768x1536_S896x1536_1_0_0_1_n_n none l w (constant S896x1536 .f32 0x00000000#32) (ix2 i o)
      = ∑ k : Fin 768, l (ix2 i k) * w (ix2 k o) := by
  simp only [matmul]
  rw [Ideal.matmul_constant_zero_apply, ← Equiv.sum_comp (contrEquiv1 dot_S896x768_S768x1536_S896x1536_1_0_0_1_n_n 768 rfl rfl).symm]
  refine Finset.sum_congr rfl fun k _ => ?_
  have hk := contrEquiv1_symm_val dot_S896x768_S768x1536_S896x1536_1_0_0_1_n_n 768 rfl rfl k
  have el : dot_S896x768_S768x1536_S896x1536_1_0_0_1_n_n.lhsIdx (ix2 i o) ((contrEquiv1 dot_S896x768_S768x1536_S896x1536_1_0_0_1_n_n 768 rfl rfl).symm k) = ix2 i k :=
    funext fun a => Fin.ext (by
      match a with
      | ⟨0, _⟩ =>
        show (dot_S896x768_S768x1536_S896x1536_1_0_0_1_n_n.lhsIdx (ix2 i o) _ 0).val = i.val
        unfold DotDims.lhsIdx
        rw [dif_neg (show ¬(0 : Fin S896x768.rank) ∈ dot_S896x768_S768x1536_S896x1536_1_0_0_1_n_n.lhsBatch by decide), dif_pos (show (0 : Fin S896x768.rank) ∈ dot_S896x768_S768x1536_S896x1536_1_0_0_1_n_n.lhsNonContracting by decide)]
        rfl
      | ⟨1, _⟩ => exact (dot_S896x768_S768x1536_S896x1536_1_0_0_1_n_n.lhsIdx_val_of_single rfl (ix2 i o) _).trans hk)
  have er : dot_S896x768_S768x1536_S896x1536_1_0_0_1_n_n.rhsIdx (ix2 i o) ((contrEquiv1 dot_S896x768_S768x1536_S896x1536_1_0_0_1_n_n 768 rfl rfl).symm k) = ix2 k o :=
    funext fun a => Fin.ext (by
      match a with
      | ⟨0, _⟩ => exact (dot_S896x768_S768x1536_S896x1536_1_0_0_1_n_n.rhsIdx_val_of_single rfl (ix2 i o) _).trans hk
      | ⟨1, _⟩ =>
        show (dot_S896x768_S768x1536_S896x1536_1_0_0_1_n_n.rhsIdx (ix2 i o) _ 1).val = o.val
        unfold DotDims.rhsIdx
        rw [dif_neg (show ¬(1 : Fin S768x1536.rank) ∈ dot_S896x768_S768x1536_S896x1536_1_0_0_1_n_n.rhsBatch by decide), dif_pos (show (1 : Fin S768x1536.rank) ∈ dot_S896x768_S768x1536_S896x1536_1_0_0_1_n_n.rhsNonContracting by decide)]
        rfl)
  rw [el, er]

/-! ## Layout steps at explicit coordinates -/

/-- The flattened tile's row `r·8 + t` is pixel `r`, time step `t`. -/
theorem flat_apply {φ : FTy} (v : FVec Ideal S112x8x768 φ) (h : S112x8x768.ShapeCasts S896x768) (r : Fin 112) (t : Fin 8) (k : Fin 768) :
    shapeCast S896x768 v h (ix2 (row r t) k) = v (ix3 r t k) :=
  shapeCast_apply v h _ (ix3 r t k) (by
    rewrite [Shape.rowMajor_val_three, Shape.rowMajor_val_two]
    show (r.val * 8 + t.val) * 768 + k.val = (r.val * 8 + t.val) * 768 + k.val
    rfl)

/-- A one-row bias matrix broadcast down the 896 rows. -/
theorem bias768_apply (v : FVec Ideal S1x768 .f32) (h : S1x768.Broadcasts S896x768) (i : Fin 896) (o : Fin 768) :
    broadcastTo S896x768 v h (ix2 i o) = v (ix2 0 o) :=
  broadcastTo_apply v h _ (ix2 0 o) (fun a => by
    match a with
    | ⟨0, _⟩ => rfl
    | ⟨1, _⟩ => rfl)

theorem bias1536_apply (v : FVec Ideal S1x1536 .f32) (h : S1x1536.Broadcasts S896x1536) (i : Fin 896) (o : Fin 1536) :
    broadcastTo S896x1536 v h (ix2 i o) = v (ix2 0 o) :=
  broadcastTo_apply v h _ (ix2 0 o) (fun a => by
    match a with
    | ⟨0, _⟩ => rfl
    | ⟨1, _⟩ => rfl)

/-- The [1, 0, 2] transposition of a tile: (pixel, time step, channel) reads (time step, pixel, channel). -/
theorem tr102_apply {φ : FTy} (v : FVec Ideal S8x112x768 φ) (h : S8x112x768.Transposes [1, 0, 2] S112x8x768) (r : Fin 112) (t : Fin 8) (k : Fin 768) :
    transpose S112x8x768 [1, 0, 2] v h (ix3 r t k) = v (ix3 t r k) :=
  transpose_apply _ v h _ _ fun c => match c with | ⟨0, _⟩ => rfl | ⟨1, _⟩ => rfl | ⟨2, _⟩ => rfl

/-- The time embedding broadcast over the tile's 112 pixels. -/
theorem bcast1_apply (v : FVec Ideal S1x8x768 .f32) (h : S1x8x768.Broadcasts S112x8x768) (r : Fin 112) (t : Fin 8) (k : Fin 768) :
    broadcastTo S112x8x768 v h (ix3 r t k) = v (ix3 0 t k) :=
  broadcastTo_apply v h _ (ix3 0 t k) (fun a => by
    match a with
    | ⟨0, _⟩ => rfl
    | ⟨1, _⟩ => rfl
    | ⟨2, _⟩ => rfl)

/-! ## The query projection -/

/-- The fine tokens of the tile, transposed to (pixel, time step, channel) with the time embedding added, flattened. -/
theorem pay3_apply (x0 : Vec Ideal S1x8x112x768 .f32) (x2 : Vec Ideal S8x768 .f32) (x3 : Vec Ideal S768x768 .bf16)
    (x4 : Vec Ideal S1x768 .f32) (r : Fin 112) (t : Fin 8) (o : Fin 768) :
    k0_pay3 x0 x2 x3 x4 (ix2 (row r t) o)
      = lin (fun k => x0 (ix4 0 t r k) + x2 (ix2 t k)) (fun o k => x3 (ix2 k o)) (fun o => x4 (ix2 0 o)) o := by
  unfold k0_pay3 lin
  dsimp only
  simp only [shapeCast_self]
  rw [addf_apply, mm768_apply, bias768_apply]
  refine congrArg (fun z : EReal => z + x4 (ix2 0 o)) (Finset.sum_congr rfl fun k _ => ?_)
  rw [truncf_apply, flat_apply, addf_apply, tr102_apply, shapeCast_1abc_abc_apply, bcast1_apply, shapeCast_ab_1ab_apply]

/-! ## The 2 × 2 repetition of the coarse tokens, step by step -/

/-- Pixel `r` of the tile's 112 is row `r / 28` of four, column `r % 28` of 28. -/
def q28 (r : Fin 112) : Fin 4 := ⟨r.val / 28, by have := r.isLt; omega⟩
def m28 (r : Fin 112) : Fin 28 := ⟨r.val % 28, Nat.mod_lt _ (by decide)⟩
def half28 (c : Fin 28) : Fin 14 := ⟨c.val / 2, by have := c.isLt; omega⟩
def par28 (c : Fin 28) : Fin 2 := ⟨c.val % 2, Nat.mod_lt _ (by decide)⟩
def half4 (a : Fin 4) : Fin 2 := ⟨a.val / 2, by have := a.isLt; omega⟩
def par4 (a : Fin 4) : Fin 2 := ⟨a.val % 2, Nat.mod_lt _ (by decide)⟩
def tok28 (a : Fin 2) (c : Fin 14) : Fin 28 := ⟨a.val * 14 + c.val, by have := a.isLt; have := c.isLt; omega⟩

theorem coarseOf_eq (r : Fin 112) : tok28 (half4 (q28 r)) (half28 (m28 r)) = coarseOf r := rfl

theorem c112_apply (v : FVec Ideal S4x28x8x768 .f32) (h : S4x28x8x768.ShapeCasts S112x8x768) (r : Fin 112) (t : Fin 8) (k : Fin 768) :
    shapeCast S112x8x768 v h (ix3 r t k) = v (ix4 (q28 r) (m28 r) t k) :=
  shapeCast_apply v h _ _ (by
    rewrite [Shape.rowMajor_val_four, Shape.rowMajor_val_three]
    show ((r.val / 28 * 28 + r.val % 28) * 8 + t.val) * 768 + k.val = (r.val * 8 + t.val) * 768 + k.val
    have := r.isLt; omega)

theorem c4x28_apply (v : FVec Ideal S4x14x2x8x768 .f32) (h : S4x14x2x8x768.ShapeCasts S4x28x8x768) (a : Fin 4) (c : Fin 28) (t : Fin 8) (k : Fin 768) :
    shapeCast S4x28x8x768 v h (ix4 a c t k) = v (ix5 a (half28 c) (par28 c) t k) :=
  shapeCast_apply v h _ _ (by
    rewrite [Shape.rowMajor_val_five, Shape.rowMajor_val_four]
    show (((a.val * 14 + c.val / 2) * 2 + c.val % 2) * 8 + t.val) * 768 + k.val = ((a.val * 28 + c.val) * 8 + t.val) * 768 + k.val
    have := c.isLt; omega)

theorem b4x14x2_apply (v : FVec Ideal S4x14x1x8x768 .f32) (h : S4x14x1x8x768.Broadcasts S4x14x2x8x768) (a : Fin 4) (c : Fin 14) (e : Fin 2) (t : Fin 8) (k : Fin 768) :
    broadcastTo S4x14x2x8x768 v h (ix5 a c e t k) = v (ix5 a c 0 t k) :=
  broadcastTo_apply v h _ (ix5 a c 0 t k) (fun x => by
    match x with
    | ⟨0, _⟩ => rfl
    | ⟨1, _⟩ => rfl
    | ⟨2, _⟩ => rfl
    | ⟨3, _⟩ => rfl
    | ⟨4, _⟩ => rfl)

theorem c4x14x1_apply (v : FVec Ideal S4x14x8x768 .f32) (h : S4x14x8x768.ShapeCasts S4x14x1x8x768) (a : Fin 4) (c : Fin 14) (t : Fin 8) (k : Fin 768) :
    shapeCast S4x14x1x8x768 v h (ix5 a c 0 t k) = v (ix4 a c t k) :=
  shapeCast_apply v h _ _ (by
    rewrite [Shape.rowMajor_val_five, Shape.rowMajor_val_four]
    show ((a.val * 14 + c.val) * 8 + t.val) * 768 + k.val = (((a.val * 14 + c.val) * 1 + 0) * 8 + t.val) * 768 + k.val
    omega)

theorem c4x14_apply (v : FVec Ideal S2x2x14x8x768 .f32) (h : S2x2x14x8x768.ShapeCasts S4x14x8x768) (a : Fin 4) (c : Fin 14) (t : Fin 8) (k : Fin 768) :
    shapeCast S4x14x8x768 v h (ix4 a c t k) = v (ix5 (half4 a) (par4 a) c t k) :=
  shapeCast_apply v h _ _ (by
    rewrite [Shape.rowMajor_val_five, Shape.rowMajor_val_four]
    show ((((a.val / 2) * 2 + a.val % 2) * 14 + c.val) * 8 + t.val) * 768 + k.val = ((a.val * 14 + c.val) * 8 + t.val) * 768 + k.val
    omega)

theorem b2x2_apply (v : FVec Ideal S2x1x14x8x768 .f32) (h : S2x1x14x8x768.Broadcasts S2x2x14x8x768) (a : Fin 2) (e : Fin 2) (c : Fin 14) (t : Fin 8) (k : Fin 768) :
    broadcastTo S2x2x14x8x768 v h (ix5 a e c t k) = v (ix5 a 0 c t k) :=
  broadcastTo_apply v h _ (ix5 a 0 c t k) (fun x => by
    match x with
    | ⟨0, _⟩ => rfl
    | ⟨1, _⟩ => rfl
    | ⟨2, _⟩ => rfl
    | ⟨3, _⟩ => rfl
    | ⟨4, _⟩ => rfl)

theorem c2x1_apply (v : FVec Ideal S2x14x8x768 .f32) (h : S2x14x8x768.ShapeCasts S2x1x14x8x768) (a : Fin 2) (c : Fin 14) (t : Fin 8) (k : Fin 768) :
    shapeCast S2x1x14x8x768 v h (ix5 a 0 c t k) = v (ix4 a c t k) :=
  shapeCast_apply v h _ _ (by
    rewrite [Shape.rowMajor_val_five, Shape.rowMajor_val_four]
    show ((a.val * 14 + c.val) * 8 + t.val) * 768 + k.val = (((a.val * 1 + 0) * 14 + c.val) * 8 + t.val) * 768 + k.val
    omega)

theorem c2x14_apply (v : FVec Ideal S28x8x768 .f32) (h : S28x8x768.ShapeCasts S2x14x8x768) (a : Fin 2) (c : Fin 14) (t : Fin 8) (k : Fin 768) :
    shapeCast S2x14x8x768 v h (ix4 a c t k) = v (ix3 (tok28 a c) t k) :=
  shapeCast_apply v h _ _ (by
    rewrite [Shape.rowMajor_val_four, Shape.rowMajor_val_three]
    show ((a.val * 14 + c.val) * 8 + t.val) * 768 + k.val = ((a.val * 14 + c.val) * 8 + t.val) * 768 + k.val
    rfl)

/-! ## The key/value projection -/

/-- The coarse tokens of the tile, repeated 2 × 2 to the tile's pixels, flattened, times the key/value weights, plus
    the bias. -/
theorem pay5_apply (x1 : Vec Ideal S1x28x8x768 .f32) (x5 : Vec Ideal S768x1536 .bf16) (x6 : Vec Ideal S1x1536 .f32)
    (r : Fin 112) (t : Fin 8) (o : Fin 1536) :
    k0_pay5 (k0_pay4 x1 x5) x6 (ix2 (row r t) o)
      = lin (fun k => x1 (ix4 0 (coarseOf r) t k)) (fun o k => x5 (ix2 k o)) (fun o => x6 (ix2 0 o)) o := by
  unfold k0_pay5 k0_pay4 lin
  dsimp only
  simp only [shapeCast_self]
  rw [addf_apply, mm1536_apply, bias1536_apply]
  refine congrArg (fun z : EReal => z + x6 (ix2 0 o)) (Finset.sum_congr rfl fun k _ => ?_)
  rw [truncf_apply, flat_apply, c112_apply, c4x28_apply, b4x14x2_apply, c4x14x1_apply, c4x14_apply,
    b2x2_apply, c2x1_apply, c2x14_apply, shapeCast_1abc_abc_apply, coarseOf_eq]

/-! ## Splitting the 768 channels into twelve heads of 64 lanes -/

/-- Row `r·8 + t`, channel `h·64 + d` of the flattened tile is (pixel r, time step t, head h, lane d). -/
theorem heads_apply (v : FVec Ideal S896x768 .f32) (hc : S896x768.ShapeCasts S112x8x12x64) (r : Fin 112) (t : Fin 8) (h : Fin 12) (d : Fin 64) :
    shapeCast S112x8x12x64 v hc (ix4 r t h d) = v (ix2 (row r t) (hd h d)) :=
  shapeCast_apply v hc _ _ (by
    rewrite [Shape.rowMajor_val_two, Shape.rowMajor_val_four]
    show (r.val * 8 + t.val) * 768 + (h.val * 64 + d.val) = (((r.val * 8 + t.val) * 12 + h.val) * 64 + d.val)
    omega)

/-- The scaled queries. -/
theorem pay6_apply (v33 : FVec Ideal S896x768 .f32) (r : Fin 112) (t : Fin 8) (h : Fin 12) (d : Fin 64) :
    k0_pay6 v33 (ix4 r t h d) = v33 (ix2 (row r t) (hd h d)) * cScale := by
  unfold k0_pay6
  rw [mulf_apply, heads_apply, broadcast_apply]
  rfl

/-- The keys: the first 768 of the 1536 key/value channels. -/
theorem pay7_apply (v34 : FVec Ideal S896x1536 .f32) (v35 : Vec Ideal S1x1536 .f32) (r : Fin 112) (t : Fin 8) (h : Fin 12) (d : Fin 64) :
    k0_pay7 v34 v35 (ix4 r t h d) = k0_pay5 v34 v35 (ix2 (row r t) (hdK h d)) := by
  unfold k0_pay7
  rw [heads_apply]
  exact slice2_axis1_apply 0 _ _ _ _ (hdK h d) (by show h.val * 64 + d.val = 0 + (h.val * 64 + d.val); omega)

/-- The values: the last 768 of the 1536 key/value channels. -/
theorem pay8_apply (v34 : FVec Ideal S896x1536 .f32) (v35 : Vec Ideal S1x1536 .f32) (r : Fin 112) (t : Fin 8) (h : Fin 12) (d : Fin 64) :
    k0_pay8 v34 v35 (ix4 r t h d) = k0_pay5 v34 v35 (ix2 (row r t) (hdV h d)) := by
  unfold k0_pay8
  rw [heads_apply]
  exact slice2_axis1_apply 768 _ _ _ _ (hdV h d) (by show 768 + (h.val * 64 + d.val) = 768 + (h.val * 64 + d.val); rfl)

end Cert.KernelValue

end
-- ==== Proof.Body.lean ====
/-
  What the kernel's body leaves in the output tile, at (time step t, pixel r, channel o): the row attention of pixel r's
  fine tokens (with the time embedding added) and of the coarse token it repeats, under the three weight matrices the
  body loads already transposed to (input channel, output channel).
-/
import proofs.«178110_j38543036514771_2_alg».proof.Proof.Gen.KernelIdeal.Frame
import proofs.«178110_j38543036514771_2_alg».proof.Proof.Heads
import proofs.«178110_j38543036514771_2_alg».proof.Proof.QKV

set_option maxRecDepth 16384

noncomputable section

namespace Cert.KernelValue

open Cert.KernelIdeal Cert.KernelIdeal.Gen
open Idealize.ShloMosaic Idealize.ShloMosaic.TcCoe Idealize.ShloMosaic.ValueIdx Cert.Attn

theorem hz4 : (![0, 0, 0, 0] : Fin 4 → Nat) = fun _ => 0 := funext fun a => by fin_cases a <;> rfl
theorem hz2 : (![0, 0] : Fin 2 → Nat) = fun _ => 0 := funext fun a => by fin_cases a <;> rfl

theorem body_apply (x0 : Vec Ideal S1x8x112x768 .f32) (x1 : Vec Ideal S1x28x8x768 .f32) (x2 : Vec Ideal S8x768 .f32)
    (x3 : Vec Ideal S768x768 .bf16) (x4 : Vec Ideal S1x768 .f32) (x5 : Vec Ideal S768x1536 .bf16) (x6 : Vec Ideal S1x1536 .f32)
    (x7 : Vec Ideal S768x768 .bf16) (x8 : Vec Ideal S1x768 .f32) (r : Fin 112) (t : Fin 8) (o : Fin 768) :
    out0_9 x0 x1 x2 x3 x4 x5 x6 x7 x8 (ix4 0 t r o)
      = attnRow (fun t' k => x0 (ix4 0 t' r k) + x2 (ix2 t' k)) (fun t' k => x1 (ix4 0 (coarseOf r) t' k))
          (fun o k => x3 (ix2 k o)) (fun o => x4 (ix2 0 o)) (fun o k => x5 (ix2 k o)) (fun o => x6 (ix2 0 o))
          (fun o k => x7 (ix2 k o)) (fun o => x8 (ix2 0 o)) t o := by
  unfold out0_9
  rw [View.canon_unit_zero hz4]
  simp only [View.ld_unit_zero (S := S1x8x112x768) hz4, View.ld_unit_zero (S := S1x28x8x768) hz4,
    View.ld_unit_zero (S := S8x768) hz2, View.ld_unit_zero (S := S768x768) hz2, View.ld_unit_zero (S := S768x1536) hz2,
    View.ld_unit_zero (S := S1x768) hz2, View.ld_unit_zero (S := S1x1536) hz2]
  rw [pay1_apply]
  unfold attnRow
  simp only [pay6_apply, pay7_apply, pay8_apply, pay3_apply, pay5_apply, k0_pay2, shapeCast_self]

end Cert.KernelValue

end
-- ==== Proof.HostIn.lean ====
/-
  The arrays the region reads, as the host operations before it leave them, read at an index of the argument arrays:
  the fine tokens re-grouped (batch entry, time step, pixel, channel); the coarse tokens re-grouped (batch entry, token, time step,
  channel) with their time embedding added; the three weight matrices transposed; the three biases as one-row matrices.
-/
import proofs.«178110_j38543036514771_2_alg».proof.Proof.Gen.KernelIdeal.Frame
import proofs.«178110_j38543036514771_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelValue

open Cert.KernelIdeal Cert.KernelIdeal.Gen
open Idealize.ShloMosaic Idealize.ShloMosaic.TcCoe Idealize.ShloMosaic.ValueIdx Idealize.SL.Sem Cert.Attn
open Idealize.ShloMosaic.StableHlo

variable (m : (ℓ : Loc nD τ sig) → Buf (Elt Ideal) ℓ)

/-- Pixel `p` of the 784 is (p / 28, p % 28) on the 28 × 28 grid. -/
def pixH (p : Fin 784) : Fin 28 := ⟨p.val / 28, by have := p.isLt; omega⟩
def pixW (p : Fin 784) : Fin 28 := ⟨p.val % 28, Nat.mod_lt _ (by decide)⟩
/-- Coarse token `n` of the 196 at time step `t` is token `t·196 + n` of the 1568. -/
def tokAt (t : Fin 8) (n : Fin 196) : Fin 1568 := ⟨t.val * 196 + n.val, by have := t.isLt; have := n.isLt; omega⟩

/-- The fine tokens as the region finds them: the argument array re-grouped, as the reshape's term. -/
theorem V_v0_term (c : Dev nD) :
    (V m c main_v0 : S8x8x784x768.Idx → EReal)
      = shapeCast _ (m ((c : Thread nD τ).loc main_arg0)) shapeCasts_S64x28x28x768_S8x8x784x768 := by
  show StableHlo.after hostOps0 (fun b => m (c, b)) (Proc.devRef .tc main_v0) = _
  after_results
  rfl

theorem V_v0_apply (c : Dev nD) (b t : Fin 8) (p : Fin 784) (k : Fin 768) :
    (V m c main_v0 : S8x8x784x768.Idx → EReal) (ix4 b t p k)
      = (m ((c : Thread nD τ).loc main_arg0) : S64x28x28x768.Idx → EReal) (ix4 (frame b t) (pixH p) (pixW p) k) := by
  rw [V_v0_term]
  exact shapeCast_apply _ shapeCasts_S64x28x28x768_S8x8x784x768 _ _ (by
    rewrite [Shape.rowMajor_val_four, Shape.rowMajor_val_four]
    have hb := b.isLt; have ht := t.isLt; have hp := p.isLt; have hk := k.isLt
    show (((b.val * 8 + t.val) * 28 + p.val / 28) * 28 + p.val % 28) * 768 + k.val
        = ((b.val * 8 + t.val) * 784 + p.val) * 768 + k.val
    omega)

/-- The coarse tokens as the region finds them: the argument array re-grouped by time step, the time step moved inside the
    token, and the time embedding — one row per time step, the same for every batch entry and token — added. -/
theorem V_v5_term (c : Dev nD) :
    (V m c main_v5 : S8x196x8x768.Idx → EReal)
      = (addf (F := Ideal)
          (transpose S8x196x8x768 [0, 2, 1, 3]
            (shapeCast S8x8x196x768 (m ((c : Thread nD τ).loc main_arg1) : FVec Ideal S8x1568x768 .f32) shapeCasts_S8x1568x768_S8x8x196x768)
            transposes_S8x8x196x768_S8x196x8x768_0_2_1_3 : FVec Ideal S8x196x8x768 .f32)
          (broadcastInDim S8x196x8x768 ![0, 1, 2, 3] bcast_S1x1x8x768_S8x196x8x768_0_1_2_3
            (broadcastInDim S1x1x8x768 ![2, 3] bcast_S8x768_S1x1x8x768_2_3
              (m ((c : Thread nD τ).loc main_arg3) : FVec Ideal S8x768 .f32)) : FVec Ideal S8x196x8x768 .f32)
          : FVec Ideal S8x196x8x768 .f32) := by
  show StableHlo.after hostOps0 (fun b => m (c, b)) (Proc.devRef .tc main_v5) = _
  after_results
  rfl

theorem V_v5_apply (c : Dev nD) (b : Fin 8) (n : Fin 196) (t : Fin 8) (k : Fin 768)
    (a1 : S8x1568x768.Idx → EReal) (a3 : S8x768.Idx → EReal)
    (h1 : a1 = m ((c : Thread nD τ).loc main_arg1)) (h3 : a3 = m ((c : Thread nD τ).loc main_arg3)) :
    (V m c main_v5 : S8x196x8x768.Idx → EReal) (ix4 b n t k) = a1 (ix3 b (tokAt t n) k) + a3 (ix2 t k) := by
  subst h1 h3
  rw [V_v5_term, addf_apply]
  congr 1
  · -- the token axis and the time axis exchanged, then token t·196 + n of the 1568
    rw [transpose_apply [0, 2, 1, 3] _ transposes_S8x8x196x768_S8x196x8x768_0_2_1_3 (ix4 b n t k) (ix4 b t n k) (fun a => match a with
      | ⟨0, _⟩ => rfl
      | ⟨1, _⟩ => rfl
      | ⟨2, _⟩ => rfl
      | ⟨3, _⟩ => rfl)]
    exact shapeCast_apply _ shapeCasts_S8x1568x768_S8x8x196x768 (ix4 b t n k) (ix3 b (tokAt t n) k) (by
      rewrite [Shape.rowMajor_val_three, Shape.rowMajor_val_four]
      have hb := b.isLt; have ht := t.isLt; have hn := n.isLt; have hk := k.isLt
      show (b.val * 1568 + (t.val * 196 + n.val)) * 768 + k.val = ((b.val * 8 + t.val) * 196 + n.val) * 768 + k.val
      omega)
  · -- the embedding's row depends on the time step and the channel only
    rw [broadcastInDim_apply _ bcast_S1x1x8x768_S8x196x8x768_0_1_2_3 _ (ix4 b n t k) (ix4 (0 : Fin 1) (0 : Fin 1) t k) (fun a => match a with
      | ⟨0, _⟩ => by show 0 = if (1 : Nat) = 1 then 0 else b.val; rw [if_pos rfl]
      | ⟨1, _⟩ => by show 0 = if (1 : Nat) = 1 then 0 else n.val; rw [if_pos rfl]
      | ⟨2, _⟩ => by show t.val = if (8 : Nat) = 1 then 0 else t.val; rw [if_neg (by decide)]
      | ⟨3, _⟩ => by show k.val = if (768 : Nat) = 1 then 0 else k.val; rw [if_neg (by decide)])]
    exact broadcastInDim_apply _ bcast_S8x768_S1x1x8x768_2_3 _ (ix4 (0 : Fin 1) (0 : Fin 1) t k) (ix2 t k) (fun a => match a with
      | ⟨0, _⟩ => by show t.val = if (8 : Nat) = 1 then 0 else t.val; rw [if_neg (by decide)]
      | ⟨1, _⟩ => by show k.val = if (768 : Nat) = 1 then 0 else k.val; rw [if_neg (by decide)])

/-- The query weights as the region finds them: the argument matrix transposed (the narrowing conversion is the identity on ideal values). -/
theorem V_v10_term (c : Dev nD) :
    (V m c main_v10 : S768x768.Idx → EReal)
      = (truncf (F := Ideal) (φ := .f32) .bf16 (transpose S768x768 [1, 0] (m ((c : Thread nD τ).loc main_arg4) : FVec Ideal S768x768 .f32)
          transposes_S768x768_S768x768_1_0) bitsLt_bf16_f32 : FVec Ideal S768x768 .bf16) := by
  show StableHlo.after hostOps0 (fun b => m (c, b)) (Proc.devRef .tc main_v10) = _
  after_results

theorem V_v10_apply (c : Dev nD) (k o : Fin 768) :
    (V m c main_v10 : S768x768.Idx → EReal) (ix2 k o) = (m ((c : Thread nD τ).loc main_arg4) : S768x768.Idx → EReal) (ix2 o k) := by
  rw [V_v10_term, truncf_apply]
  exact transpose_apply [1, 0] _ transposes_S768x768_S768x768_1_0 (ix2 k o) (ix2 o k) (fun b => match b with
    | ⟨0, _⟩ => rfl
    | ⟨1, _⟩ => rfl)

/-- The key/value weights as the region finds them: the argument matrix transposed. -/
theorem V_v12_term (c : Dev nD) :
    (V m c main_v12 : S768x1536.Idx → EReal)
      = (truncf (F := Ideal) (φ := .f32) .bf16 (transpose S768x1536 [1, 0] (m ((c : Thread nD τ).loc main_arg6) : FVec Ideal S1536x768 .f32)
          transposes_S1536x768_S768x1536_1_0) bitsLt_bf16_f32 : FVec Ideal S768x1536 .bf16) := by
  show StableHlo.after hostOps0 (fun b => m (c, b)) (Proc.devRef .tc main_v12) = _
  after_results

theorem V_v12_apply (c : Dev nD) (k : Fin 768) (o : Fin 1536) :
    (V m c main_v12 : S768x1536.Idx → EReal) (ix2 k o) = (m ((c : Thread nD τ).loc main_arg6) : S1536x768.Idx → EReal) (ix2 o k) := by
  rw [V_v12_term, truncf_apply]
  exact transpose_apply [1, 0] _ transposes_S1536x768_S768x1536_1_0 (ix2 k o) (ix2 o k) (fun b => match b with
    | ⟨0, _⟩ => rfl
    | ⟨1, _⟩ => rfl)

/-- The output projection's weights as the region finds them: the argument matrix transposed. -/
theorem V_v14_term (c : Dev nD) :
    (V m c main_v14 : S768x768.Idx → EReal)
      = (truncf (F := Ideal) (φ := .f32) .bf16 (transpose S768x768 [1, 0] (m ((c : Thread nD τ).loc main_arg8) : FVec Ideal S768x768 .f32)
          transposes_S768x768_S768x768_1_0) bitsLt_bf16_f32 : FVec Ideal S768x768 .bf16) := by
  show StableHlo.after hostOps0 (fun b => m (c, b)) (Proc.devRef .tc main_v14) = _
  after_results

theorem V_v14_apply (c : Dev nD) (k o : Fin 768) :
    (V m c main_v14 : S768x768.Idx → EReal) (ix2 k o) = (m ((c : Thread nD τ).loc main_arg8) : S768x768.Idx → EReal) (ix2 o k) := by
  rw [V_v14_term, truncf_apply]
  exact transpose_apply [1, 0] _ transposes_S768x768_S768x768_1_0 (ix2 k o) (ix2 o k) (fun b => match b with
    | ⟨0, _⟩ => rfl
    | ⟨1, _⟩ => rfl)

/-- The query bias as the region finds it: the argument vector as a one-row matrix. -/
theorem V_v6_term (c : Dev nD) :
    (V m c main_v6 : S1x768.Idx → EReal)
      = shapeCast _ (m ((c : Thread nD τ).loc main_arg5)) shapeCasts_S768_S1x768 := by
  show StableHlo.after hostOps0 (fun b => m (c, b)) (Proc.devRef .tc main_v6) = _
  after_results
  rfl

theorem V_v6_apply (c : Dev nD) (o : Fin 768) :
    (V m c main_v6 : S1x768.Idx → EReal) (ix2 0 o) = (m ((c : Thread nD τ).loc main_arg5) : S768.Idx → EReal) (ix1 o) := by
  rw [V_v6_term]
  exact shapeCast_a_1a_apply _ shapeCasts_S768_S1x768 0 o

/-- The key/value bias as the region finds it: the argument vector as a one-row matrix. -/
theorem V_v7_term (c : Dev nD) :
    (V m c main_v7 : S1x1536.Idx → EReal)
      = shapeCast _ (m ((c : Thread nD τ).loc main_arg7)) shapeCasts_S1536_S1x1536 := by
  show StableHlo.after hostOps0 (fun b => m (c, b)) (Proc.devRef .tc main_v7) = _
  after_results
  rfl

theorem V_v7_apply (c : Dev nD) (o : Fin 1536) :
    (V m c main_v7 : S1x1536.Idx → EReal) (ix2 0 o) = (m ((c : Thread nD τ).loc main_arg7) : S1536.Idx → EReal) (ix1 o) := by
  rw [V_v7_term]
  exact shapeCast_a_1a_apply _ shapeCasts_S1536_S1x1536 0 o

/-- The output projection's bias as the region finds it: the argument vector as a one-row matrix. -/
theorem V_v8_term (c : Dev nD) :
    (V m c main_v8 : S1x768.Idx → EReal)
      = shapeCast _ (m ((c : Thread nD τ).loc main_arg9)) shapeCasts_S768_S1x768 := by
  show StableHlo.after hostOps0 (fun b => m (c, b)) (Proc.devRef .tc main_v8) = _
  after_results
  rfl

theorem V_v8_apply (c : Dev nD) (o : Fin 768) :
    (V m c main_v8 : S1x768.Idx → EReal) (ix2 0 o) = (m ((c : Thread nD τ).loc main_arg9) : S768.Idx → EReal) (ix1 o) := by
  rw [V_v8_term]
  exact shapeCast_a_1a_apply _ shapeCasts_S768_S1x768 0 o

end Cert.KernelValue

end
-- ==== Proof.Final.lean ====
/-
  From tiles to the whole array. The grid has 8 × 7 points; point (b, i) reads pixels i·112 … i·112 + 111 of batch entry
  b (all eight time steps) and the 28 coarse tokens i·28 … i·28 + 27 of that entry, and writes the same pixels of the
  output. The 56 tiles partition the output array, so it ends holding the row attention everywhere; the program's last
  operation only re-groups (batch entry, time step, pixel) to (frame, row, column).
-/
import proofs.«178110_j38543036514771_2_alg».proof.Proof.Gen.KernelIdeal.Frame
import proofs.«178110_j38543036514771_2_alg».proof.Proof.Body
import proofs.«178110_j38543036514771_2_alg».proof.Proof.HostIn
import Idealize.ShloMosaic.Lib.StableHlo.Run

set_option maxRecDepth 16384

noncomputable section

namespace Cert.KernelValue

open Cert.KernelIdeal Cert.KernelIdeal.Gen
open Idealize.ShloMosaic Idealize.ShloMosaic.TcCoe Idealize.ShloMosaic.ValueIdx Idealize.SL.Sem Cert.Attn
open Idealize.ShloMosaic.StableHlo

variable (m : (ℓ : Loc nD τ sig) → Buf (Elt Ideal) ℓ) (ρ : Dev nD → PrngReg)

/-! ## The grid points' blocks -/

/-- Point `t` of the 56 is batch entry `t / 7`, tile `t % 7`. -/
def ptB (t : Fin 56) : Fin 8 := ⟨t.val / 7, by have := t.isLt; omega⟩
def ptI (t : Fin 56) : Fin 7 := ⟨t.val % 7, Nat.mod_lt _ (by decide)⟩
/-- Pixel `r` of tile `i` is pixel `i·112 + r` of the 784. -/
def pix (i : Fin 7) (r : Fin 112) : Fin 784 := ⟨i.val * 112 + r.val, by have := i.isLt; have := r.isLt; omega⟩
/-- Coarse token `u` of tile `i` is token `i·28 + u` of the 196. -/
def ctok (i : Fin 7) (u : Fin 28) : Fin 196 := ⟨i.val * 28 + u.val, by have := i.isLt; have := u.isLt; omega⟩

/-- The printed index maps over the 56 grid points. -/
theorem idx_facts : ∀ t : Fin cfg0.N,
    win0_0.index t (0 : Fin 4) = t.val / 7 ∧ win0_0.index t (1 : Fin 4) = 0 ∧ win0_0.index t (2 : Fin 4) = t.val % 7 ∧ win0_0.index t (3 : Fin 4) = 0
    ∧ win0_1.index t (0 : Fin 4) = t.val / 7 ∧ win0_1.index t (1 : Fin 4) = t.val % 7 ∧ win0_1.index t (2 : Fin 4) = 0 ∧ win0_1.index t (3 : Fin 4) = 0
    ∧ win0_9.index t (0 : Fin 4) = t.val / 7 ∧ win0_9.index t (1 : Fin 4) = 0 ∧ win0_9.index t (2 : Fin 4) = t.val % 7 ∧ win0_9.index t (3 : Fin 4) = 0 :=
  (by decide +kernel : ∀ t : Fin grid0.N, _)

theorem idx_facts0 : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The fine-token block of point `t` at (time step, pixel of the tile, channel). -/
theorem blk0_apply (c : Dev nD) (t : Fin cfg0.N) (t' : Fin 8) (r : Fin 112) (k : Fin 768) :
    iblk m c 0 t (ix4 0 t' r k) = (V m c main_v0 : S8x8x784x768.Idx → EReal) (ix4 (ptB t) t' (pix (ptI t) r) k) := by
  obtain ⟨e0, e1, e2, e3, -⟩ := idx_facts t
  show V m c main_v0 (((cfg0.win 0).blk t).view.emb (ix4 0 t' r k)) = V m c main_v0 _
  refine congrArg (V m c main_v0) (funext fun a => Fin.ext ?_)
  match a with
  | ⟨0, _⟩ => show win0_0.index t (0 : Fin 4) * 1 + 1 * 0 = t.val / 7; omega
  | ⟨1, _⟩ => show win0_0.index t (1 : Fin 4) * 8 + 1 * t'.val = t'.val; omega
  | ⟨2, _⟩ => show win0_0.index t (2 : Fin 4) * 112 + 1 * r.val = t.val % 7 * 112 + r.val; omega
  | ⟨3, _⟩ => show win0_0.index t (3 : Fin 4) * 768 + 1 * k.val = k.val; omega

/-- The coarse-token block of point `t` at (token of the tile, time step, channel). -/
theorem blk1_apply (c : Dev nD) (t : Fin cfg0.N) (u : Fin 28) (t' : Fin 8) (k : Fin 768) :
    iblk m c 1 t (ix4 0 u t' k) = (V m c main_v5 : S8x196x8x768.Idx → EReal) (ix4 (ptB t) (ctok (ptI t) u) t' k) := by
  obtain ⟨-, -, -, -, e0, e1, e2, e3, -⟩ := idx_facts t
  show V m c main_v5 (((cfg0.win 1).blk t).view.emb (ix4 0 u t' k)) = V m c main_v5 _
  refine congrArg (V m c main_v5) (funext fun a => Fin.ext ?_)
  match a with
  | ⟨0, _⟩ => show win0_1.index t (0 : Fin 4) * 1 + 1 * 0 = t.val / 7; omega
  | ⟨1, _⟩ => show win0_1.index t (1 : Fin 4) * 28 + 1 * u.val = t.val % 7 * 28 + u.val; omega
  | ⟨2, _⟩ => show win0_1.index t (2 : Fin 4) * 8 + 1 * t'.val = t'.val; omega
  | ⟨3, _⟩ => show win0_1.index t (3 : Fin 4) * 768 + 1 * k.val = k.val; omega

/-! The seven windows that every point reads whole. -/
theorem blk2_apply (c : Dev nD) (t : Fin cfg0.N) (i : Fin 8) (j : Fin 768) :
    iblk m c 2 t (ix2 i j) = (V m c main_arg2 : S8x768.Idx → EReal) (ix2 i j) := by
  obtain ⟨e2a, e2b, e3a, e3b, e4a, e4b, e5a, e5b, e6a, e6b, e7a, e7b, e8a, e8b⟩ := idx_facts0 t
  show V m c main_arg2 (((cfg0.win 2).blk t).view.emb (ix2 i j)) = V m c main_arg2 _
  refine congrArg (V m c main_arg2) (funext fun a => Fin.ext ?_)
  match a with
  | ⟨0, _⟩ => show win0_2.index t (0 : Fin 2) * 8 + 1 * i.val = i.val; omega
  | ⟨1, _⟩ => show win0_2.index t (1 : Fin 2) * 768 + 1 * j.val = j.val; omega

theorem blk3_apply (c : Dev nD) (t : Fin cfg0.N) (i : Fin 768) (j : Fin 768) :
    iblk m c 3 t (ix2 i j) = (V m c main_v10 : S768x768.Idx → EReal) (ix2 i j) := by
  obtain ⟨e2a, e2b, e3a, e3b, e4a, e4b, e5a, e5b, e6a, e6b, e7a, e7b, e8a, e8b⟩ := idx_facts0 t
  show V m c main_v10 (((cfg0.win 3).blk t).view.emb (ix2 i j)) = V m c main_v10 _
  refine congrArg (V m c main_v10) (funext fun a => Fin.ext ?_)
  match a with
  | ⟨0, _⟩ => show win0_3.index t (0 : Fin 2) * 768 + 1 * i.val = i.val; omega
  | ⟨1, _⟩ => show win0_3.index t (1 : Fin 2) * 768 + 1 * j.val = j.val; omega

theorem blk4_apply (c : Dev nD) (t : Fin cfg0.N) (i : Fin 1) (j : Fin 768) :
    iblk m c 4 t (ix2 i j) = (V m c main_v6 : S1x768.Idx → EReal) (ix2 i j) := by
  obtain ⟨e2a, e2b, e3a, e3b, e4a, e4b, e5a, e5b, e6a, e6b, e7a, e7b, e8a, e8b⟩ := idx_facts0 t
  show V m c main_v6 (((cfg0.win 4).blk t).view.emb (ix2 i j)) = V m c main_v6 _
  refine congrArg (V m c main_v6) (funext fun a => Fin.ext ?_)
  match a with
  | ⟨0, _⟩ => show win0_4.index t (0 : Fin 2) * 1 + 1 * i.val = i.val; omega
  | ⟨1, _⟩ => show win0_4.index t (1 : Fin 2) * 768 + 1 * j.val = j.val; omega

theorem blk5_apply (c : Dev nD) (t : Fin cfg0.N) (i : Fin 768) (j : Fin 1536) :
    iblk m c 5 t (ix2 i j) = (V m c main_v12 : S768x1536.Idx → EReal) (ix2 i j) := by
  obtain ⟨e2a, e2b, e3a, e3b, e4a, e4b, e5a, e5b, e6a, e6b, e7a, e7b, e8a, e8b⟩ := idx_facts0 t
  show V m c main_v12 (((cfg0.win 5).blk t).view.emb (ix2 i j)) = V m c main_v12 _
  refine congrArg (V m c main_v12) (funext fun a => Fin.ext ?_)
  match a with
  | ⟨0, _⟩ => show win0_5.index t (0 : Fin 2) * 768 + 1 * i.val = i.val; omega
  | ⟨1, _⟩ => show win0_5.index t (1 : Fin 2) * 1536 + 1 * j.val = j.val; omega

theorem blk6_apply (c : Dev nD) (t : Fin cfg0.N) (i : Fin 1) (j : Fin 1536) :
    iblk m c 6 t (ix2 i j) = (V m c main_v7 : S1x1536.Idx → EReal) (ix2 i j) := by
  obtain ⟨e2a, e2b, e3a, e3b, e4a, e4b, e5a, e5b, e6a, e6b, e7a, e7b, e8a, e8b⟩ := idx_facts0 t
  show V m c main_v7 (((cfg0.win 6).blk t).view.emb (ix2 i j)) = V m c main_v7 _
  refine congrArg (V m c main_v7) (funext fun a => Fin.ext ?_)
  match a with
  | ⟨0, _⟩ => show win0_6.index t (0 : Fin 2) * 1 + 1 * i.val = i.val; omega
  | ⟨1, _⟩ => show win0_6.index t (1 : Fin 2) * 1536 + 1 * j.val = j.val; omega

theorem blk7_apply (c : Dev nD) (t : Fin cfg0.N) (i : Fin 768) (j : Fin 768) :
    iblk m c 7 t (ix2 i j) = (V m c main_v14 : S768x768.Idx → EReal) (ix2 i j) := by
  obtain ⟨e2a, e2b, e3a, e3b, e4a, e4b, e5a, e5b, e6a, e6b, e7a, e7b, e8a, e8b⟩ := idx_facts0 t
  show V m c main_v14 (((cfg0.win 7).blk t).view.emb (ix2 i j)) = V m c main_v14 _
  refine congrArg (V m c main_v14) (funext fun a => Fin.ext ?_)
  match a with
  | ⟨0, _⟩ => show win0_7.index t (0 : Fin 2) * 768 + 1 * i.val = i.val; omega
  | ⟨1, _⟩ => show win0_7.index t (1 : Fin 2) * 768 + 1 * j.val = j.val; omega

theorem blk8_apply (c : Dev nD) (t : Fin cfg0.N) (i : Fin 1) (j : Fin 768) :
    iblk m c 8 t (ix2 i j) = (V m c main_v8 : S1x768.Idx → EReal) (ix2 i j) := by
  obtain ⟨e2a, e2b, e3a, e3b, e4a, e4b, e5a, e5b, e6a, e6b, e7a, e7b, e8a, e8b⟩ := idx_facts0 t
  show V m c main_v8 (((cfg0.win 8).blk t).view.emb (ix2 i j)) = V m c main_v8 _
  refine congrArg (V m c main_v8) (funext fun a => Fin.ext ?_)
  match a with
  | ⟨0, _⟩ => show win0_8.index t (0 : Fin 2) * 1 + 1 * i.val = i.val; omega
  | ⟨1, _⟩ => show win0_8.index t (1 : Fin 2) * 768 + 1 * j.val = j.val; omega

/-- Where point `t`'s output tile sits in the output array. -/
theorem emb9_apply (t : Fin cfg0.N) (t' : Fin 8) (r : Fin 112) (o : Fin 768) :
    (((cfg0.win 9).blk t).view.emb (ix4 0 t' r o) : S8x8x784x768.Idx) = ix4 (ptB t) t' (pix (ptI t) r) o := by
  obtain ⟨-, -, -, -, -, -, -, -, e0, e1, e2, e3⟩ := idx_facts t
  refine funext fun a => Fin.ext ?_
  match a with
  | ⟨0, _⟩ => show win0_9.index t (0 : Fin 4) * 1 + 1 * 0 = t.val / 7; omega
  | ⟨1, _⟩ => show win0_9.index t (1 : Fin 4) * 8 + 1 * t'.val = t'.val; omega
  | ⟨2, _⟩ => show win0_9.index t (2 : Fin 4) * 112 + 1 * r.val = t.val % 7 * 112 + r.val; omega
  | ⟨3, _⟩ => show win0_9.index t (3 : Fin 4) * 768 + 1 * o.val = o.val; omega

/-! ## What each point writes back -/

/-- The row attention of the argument arrays of core `c`. -/
abbrev GA (c : Dev nD) : S64x28x28x768.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The region's output array: entry (b, t, p, o) is the attention of row (b, p / 28, p % 28) at (t, o). -/
def K15 (c : Dev nD) : S8x8x784x768.Idx → EReal := fun j =>
  GA m c (ix4 (frame (j 0) (j 1)) (pixH (j 2)) (pixW (j 2)) (j 3))

theorem K15_ix4 (c : Dev nD) (b t' : Fin 8) (p : Fin 784) (o : Fin 768) :
    K15 m c (ix4 b t' p o) = GA m c (ix4 (frame b t') (pixH p) (pixW p) o) := rfl

theorem G_ix4 (a0 : A0) (a1 : A1) (a2 a3 : A2) (a4 : AW) (a5 : AB) (a6 : AKV) (a7 : AKB) (a8 : AW) (a9 : AB)
    (f : Fin 64) (h w : Fin 28) (o : Fin 768) :
    G a0 a1 a2 a3 a4 a5 a6 a7 a8 a9 (ix4 f h w o)
      = attnRow (rowS a0 a2 (batchOf f) h w) (rowT a1 a3 (batchOf f) h w) (fun o k => a4 (ix2 o k)) (fun o => a5 (ix1 o))
          (fun o k => a6 (ix2 o k)) (fun o => a7 (ix1 o)) (fun o k => a8 (ix2 o k)) (fun o => a9 (ix1 o)) (stepOf f) o := rfl

theorem batchOf_frame (b t : Fin 8) : batchOf (frame b t) = b := Fin.ext (by
  show (b.val * 8 + t.val) / 8 = b.val
  have := t.isLt; omega)
theorem stepOf_frame (b t : Fin 8) : stepOf (frame b t) = t := Fin.ext (by
  show (b.val * 8 + t.val) % 8 = t.val
  have := t.isLt; omega)

/-- The coarse token a pixel of a tile repeats is the coarse token under that pixel of the whole grid. -/
theorem tok_eq (i : Fin 7) (r : Fin 112) (t' : Fin 8) :
    tokAt t' (ctok i (coarseOf r)) = tok t' (pixH (pix i r)) (pixW (pix i r)) := Fin.ext (by
  show t'.val * 196 + (i.val * 28 + (r.val / 28 / 2 * 14 + r.val % 28 / 2))
    = t'.val * 196 + ((i.val * 112 + r.val) / 28 / 2 * 14 + (i.val * 112 + r.val) % 28 / 2)
  have := r.isLt; have := i.isLt; omega)

/-- WHAT POINT `t` WRITES BACK at (time step, pixel of the tile, channel): the row attention of that pixel's row. -/
theorem flushed_point (c : Dev nD) (t : Fin cfg0.N) (t' : Fin 8) (r : Fin 112) (o : Fin 768) :
    out0_9 (iblk m c 0 t) (iblk m c 1 t) (iblk m c 2 t) (iblk m c 3 t) (iblk m c 4 t) (iblk m c 5 t) (iblk m c 6 t)
        (iblk m c 7 t) (iblk m c 8 t) (ix4 0 t' r o)
      = K15 m c (ix4 (ptB t) t' (pix (ptI t) r) o) := by
  refine (body_apply (iblk m c 0 t) (iblk m c 1 t) (iblk m c 2 t) (iblk m c 3 t) (iblk m c 4 t) (iblk m c 5 t)
    (iblk m c 6 t) (iblk m c 7 t) (iblk m c 8 t) r t' o).trans ?_
  simp only [blk0_apply, blk1_apply, blk2_apply, blk3_apply, blk4_apply, blk5_apply, blk6_apply, blk7_apply, blk8_apply]
  simp only [V_v0_apply m c, V_main_arg2 m c, V_v10_apply m c, V_v12_apply m c, V_v14_apply m c, V_v6_apply m c, V_v7_apply m c, V_v8_apply m c,
    V_v5_apply m c _ _ _ _ (m ((c : Thread nD τ).loc main_arg1)) (m ((c : Thread nD τ).loc main_arg3)) rfl rfl, tok_eq]
  rw [K15_ix4, GA, G_ix4, batchOf_frame, stepOf_frame]
  unfold rowS rowT
  rfl

/-- The same at any index of the tile. -/
theorem flushed_at (c : Dev nD) (t : Fin cfg0.N) (y : S1x8x112x768.Idx) :
    out0_9 (iblk m c 0 t) (iblk m c 1 t) (iblk m c 2 t) (iblk m c 3 t) (iblk m c 4 t) (iblk m c 5 t) (iblk m c 6 t)
        (iblk m c 7 t) (iblk m c 8 t) y = K15 m c (((cfg0.win 9).blk t).view.emb y) := by
  have h0 : y 0 = (0 : Fin 1) := Fin.ext (Nat.lt_one_iff.mp (y 0).isLt)
  obtain ⟨t', r, o, rfl⟩ : ∃ (t' : Fin 8) (r : Fin 112) (o : Fin 768), y = ix4 0 t' r o :=
    ⟨y 1, y 2, y 3, (eq_ix4 y).trans (by rw [h0]; rfl)⟩
  rw [emb9_apply]
  exact flushed_point m c t t' r o

/-- WHAT POINT `t` WRITES BACK is tile `t` of the row attention. -/
theorem flushed_eq (c : Dev nD) (t : Fin cfg0.N) :
    (dats m 0 c).flushed 9 t = ((cfg0.win 9).blk t).view.read (Elt Ideal) (K15 m c) := by
  show (cfg0.win 9).cut (grid0.coords t) ((dats m 0 c).after 9 t) = _
  rw [after0_9]
  funext y
  exact flushed_at m c t y

/-! ## The tiles partition the output array -/

theorem mem_blk9 (t : Fin cfg0.N) (i : S8x8x784x768.Idx) :
    i ∈ ((cfg0.win 9).blk t).view.set ↔ ∀ a : Fin 4, win0_9.index t a * S1x8x112x768.size a ≤ (i a).val
      ∧ (i a).val < win0_9.index t a * S1x8x112x768.size a + S1x8x112x768.size a := by
  show i ∈ ((View.whole main_v15).slice (win0_9.rect t)).set ↔ _
  rw [View.set_slice_whole, Rect.mem_set_unit]
  exact Iff.rfl

/-- Entry (b, t, p, o) of the output array is in the tile of point (b, p / 112). -/
theorem cover9 (i : S8x8x784x768.Idx) :
    ∃ t : Fin cfg0.N, (cfg0.win 9).flush t = true ∧ i ∈ ((cfg0.win 9).blk t).view.set := by
  have h0 : (i 0).val < 8 := (i 0).isLt
  have h1 : (i 1).val < 8 := (i 1).isLt
  have h2 : (i 2).val < 784 := (i 2).isLt
  have h3 : (i 3).val < 768 := (i 3).isLt
  obtain ⟨t, ht⟩ : ∃ t : Fin cfg0.N, t.val = (i 0).val * 7 + (i 2).val / 112 :=
    ⟨⟨(i 0).val * 7 + (i 2).val / 112, by show _ < 56; omega⟩, rfl⟩
  refine ⟨t, flush0_9 t, ?_⟩
  rw [mem_blk9]
  obtain ⟨-, -, -, -, -, -, -, -, e0, e1, e2, e3⟩ := idx_facts t
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 8 ≤ (i 1).val ∧ (i 1).val < win0_9.index t (1 : Fin 4) * 8 + 8; omega
  | ⟨2, _⟩ => show win0_9.index t (2 : Fin 4) * 112 ≤ (i 2).val ∧ (i 2).val < win0_9.index t (2 : Fin 4) * 112 + 112; omega
  | ⟨3, _⟩ => show win0_9.index t (3 : Fin 4) * 768 ≤ (i 3).val ∧ (i 3).val < win0_9.index t (3 : Fin 4) * 768 + 768; omega

/-- THE OUTPUT ARRAY after the region: the row attention, everywhere. -/
theorem final15 (c : Dev nD) : (dats m 0 c).arrAt 9 cfg0.N = K15 m c :=
  (dats m 0 c).arrAt_eq_of_cover 9 (K15 m c) (fun t _ => flushed_eq m c t) cover9

/-! ## The last operation: re-grouping to (frame, row, column, channel) -/

theorem frame_batch_step (f : Fin 64) : frame (batchOf f) (stepOf f) = f := Fin.ext (by
  show f.val / 8 * 8 + f.val % 8 = f.val
  omega)

/-- Pixel `h·28 + w` of the 784. -/
def pixOf (h w : Fin 28) : Fin 784 := ⟨h.val * 28 + w.val, by have := h.isLt; have := w.isLt; omega⟩
theorem pixH_pixOf (h w : Fin 28) : pixH (pixOf h w) = h := Fin.ext (by
  show (h.val * 28 + w.val) / 28 = h.val
  have := w.isLt; omega)
theorem pixW_pixOf (h w : Fin 28) : pixW (pixOf h w) = w := Fin.ext (by
  show (h.val * 28 + w.val) % 28 = w.val
  have := w.isLt; omega)

/-- The program's result: the region's output array re-grouped, which is the row attention of the arguments. -/
theorem tail16 (c : Dev nD) : Pipeline.afterTail₀ cfgs (dats m) 0 (V0 m) [hostOps1] c main_v16 = GA m c := by
  unfold Pipeline.afterTail₀
  show StableHlo.after hostOps1 _ (Proc.devRef .tc main_v16) = _
  after_results
  funext i
  show shapeCast S64x28x28x768 (Pipeline.withArrays (cfgs 0).spec c (V0 m c) (fun w => (dats m 0 c).arrAt w (cfgs 0).N)
    (Proc.devRef .tc main_v15)) shapeCasts_S8x8x784x768_S64x28x28x768 i = _
  have hA : Pipeline.withArrays (cfgs 0).spec c (V0 m c) (fun w => (dats m 0 c).arrAt w (cfgs 0).N) (Proc.devRef .tc main_v15)
      = K15 m c := (Pipeline.withArrays_arr spec0 launch0.win.arr_inj c _ _ 9).trans (final15 m c)
  rw [hA]
  obtain ⟨f, h, w, o, rfl⟩ : ∃ (f : Fin 64) (h w : Fin 28) (o : Fin 768), i = ix4 f h w o := ⟨i 0, i 1, i 2, i 3, eq_ix4 i⟩
  rw [shapeCast_apply (K15 m c) shapeCasts_S8x8x784x768_S64x28x28x768 (ix4 f h w o) (ix4 (batchOf f) (stepOf f) (pixOf h w) o) (by
    rewrite [Shape.rowMajor_val_four, Shape.rowMajor_val_four]
    show ((f.val / 8 * 8 + f.val % 8) * 784 + (h.val * 28 + w.val)) * 768 + o.val = ((f.val * 28 + h.val) * 28 + w.val) * 768 + o.val
    omega)]
  rw [K15_ix4, frame_batch_step, pixH_pixOf, pixW_pixOf]

/-! ## The run, read -/

/-- Every weakly fair execution of the program terminates with its result at the row attention of the arguments,
    the arguments unchanged. -/
theorem run : θ_run defs (onTc (τ := τ) (main (F := Ideal))) ⟨m, fun _ => 0, ρ⟩ fun r => ∀ c : Dev nD,
      r.2.mem ((c : Thread nD τ).loc main_v16) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).2 main_v16 (Pipeline.mem_restRefs_of main_v16 (by decide) (by decide))).trans (tail16 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelValue

end
-- ==== Proof.lean ====
/-
  The certificate of a fused cross-attention kernel against its plain array reference.

  Both programs compute, for every spatial position (batch entry b, pixel (h, w) of a 28 × 28 grid), multi-head
  attention over eight time steps: queries from the fine tokens (with a time embedding added), keys and values from
  the coarse token under the pixel (a 14 × 14 grid repeated 2 × 2, with its own time embedding), twelve heads of width
  64, a soft-max over the key time step, and an output projection (`Cert.Attn.G`, Proof/Spec.lean). The kernel
  computes it tile by tile — 112 pixels at a time, all eight time steps of a pixel in one tile, the heads one after the
  other —; the reference computes it on whole arrays. On the extended reals the two agree entry by entry: sums may be
  regrouped and re-ordered freely, a change of float format is the identity, and every other operation is the same
  operation applied to the same operands, so the proof never needs the inputs to be finite.

  Proof/RefRow*.lean read the reference's run index by index; Proof/QKV.lean, Proof/Heads*.lean and Proof/Body.lean read the
  kernel's body at an index of its tile; Proof/HostIn.lean reads the arrays the region is launched on; Proof/Final.lean
  goes from tiles to the whole output array and through the program's last re-grouping.
-/
import proofs.«178110_j38543036514771_2_alg».proof.Defs
import proofs.«178110_j38543036514771_2_alg».proof.Proof.Gen.Kernel
import proofs.«178110_j38543036514771_2_alg».proof.Proof.Gen.Kernel.Skeleton
import proofs.«178110_j38543036514771_2_alg».proof.Proof.Gen.Kernel.Launch
import proofs.«178110_j38543036514771_2_alg».proof.Proof.Gen.Kernel.Points
import proofs.«178110_j38543036514771_2_alg».proof.Proof.Gen.Kernel.Frame
import proofs.«178110_j38543036514771_2_alg».proof.Proof.Gen.KernelIdeal
import proofs.«178110_j38543036514771_2_alg».proof.Proof.Gen.KernelIdeal.Skeleton
import proofs.«178110_j38543036514771_2_alg».proof.Proof.Gen.KernelIdeal.Launch
import proofs.«178110_j38543036514771_2_alg».proof.Proof.Gen.KernelIdeal.Points
import proofs.«178110_j38543036514771_2_alg».proof.Proof.Gen.KernelIdeal.Frame
import proofs.«178110_j38543036514771_2_alg».proof.Proof.Gen.ReferenceIdeal
import proofs.«178110_j38543036514771_2_alg».proof.Proof.Gen.ReferenceIdeal.Run
import proofs.«178110_j38543036514771_2_alg».proof.Proof.Gen.ReferenceIdeal.Read
import proofs.«178110_j38543036514771_2_alg».proof.Proof.Gen.Pre_finite_inputs
import proofs.«178110_j38543036514771_2_alg».proof.Proof.RefRow
import proofs.«178110_j38543036514771_2_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the row attention of their (agreeing) arguments. -/
theorem algebraic : Cert.algebraic_KernelIdeal_ReferenceIdeal := by
  intro m ρ m' ρ' _ hagree
  refine ⟨fun c => Cert.KernelValue.GA m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.RefValue.ref_eq]
  obtain ⟨e0, e1, e2, e3, e4, e5, e6, e7, e8, e9⟩ := hagree c
  rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
